-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x1024x1024 : Shape := ⟨4, ![16, 2, 1024, 1024]⟩
abbrev S_ : Shape := ⟨0, ![]⟩

class Facts : Prop where
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_
  h_S_ : 0 < S_.numel

variable [Facts]

def fn {F : FTy → Type} [FloatOps F] (main_arg0 : FVec F S16x2x1024x1024 .f32) : IVec S_ 1 :=
  let main_v0 : FVec F S16x2x1024x1024 .f32 := Host.absf main_arg0
  let main_cst : FVec F S_ .f32 := constant S_ .f32 0x7F800000#32
  let main_v1 : FVec F S16x2x1024x1024 .f32 := broadcastInDim S16x2x1024x1024 ![] bcast_S_S16x2x1024x1024 main_cst
  let main_v2 : IVec S16x2x1024x1024 1 := cmpf .olt main_v0 main_v1
  let main_c : IVec S_ 1 := constantI S_ 1 1#1
  let main_v3 : IVec S_ 1 := (fun x v => Host.reduce IntOp.andi x v reducesTo_S16x2x1024x1024_S_d0_1_2_3 h_S_) main_v2 main_c
  main_v3
-- ==== Kernel.lean ====
abbrev S16x2x1024x1024 : Shape := ⟨4, ![16, 2, 1024, 1024]⟩
abbrev S16x1x1024x1024 : Shape := ⟨4, ![16, 1, 1024, 1024]⟩
abbrev S1x2x1024x1024 : Shape := ⟨4, ![1, 2, 1024, 1024]⟩
abbrev S1x1x1024x1024 : Shape := ⟨4, ![1, 1, 1024, 1024]⟩
abbrev S144x1024 : Shape := ⟨2, ![144, 1024]⟩
abbrev S1x1x136x1024 : Shape := ⟨4, ![1, 1, 136, 1024]⟩
abbrev S136x1024 : Shape := ⟨2, ![136, 1024]⟩
abbrev S8x1024 : Shape := ⟨2, ![8, 1024]⟩
abbrev S128x1024 : Shape := ⟨2, ![128, 1024]⟩
abbrev S1x1x128x1024 : Shape := ⟨4, ![1, 1, 128, 1024]⟩
abbrev S1x1x144x1024 : Shape := ⟨4, ![1, 1, 144, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .f32⟩
  | .local _ .vmem, ⟨0, _⟩ => ⟨S1x2x1024x1024, .f32⟩
  | .local _ .vmem, ⟨1, _⟩ => ⟨S1x2x1024x1024, .f32⟩
  | .local _ .vmem, ⟨2, _⟩ => ⟨S1x1x1024x1024, .f32⟩
  | .local _ .vmem, ⟨3, _⟩ => ⟨S1x1x1024x1024, .f32⟩
  | _, _ => ⟨S16x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32_47 : BitVec 32 := 1#32
  let c6_i32 : BitVec 32 := 6#32
  let v103 : BitVec 32 := Scalar.addi c1_i32_47 c6_i32
  let c1_i32_48 : BitVec 32 := 1#32
  ⟨c1_i32_47, v103, c1_i32_48⟩
def k0_mult1 (k0_t1 : Fin k0_t1_loop.trips) : BitVec 32 :=
  let c1_i32_47 : BitVec 32 := 1#32
  let c1_i32_48 : BitVec 32 := 1#32
  let arg3 : BitVec 32 := Scf.iv c1_i32_47 c1_i32_48 k0_t1
  let c128_i32 : BitVec 32 := 128#32
  let v206 : BitVec 32 := Scalar.muli arg3 c128_i32
  v206
def k0_mult2 (k0_t1 : Fin k0_t1_loop.trips) : BitVec 32 :=
  let c1_i32_47 : BitVec 32 := 1#32
  let c1_i32_48 : BitVec 32 := 1#32
  let arg3 : BitVec 32 := Scf.iv c1_i32_47 c1_i32_48 k0_t1
  let c128_i32 : BitVec 32 := 128#32
  let v206 : BitVec 32 := Scalar.muli arg3 c128_i32
  let v207 : BitVec 32 := v206
  let c8_i32 : BitVec 32 := 8#32
  let v208 : BitVec 32 := Scalar.subi v207 c8_i32
  v208
def k0_off1 (k0_t1 : Fin k0_t1_loop.trips) : Fin 4 → Nat :=
  let c0_102 : Index := 0#32
  let c0_103 : Index := 0#32
  let c1_i32_47 : BitVec 32 := 1#32
  let c1_i32_48 : BitVec 32 := 1#32
  let arg3 : BitVec 32 := Scf.iv c1_i32_47 c1_i32_48 k0_t1
  let c128_i32 : BitVec 32 := 128#32
  let v206 : BitVec 32 := Scalar.muli arg3 c128_i32
  let v207 : BitVec 32 := v206
  let c8_i32 : BitVec 32 := 8#32
  let v208 : BitVec 32 := Scalar.subi v207 c8_i32
  let v209 : BitVec 32 := v208
  let v210 : Index := Scalar.indexCast v209
  let c0_104 : Index := 0#32
  ![0, 0, v210.toNat, 0]
def k0_off2 (k0_t1 : Fin k0_t1_loop.trips) : Fin 4 → Nat :=
  let c0_105 : Index := 0#32
  let c1_106 : Index := 1#32
  let c1_i32_47 : BitVec 32 := 1#32
  let c1_i32_48 : BitVec 32 := 1#32
  let arg3 : BitVec 32 := Scf.iv c1_i32_47 c1_i32_48 k0_t1
  let c128_i32 : BitVec 32 := 128#32
  let v206 : BitVec 32 := Scalar.muli arg3 c128_i32
  let v207 : BitVec 32 := v206
  let c8_i32 : BitVec 32 := 8#32
  let v208 : BitVec 32 := Scalar.subi v207 c8_i32
  let v209 : BitVec 32 := v208
  let v213 : Index := Scalar.indexCast v209
  let c0_107 : Index := 0#32
  ![0, 1, v213.toNat, 0]
def k0_off3 (k0_t1 : Fin k0_t1_loop.trips) : Fin 4 → Nat :=
  let c0_148 : Index := 0#32
  let c0_149 : Index := 0#32
  let c1_i32_47 : BitVec 32 := 1#32
  let c1_i32_48 : BitVec 32 := 1#32
  let arg3 : BitVec 32 := Scf.iv c1_i32_47 c1_i32_48 k0_t1
  let c128_i32 : BitVec 32 := 128#32
  let v206 : BitVec 32 := Scalar.muli arg3 c128_i32
  let v207 : BitVec 32 := v206
  let v307 : Index := Scalar.indexCast v207
  let c0_150 : Index := 0#32
  ![0, 0, v307.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S144x1024_d1_w32 : S144x1024.Iotas .tc 32 [1]
  inb_S1x2x1024x1024_S1x1x136x1024_0_0_0_0 : ∀ a, (![0, 0, 0, 0] : Fin 4 → Nat) a + S1x1x136x1024.size a ≤ S1x2x1024x1024.size a
  h_S1x1x136x1024 : 0 < S1x1x136x1024.numel
  shapeCasts_S1x1x136x1024_S136x1024 : S1x1x136x1024.ShapeCasts S136x1024
  concatenates_S8x1024_S136x1024_S144x1024_d0 : Shape.Concatenates [S8x1024, S136x1024] S144x1024 0
  inb_S1x2x1024x1024_S1x1x136x1024_0_1_0_0 : ∀ a, (![0, 1, 0, 0] : Fin 4 → Nat) a + S1x1x136x1024.size a ≤ S1x2x1024x1024.size a
  rotates_S144x1024_d0 : S144x1024.Rotates 0 none
  rotates_S144x1024_d1 : S144x1024.Rotates 1 none
  slices_S144x1024_o8_0_S128x1024 : S144x1024.Slices ![8, 0] S128x1024
  inb_S1x1x1024x1024_S1x1x128x1024_0_0_0_0 : ∀ a, (![0, 0, 0, 0] : Fin 4 → Nat) a + S1x1x128x1024.size a ≤ S1x1x1024x1024.size a
  h_S1x1x128x1024 : 0 < S1x1x128x1024.numel
  shapeCasts_S1x1x128x1024_S128x1024 : S1x1x128x1024.ShapeCasts S128x1024
  shapeCasts_S128x1024_S1x1x128x1024 : S128x1024.ShapeCasts S1x1x128x1024
  h_S1x1x144x1024 : 0 < S1x1x144x1024.numel
  shapeCasts_S1x1x144x1024_S144x1024 : S1x1x144x1024.ShapeCasts S144x1024
  inb_S1x2x1024x1024_S1x1x136x1024_0_0_888_0 : ∀ a, (![0, 0, 888, 0] : Fin 4 → Nat) a + S1x1x136x1024.size a ≤ S1x2x1024x1024.size a
  concatenates_S136x1024_S8x1024_S144x1024_d0 : Shape.Concatenates [S136x1024, S8x1024] S144x1024 0
  inb_S1x2x1024x1024_S1x1x136x1024_0_1_888_0 : ∀ a, (![0, 1, 888, 0] : Fin 4 → Nat) a + S1x1x136x1024.size a ≤ S1x2x1024x1024.size a
  inb_S1x1x1024x1024_S1x1x128x1024_0_0_896_0 : ∀ a, (![0, 0, 896, 0] : Fin 4 → Nat) a + S1x1x128x1024.size a ≤ S1x1x1024x1024.size a
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 8 ∣ (k0_mult2 k0_t1).toNat
  k0_off1_inb : ∀ k0_t1 : Fin k0_t1_loop.trips, ∀ a, (k0_off1 k0_t1) a + S1x1x144x1024.size a ≤ S1x2x1024x1024.size a
  k0_off2_inb : ∀ k0_t1 : Fin k0_t1_loop.trips, ∀ a, (k0_off2 k0_t1) a + S1x1x144x1024.size a ≤ S1x2x1024x1024.size a
  k0_off3_inb : ∀ k0_t1 : Fin k0_t1_loop.trips, ∀ a, (k0_off3 k0_t1) a + S1x1x128x1024.size a ≤ S1x1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x1024.size a ≤ S16x2x1024x1024.size a
  hwx0_0 : ∀ i : grid0.Coords, EltTy.bits .f32 = 32 ∨ (Rect.block (s := S16x2x1024x1024) S1x2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2x1024x1024 : Shape := ⟨4, ![16, 2, 1024, 1024]⟩
abbrev S16x1x1024x1024 : Shape := ⟨4, ![16, 1, 1024, 1024]⟩
abbrev S16x1024x1024 : Shape := ⟨3, ![16, 1024, 1024]⟩
abbrev S_ : Shape := ⟨0, ![]⟩
abbrev S16x1026x1026 : Shape := ⟨3, ![16, 1026, 1026]⟩

abbrev nBuf : Space → Nat
  | .hbm => 97
  | .vmem => 0
  | .smem => 0
  | _ => 0

abbrev bufTy : (tb : Table) → Fin (tcTables nBuf tb) → BufTy
  | .hbm, ⟨0, _⟩ => ⟨S16x2x1024x1024, .f32⟩
  | .hbm, ⟨1, _⟩ => ⟨S16x1x1024x1024, .f32⟩
  | .hbm, ⟨2, _⟩ => ⟨S16x1024x1024, .f32⟩
  | .hbm, ⟨3, _⟩ => ⟨S16x1x1024x1024, .f32⟩
  | .hbm, ⟨4, _⟩ => ⟨S16x1024x1024, .f32⟩
  | .hbm, ⟨5, _⟩ => ⟨S16x1024x1024, .f32⟩
  | .hbm, ⟨6, _⟩ => ⟨S_, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S_, .i32⟩
  | .hbm, ⟨13, _⟩ => ⟨S_, .f32⟩
  | .hbm, ⟨14, _⟩ => ⟨S16x1026x1026, .f32⟩
  | .hbm, ⟨15, _⟩ => ⟨S_, .f32⟩
  | .hbm, ⟨16, _⟩ => ⟨S16x1024x1024, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16x1024x1024, .f32⟩
  | .hbm, ⟨21, _⟩ => ⟨S16x1024x1024, .f32⟩
  | .hbm, ⟨22, _⟩ => ⟨S_, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16x1024x1024, .f32⟩
  | .hbm, ⟨30, _⟩ => ⟨S16x1024x1024, .f32⟩
  | .hbm, ⟨31, _⟩ => ⟨S_, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S16x1024x1024, .f32⟩
  | .hbm, ⟨39, _⟩ => ⟨S16x1024x1024, .f32⟩
  | .hbm, ⟨40, _⟩ => ⟨S_, .f32⟩
  | .hbm, ⟨41, _⟩ => ⟨S16x1024x1024, .f32⟩
  | .hbm, ⟨42, _⟩ => ⟨S16x1024x1024, .f32⟩
  | .hbm, ⟨43, _⟩ => ⟨S16x1024x1024, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S16x1024x1024, .f32⟩
  | .hbm, ⟨48, _⟩ => ⟨S16x1024x1024, .f32⟩
  | .hbm, ⟨49, _⟩ => ⟨S_, .f32⟩
  | .hbm, ⟨50, _⟩ => ⟨S16x1024x1024, .f32⟩
  | .hbm, ⟨51, _⟩ => ⟨S16x1024x1024, .f32⟩
  | .hbm, ⟨52, _⟩ => ⟨S16x1024x1024, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S16x1024x1024, .f32⟩
  | .hbm, ⟨57, _⟩ => ⟨S16x1024x1024, .f32⟩
  | .hbm, ⟨58, _⟩ => ⟨S_, .f32⟩
  | .hbm, ⟨59, _⟩ => ⟨S16x1024x1024, .f32⟩
  | .hbm, ⟨60, _⟩ => ⟨S16x1024x1024, .f32⟩
  | .hbm, ⟨61, _⟩ => ⟨S16x1024x1024, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S16x1024x1024, .f32⟩
  | .hbm, ⟨66, _⟩ => ⟨S16x1024x1024, .f32⟩
  | .hbm, ⟨67, _⟩ => ⟨S_, .f32⟩
  | .hbm, ⟨68, _⟩ => ⟨S16x1024x1024, .f32⟩
  | .hbm, ⟨69, _⟩ => ⟨S16x1024x1024, .f32⟩
  | .hbm, ⟨70, _⟩ => ⟨S16x1024x1024, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S16x1024x1024, .f32⟩
  | .hbm, ⟨78, _⟩ => ⟨S16x1024x1024, .f32⟩
  | .hbm, ⟨79, _⟩ => ⟨S16x1024x1024, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S16x1024x1024, .f32⟩
  | .hbm, ⟨84, _⟩ => ⟨S16x1024x1024, .f32⟩
  | .hbm, ⟨85, _⟩ => ⟨S_, .f32⟩
  | .hbm, ⟨86, _⟩ => ⟨S16x1024x1024, .f32⟩
  | .hbm, ⟨87, _⟩ => ⟨S16x1024x1024, .f32⟩
  | .hbm, ⟨88, _⟩ => ⟨S16x1024x1024, .f32⟩
  | .hbm, ⟨89, _⟩ => ⟨S_, .f32⟩
  | .hbm, ⟨90, _⟩ => ⟨S16x1024x1024, .f32⟩
  | .hbm, ⟨91, _⟩ => ⟨S16x1024x1024, .f32⟩
  | .hbm, ⟨92, _⟩ => ⟨S_, .f32⟩
  | .hbm, ⟨93, _⟩ => ⟨S_, .f32⟩
  | .hbm, ⟨94, _⟩ => ⟨S16x1024x1024, .f32⟩
  | .hbm, ⟨95, _⟩ => ⟨S16x1024x1024, .f32⟩
  | .hbm, ⟨96, _⟩ => ⟨S16x1x1024x1024, .f32⟩
  | _, _ => ⟨S16x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_c_5 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_call3_cst : Ref sig .tc := ⟨.hbm, 31, rfl⟩
abbrev main_call3_v0 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_c_8 : Ref sig .tc := ⟨.hbm, 36, rfl⟩
abbrev main_c_9 : Ref sig .tc := ⟨.hbm, 37, rfl⟩
abbrev main_v18 : Ref sig .tc := ⟨.hbm, 38, rfl⟩
abbrev main_v19 : Ref sig .tc := ⟨.hbm, 39, rfl⟩
abbrev main_call4_cst : Ref sig .tc := ⟨.hbm, 40, rfl⟩
abbrev main_call4_v0 : Ref sig .tc := ⟨.hbm, 41, rfl⟩
abbrev main_v20 : Ref sig .tc := ⟨.hbm, 42, rfl⟩
abbrev main_v21 : Ref sig .tc := ⟨.hbm, 43, rfl⟩
abbrev main_c_10 : Ref sig .tc := ⟨.hbm, 44, rfl⟩
abbrev main_c_11 : Ref sig .tc := ⟨.hbm, 45, rfl⟩
abbrev main_c_12 : Ref sig .tc := ⟨.hbm, 46, rfl⟩
abbrev main_v22 : Ref sig .tc := ⟨.hbm, 47, rfl⟩
abbrev main_v23 : Ref sig .tc := ⟨.hbm, 48, rfl⟩
abbrev main_call5_cst : Ref sig .tc := ⟨.hbm, 49, rfl⟩
abbrev main_call5_v0 : Ref sig .tc := ⟨.hbm, 50, rfl⟩
abbrev main_v24 : Ref sig .tc := ⟨.hbm, 51, rfl⟩
abbrev main_v25 : Ref sig .tc := ⟨.hbm, 52, rfl⟩
abbrev main_c_13 : Ref sig .tc := ⟨.hbm, 53, rfl⟩
abbrev main_c_14 : Ref sig .tc := ⟨.hbm, 54, rfl⟩
abbrev main_c_15 : Ref sig .tc := ⟨.hbm, 55, rfl⟩
abbrev main_v26 : Ref sig .tc := ⟨.hbm, 56, rfl⟩
abbrev main_v27 : Ref sig .tc := ⟨.hbm, 57, rfl⟩
abbrev main_call6_cst : Ref sig .tc := ⟨.hbm, 58, rfl⟩
abbrev main_call6_v0 : Ref sig .tc := ⟨.hbm, 59, rfl⟩
abbrev main_v28 : Ref sig .tc := ⟨.hbm, 60, rfl⟩
abbrev main_v29 : Ref sig .tc := ⟨.hbm, 61, rfl⟩
abbrev main_c_16 : Ref sig .tc := ⟨.hbm, 62, rfl⟩
abbrev main_c_17 : Ref sig .tc := ⟨.hbm, 63, rfl⟩
abbrev main_c_18 : Ref sig .tc := ⟨.hbm, 64, rfl⟩
abbrev main_v30 : Ref sig .tc := ⟨.hbm, 65, rfl⟩
abbrev main_v31 : Ref sig .tc := ⟨.hbm, 66, rfl⟩
abbrev main_call7_cst : Ref sig .tc := ⟨.hbm, 67, rfl⟩
abbrev main_call7_v0 : Ref sig .tc := ⟨.hbm, 68, rfl⟩
abbrev main_v32 : Ref sig .tc := ⟨.hbm, 69, rfl⟩
abbrev main_v33 : Ref sig .tc := ⟨.hbm, 70, rfl⟩
abbrev main_c_19 : Ref sig .tc := ⟨.hbm, 71, rfl⟩
abbrev main_c_20 : Ref sig .tc := ⟨.hbm, 72, rfl⟩
abbrev main_c_21 : Ref sig .tc := ⟨.hbm, 73, rfl⟩
abbrev main_v34 : Ref sig .tc := ⟨.hbm, 74, rfl⟩
abbrev main_v35 : Ref sig .tc := ⟨.hbm, 75, rfl⟩
abbrev main_call8_cst : Ref sig .tc := ⟨.hbm, 76, rfl⟩
abbrev main_call8_v0 : Ref sig .tc := ⟨.hbm, 77, rfl⟩
abbrev main_v36 : Ref sig .tc := ⟨.hbm, 78, rfl⟩
abbrev main_v37 : Ref sig .tc := ⟨.hbm, 79, rfl⟩
abbrev main_c_22 : Ref sig .tc := ⟨.hbm, 80, rfl⟩
abbrev main_c_23 : Ref sig .tc := ⟨.hbm, 81, rfl⟩
abbrev main_c_24 : Ref sig .tc := ⟨.hbm, 82, rfl⟩
abbrev main_v38 : Ref sig .tc := ⟨.hbm, 83, rfl⟩
abbrev main_v39 : Ref sig .tc := ⟨.hbm, 84, rfl⟩
abbrev main_call9_cst : Ref sig .tc := ⟨.hbm, 85, rfl⟩
abbrev main_call9_v0 : Ref sig .tc := ⟨.hbm, 86, rfl⟩
abbrev main_v40 : Ref sig .tc := ⟨.hbm, 87, rfl⟩
abbrev main_v41 : Ref sig .tc := ⟨.hbm, 88, rfl⟩
abbrev main_cst_25 : Ref sig .tc := ⟨.hbm, 89, rfl⟩
abbrev main_v42 : Ref sig .tc := ⟨.hbm, 90, rfl⟩
abbrev main_v43 : Ref sig .tc := ⟨.hbm, 91, rfl⟩
abbrev main_cst_26 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩

abbrev nD : Nat := 1
abbrev τ : Topo := Topo.v7x

variable {F : FTy → Type} [FloatOps F]

class Facts₀ : Prop where
  slices_S16x2x1024x1024_S16x1x1024x1024_0_1_0_0 : S16x2x1024x1024.Slices ![0, 1, 0, 0] S16x1x1024x1024
  shapeCasts_S16x1x1024x1024_S16x1024x1024 : S16x1x1024x1024.ShapeCasts S16x1024x1024
  slices_S16x2x1024x1024_S16x1x1024x1024_0_0_0_0 : S16x2x1024x1024.Slices ![0, 0, 0, 0] S16x1x1024x1024
  bcast_S_S16x1024x1024 : S_.BroadcastsInDim S16x1024x1024 (![] : Fin 0 → Fin S16x1024x1024.rank)
  pads_S16x1024x1024_S16x1026x1026_000_110_110 : S16x1024x1024.Pads (![0, 1, 1] : Fin 3 → Nat) ![0, 1, 1] ![0, 0, 0] S16x1026x1026
  h_S_ : 0 < S_.numel
  sliceFits_S16x1026x1026_S16x1024x1024 : S16x1026x1026.Slices (fun _ => 0) S16x1024x1024
  bcast_S_S_ : S_.BroadcastsInDim S_ (![] : Fin 0 → Fin S_.rank)
  reduceWindows_S16x1024x1024_S16x1024x1024_w1s1p0_0_w3s1p1_1_w3s1p1_1 : S16x1024x1024.ReduceWindows (![1, 3, 3] : Fin 3 → Nat) ![1, 1, 1] ![0, 1, 1] ![0, 1, 1] S16x1024x1024
  bcast_S16x1024x1024_S16x1x1024x1024_0_2_3 : S16x1024x1024.BroadcastsInDim S16x1x1024x1024 (![0, 2, 3] : Fin 3 → Fin S16x1x1024x1024.rank)

variable [Facts₀]

class Facts : Prop extends Facts₀ where

variable [Facts]
-- ==== Proof.Spec.lean ====
/-
  The mathematics both programs compute, on one image plane indexed by integer row and column.

  A plane is a function `ℤ → ℤ → EReal`; the image is the square `0 ≤ r, q < 1024`. From the two
  input channels `X0`, `X1` of one batch entry:
    * `plane`   — `P r q = max (X1 r q - X0 r q - c01) 0` on the image and `0` off it (the padded
                   rectified difference);
    * `nms`     — the product, in a fixed order, of the eight rectified differences between `P r q`
                   and its eight neighbours, times `c256`;
    * `poolRef` — the maximum over the 3 × 3 neighbourhood with `⊥` standing for a neighbour off
                   the image, folded from `⊥` in row-major order;
    * `poolKer` — the same neighbourhood taken separably (three columns first, then three rows),
                   with a finite value `neg` standing for a column off the image and with whatever
                   the plane holds in a row off the image.
  The result at a pixel is `P r q * pool (nms P) r q`. That the two pools agree on a plane that is
  nonnegative and vanishes on the rows off the image is proved in PoolLaw.lean.
-/
import Idealize.ShloMosaic.Lib.ValueIdx

noncomputable section

namespace Cert.Nms

open Idealize.ShloMosaic Idealize.ShloMosaic.ValueIdx

/-- `(r, q)` names a pixel of the 1024 × 1024 image. -/
def InImg (r q : ℤ) : Prop := 0 ≤ r ∧ r < 1024 ∧ 0 ≤ q ∧ q < 1024

instance (r q : ℤ) : Decidable (InImg r q) := by unfold InImg; infer_instance

/-- The rectifier on the extended reals. -/
def relu (a : EReal) : EReal := max a 0

/-- The shape of the input array: 16 batch entries, 2 channels, 1024 rows, 1024 columns. -/
abbrev SIn : Shape := ⟨4, ![16, 2, 1024, 1024]⟩
/-- The shape of the result array: 16 batch entries, one channel, 1024 rows, 1024 columns. -/
abbrev SOut : Shape := ⟨4, ![16, 1, 1024, 1024]⟩

/-- Channel `ch` of batch entry `b` of the input as a plane over `ℤ × ℤ`, zero off the image. -/
def chan (x : SIn.Idx → EReal) (b : Fin 16) (ch : Fin 2) (r q : ℤ) : EReal :=
  if h : InImg r q then
    x (ix4 b ch ⟨r.toNat, by obtain ⟨h0, h1, _, _⟩ := h; omega⟩ ⟨q.toNat, by obtain ⟨_, _, h2, h3⟩ := h; omega⟩)
  else 0

/-- The rectified channel difference on the image, zero off it. -/
def plane (c01 : EReal) (X0 X1 : ℤ → ℤ → EReal) (r q : ℤ) : EReal :=
  if InImg r q then relu (X1 r q - X0 r q - c01) else 0

/-- The product of the eight rectified differences with the neighbours, in the order
    (−1,−1), (−1,0), (−1,1), (0,−1), (0,1), (1,−1), (1,0), (1,1), from `c1`, times `c256`. -/
def nms (c1 c256 : EReal) (P : ℤ → ℤ → EReal) (r q : ℤ) : EReal :=
  ((((((((c1 * relu (P r q - P (r - 1) (q - 1))) * relu (P r q - P (r - 1) q)) * relu (P r q - P (r - 1) (q + 1)))
    * relu (P r q - P r (q - 1))) * relu (P r q - P r (q + 1)))
    * relu (P r q - P (r + 1) (q - 1))) * relu (P r q - P (r + 1) q)) * relu (P r q - P (r + 1) (q + 1))) * c256

/-- The neighbour at offset `(di, dj)` as the windowed maximum sees it: `⊥` off the image. -/
def refWin (N : ℤ → ℤ → EReal) (r q di dj : ℤ) : EReal :=
  if InImg (r + di) (q + dj) then N (r + di) (q + dj) else ⊥

/-- The 3 × 3 maximum folded from `⊥` over the window in row-major order. -/
def poolRef (N : ℤ → ℤ → EReal) (r q : ℤ) : EReal :=
  max (max (max (max (max (max (max (max (max ⊥ (refWin N r q (-1) (-1))) (refWin N r q (-1) 0)) (refWin N r q (-1) 1))
    (refWin N r q 0 (-1))) (refWin N r q 0 0)) (refWin N r q 0 1))
    (refWin N r q 1 (-1))) (refWin N r q 1 0)) (refWin N r q 1 1)

/-- The maximum of three horizontal neighbours in row `r'`, `neg` standing for a column off the image. -/
def hmax (neg : EReal) (N : ℤ → ℤ → EReal) (r' q : ℤ) : EReal :=
  max (max (N r' q) (if q = 0 then neg else N r' (q - 1))) (if q = 1023 then neg else N r' (q + 1))

/-- The 3 × 3 maximum taken separably: horizontally in each of three rows, then vertically. -/
def poolKer (neg : EReal) (N : ℤ → ℤ → EReal) (r q : ℤ) : EReal :=
  max (max (hmax neg N r q) (hmax neg N (r - 1) q)) (hmax neg N (r + 1) q)

/-- The result array as one function of the input array. -/
def G (c01 c1 c256 : EReal) (x : SIn.Idx → EReal) : SOut.Idx → EReal := fun i =>
  plane c01 (chan x (i 0) 0) (chan x (i 0) 1) ((i 2).val : ℤ) ((i 3).val : ℤ)
    * poolRef (nms c1 c256 (plane c01 (chan x (i 0) 0) (chan x (i 0) 1))) ((i 2).val : ℤ) ((i 3).val : ℤ)

/-- The four float literals of the two programs, as extended reals. -/
abbrev c01 : EReal := Ideal.ofBits .f32 0x3DCCCCCD#32
abbrev c1 : EReal := Ideal.ofBits .f32 0x3F800000#32
abbrev c256 : EReal := Ideal.ofBits .f32 0x43800000#32
abbrev cneg : EReal := Ideal.ofBits .f32 0xFF333332#32

end Cert.Nms

end
-- ==== Proof.Slab.lean ====
/-
  One 144-row slab of the image, processed as the kernel body processes it.

  The kernel handles the 1024 rows of a batch entry in eight chunks of 128 rows. For each chunk it
  forms a slab of 144 rows (the chunk with 8 rows of margin on each side; rows off the image are
  zero) of the two channels `x0s`, `x1s`, and computes on the whole slab, with `v0` the array of
  column numbers:
    * `xpV`   — the rectified channel difference `max (x1s - x0s - 0.1) 0`;
    * `up`, `dn` — the slab moved one row down / up (cyclically; the margin keeps the wrapped rows away from
                   the rows that are kept);
    * `lf`, `rt` — the slab moved one column right / left, a given value in the column that would wrap;
    * `prodV` — the product of the eight rectified differences with the neighbours; `nmsV` that times 256;
    * `poolV` — the 3 × 3 maximum, taken along the columns first and then along the rows;
    * `slabOut` — rows 8 … 135 of `xpV * poolV`, as the block of 128 rows that is stored.
  The three ways a slab is cut from the input block are `slabTop` (8 zero rows, then 136 loaded rows),
  `slabMid` (144 loaded rows) and `slabBot` (136 loaded rows, then 8 zero rows).
  All definitions are over any float instance; they are read at an index, at the exact instance, in SlabRead.lean.
-/
import proofs.«168791_j38654705664677_2_alg».proof.KernelIdeal
import proofs.«168791_j38654705664677_2_alg».proof.Proof.Gen.KernelIdeal
import Idealize.ShloMosaic.Lib.ValueIdx

noncomputable section

namespace Cert.Nms

open Idealize.ShloMosaic Idealize.ShloMosaic.ValueIdx Cert.KernelIdeal Cert.KernelIdeal.Gen

variable {F : FTy → Type} [FloatOps F]

/-- The slab of zeros. -/
def zeroV : FVec F S144x1024 .f32 := broadcast S144x1024 (Scalar.ofBits .f32 0x00000000#32)

/-- The rectifier on a slab. -/
def reluV (a : FVec F S144x1024 .f32) : FVec F S144x1024 .f32 := maximumf a zeroV

/-- The rectified channel difference on a slab. -/
def xpV (x0s x1s : FVec F S144x1024 .f32) : FVec F S144x1024 .f32 :=
  maximumf (subf (subf x1s x0s) (broadcast S144x1024 (Scalar.ofBits .f32 0x3DCCCCCD#32))) zeroV

/-- Row `s` of the result is row `s - 1` of the operand (cyclically). -/
def up (a : FVec F S144x1024 .f32) : FVec F S144x1024 .f32 := dynamicRotate 0 1#32 none a rotates_S144x1024_d0
/-- Row `s` of the result is row `s + 1` of the operand (cyclically). -/
def dn (a : FVec F S144x1024 .f32) : FVec F S144x1024 .f32 := dynamicRotate 0 143#32 none a rotates_S144x1024_d0

/-- Column `q` of the result is column `q - 1` of the operand, and `pad` in column 0. -/
def lf (v0 : IVec S144x1024 32) (pad : F .f32) (a : FVec F S144x1024 .f32) : FVec F S144x1024 .f32 :=
  select (cmpi .eq v0 (broadcast S144x1024 0#32)) (broadcast S144x1024 pad) (dynamicRotate 1 1#32 none a rotates_S144x1024_d1)
/-- Column `q` of the result is column `q + 1` of the operand, and `pad` in column 1023. -/
def rt (v0 : IVec S144x1024 32) (pad : F .f32) (a : FVec F S144x1024 .f32) : FVec F S144x1024 .f32 :=
  select (cmpi .eq v0 (broadcast S144x1024 1023#32)) (broadcast S144x1024 pad) (dynamicRotate 1 1023#32 none a rotates_S144x1024_d1)

/-- The product of the eight rectified differences with the neighbours, from the slab of ones, in the order
    (−1,−1), (−1,0), (−1,1), (0,−1), (0,1), (1,−1), (1,0), (1,1). -/
def prodV (v0 : IVec S144x1024 32) (xp : FVec F S144x1024 .f32) : FVec F S144x1024 .f32 :=
  mulf (mulf (mulf (mulf (mulf (mulf (mulf (mulf (broadcast S144x1024 (Scalar.ofBits .f32 0x3F800000#32))
    (reluV (subf xp (lf v0 (Scalar.ofBits .f32 0x00000000#32) (up xp)))))
    (reluV (subf xp (up xp))))
    (reluV (subf xp (rt v0 (Scalar.ofBits .f32 0x00000000#32) (up xp)))))
    (reluV (subf xp (lf v0 (Scalar.ofBits .f32 0x00000000#32) xp))))
    (reluV (subf xp (rt v0 (Scalar.ofBits .f32 0x00000000#32) xp))))
    (reluV (subf xp (lf v0 (Scalar.ofBits .f32 0x00000000#32) (dn xp)))))
    (reluV (subf xp (dn xp))))
    (reluV (subf xp (rt v0 (Scalar.ofBits .f32 0x00000000#32) (dn xp))))

/-- The product times 256. -/
def nmsV (v0 : IVec S144x1024 32) (xp : FVec F S144x1024 .f32) : FVec F S144x1024 .f32 :=
  mulf (prodV v0 xp) (broadcast S144x1024 (Scalar.ofBits .f32 0x43800000#32))

/-- The maximum of three horizontal neighbours, a large negative finite number standing for a missing column. -/
def hV (v0 : IVec S144x1024 32) (n : FVec F S144x1024 .f32) : FVec F S144x1024 .f32 :=
  maximumf (maximumf n (lf v0 (Scalar.ofBits .f32 0xFF333332#32) n)) (rt v0 (Scalar.ofBits .f32 0xFF333332#32) n)

/-- The 3 × 3 maximum: horizontally, then vertically. -/
def poolV (v0 : IVec S144x1024 32) (n : FVec F S144x1024 .f32) : FVec F S144x1024 .f32 :=
  maximumf (maximumf (hV v0 n) (up (hV v0 n))) (dn (hV v0 n))

/-- The block of 128 rows stored for a chunk: rows 8 … 135 of the slab's `xpV * poolV (nmsV xpV)`. -/
def slabOut (v0 : IVec S144x1024 32) (x0s x1s : FVec F S144x1024 .f32) : FVec F S1x1x128x1024 .f32 :=
  shapeCast S1x1x128x1024
    (mulf (extractStridedSlice S128x1024 ![8, 0] (xpV x0s x1s) slices_S144x1024_o8_0_S128x1024)
      (extractStridedSlice S128x1024 ![8, 0] (poolV v0 (nmsV v0 (xpV x0s x1s))) slices_S144x1024_o8_0_S128x1024))
    shapeCasts_S128x1024_S1x1x128x1024

/-- The array of column numbers the kernel builds once. -/
abbrev colIota : IVec S144x1024 32 := iota .tc S144x1024 32 [1] iota_S144x1024_d1_w32

/-- A slab whose first 8 rows are zero and whose other 136 rows are the loaded rows. -/
def slabTop (L : Vec F S1x1x136x1024 .f32) : FVec F S144x1024 .f32 :=
  concatenate S144x1024 0 [⟨S8x1024, broadcast S8x1024 (Scalar.ofBits .f32 0x00000000#32)⟩,
    ⟨S136x1024, shapeCast S136x1024 L shapeCasts_S1x1x136x1024_S136x1024⟩] concatenates_S8x1024_S136x1024_S144x1024_d0

/-- A slab whose first 136 rows are the loaded rows and whose last 8 rows are zero. -/
def slabBot (L : Vec F S1x1x136x1024 .f32) : FVec F S144x1024 .f32 :=
  concatenate S144x1024 0 [⟨S136x1024, shapeCast S136x1024 L shapeCasts_S1x1x136x1024_S136x1024⟩,
    ⟨S8x1024, broadcast S8x1024 (Scalar.ofBits .f32 0x00000000#32)⟩] concatenates_S136x1024_S8x1024_S144x1024_d0

/-- A slab that is 144 loaded rows. -/
def slabMid (L : Vec F S1x1x144x1024 .f32) : FVec F S144x1024 .f32 :=
  shapeCast S144x1024 L shapeCasts_S1x1x144x1024_S144x1024

/-- A slab of extended reals as a plane over `ℤ × ℤ` (row, column), zero off the slab. -/
def ext (a : FVec Ideal S144x1024 .f32) (s q : ℤ) : EReal :=
  if h : 0 ≤ s ∧ s < 144 ∧ 0 ≤ q ∧ q < 1024 then
    a (ix2 ⟨s.toNat, by obtain ⟨h0, h1, _, _⟩ := h; omega⟩ ⟨q.toNat, by obtain ⟨_, _, h2, h3⟩ := h; omega⟩)
  else 0

end Cert.Nms

end
-- ==== Proof.PoolLaw.lean ====
/-
  Facts about the two 3 × 3 maxima of the specification, on the extended reals.

  For a plane that is nonnegative everywhere and zero off the image, the suppression product
  nms is nonnegative everywhere and vanishes wherever the plane vanishes. The windowed maximum
  poolRef sees ⊥ for a neighbour off the image; the separable maximum poolKer sees a number
  neg ≤ 0 for a column off the image and the plane's own value (zero) in a row off the image.
  Since the centre of the window lies on the image and is nonnegative, every upper bound M of
  either maximum is nonnegative, and for M ≥ 0 each window entry of the one maximum is below M
  exactly when the matching entry of the other is: the two entries are either equal, or the one
  is ≤ 0 and the other is ⊥. Hence the two maxima have the same upper bounds and are equal.
-/
import proofs.«168791_j38654705664677_2_alg».proof.Proof.Spec

noncomputable section

namespace Cert.Nms

open Idealize.ShloMosaic

/-! ### The literals -/

theorem c1_eq : c1 = (1 : EReal) := by
  show Ideal.ofBits .f32 0x3F800000#32 = 1
  simp [Ideal.ofBits, Ideal.ieee, -EReal.coe_mul]; norm_num

theorem c256_eq : c256 = ((256 : ℝ) : EReal) := by
  show Ideal.ofBits .f32 0x43800000#32 = ((256 : ℝ) : EReal)
  simp [Ideal.ofBits, Ideal.ieee, -EReal.coe_mul]; norm_num

/-- 0x3DCCCCCD is the normal number 13421773 · 2⁻²⁷. -/
theorem c01_eq : c01 = ((13421773 / 134217728 : ℝ) : EReal) := by
  show Ideal.ofBits .f32 0x3DCCCCCD#32 = ((13421773 / 134217728 : ℝ) : EReal)
  simp [Ideal.ofBits, Ideal.ieee, -EReal.coe_mul]; norm_num

/-- 0xFF333332 is the normal number −11744050 · 2¹⁰⁴. -/
theorem cneg_eq : cneg = ((-(11744050 * 2 ^ 104) : ℝ) : EReal) := by
  show Ideal.ofBits .f32 0xFF333332#32 = ((-(11744050 * 2 ^ 104) : ℝ) : EReal)
  simp [Ideal.ofBits, Ideal.ieee, -EReal.coe_mul]

theorem c01_nonneg : (0 : EReal) ≤ c01 := by
  rw [c01_eq]; exact EReal.coe_nonneg.mpr (by norm_num)

theorem c1_nonneg : (0 : EReal) ≤ c1 := by
  rw [c1_eq]; exact zero_le_one

theorem c256_nonneg : (0 : EReal) ≤ c256 := by
  rw [c256_eq]; exact EReal.coe_nonneg.mpr (by norm_num)

theorem cneg_nonpos : cneg ≤ (0 : EReal) := by
  rw [cneg_eq, ← EReal.coe_zero, EReal.coe_le_coe_iff]; norm_num

theorem ninf_eq_bot : Ideal.ofBits .f32 0xFF800000#32 = (⊥ : EReal) := by
  simp [Ideal.ofBits, Ideal.ieee]

/-! ### The rectifier, the plane and the suppression product -/

theorem relu_nonneg (a : EReal) : 0 ≤ relu a := le_max_right _ _

/-- The rectified difference of zero and a nonnegative number is zero. -/
theorem relu_zero_sub (x : EReal) (hx : 0 ≤ x) : relu (0 - x) = 0 := by
  have h : -x ≤ 0 := by
    have := EReal.neg_le_neg_iff.mpr hx
    rwa [neg_zero] at this
  rw [zero_sub]
  exact max_eq_right h

theorem relu_zero_sub_c01 : relu ((0 : EReal) - 0 - c01) = 0 := by
  rw [sub_zero]
  exact relu_zero_sub c01 c01_nonneg

theorem plane_nonneg (c : EReal) (X0 X1 : ℤ → ℤ → EReal) (r q : ℤ) : 0 ≤ plane c X0 X1 r q := by
  unfold plane
  split_ifs
  · exact relu_nonneg _
  · exact le_rfl

theorem plane_off (c : EReal) (X0 X1 : ℤ → ℤ → EReal) (r q : ℤ) (h : ¬ InImg r q) :
    plane c X0 X1 r q = 0 := if_neg h

theorem nms_nonneg (a b : EReal) (ha : 0 ≤ a) (hb : 0 ≤ b) (P : ℤ → ℤ → EReal) (r q : ℤ) :
    0 ≤ nms a b P r q := by
  unfold nms
  refine EReal.mul_nonneg ?_ hb
  repeat' (first | exact relu_nonneg _ | exact ha | refine EReal.mul_nonneg ?_ ?_)

theorem nms_center_zero (a b : EReal) (P : ℤ → ℤ → EReal) (hP : ∀ r q, 0 ≤ P r q) (r q : ℤ)
    (h0 : P r q = 0) : nms a b P r q = 0 := by
  unfold nms
  rw [h0, relu_zero_sub _ (hP (r - 1) (q - 1))]
  simp only [mul_zero, zero_mul]

theorem nms_congr (a b : EReal) (P P' : ℤ → ℤ → EReal) (r q : ℤ)
    (h : ∀ r' q', r - 1 ≤ r' → r' ≤ r + 1 → q - 1 ≤ q' → q' ≤ q + 1 → P r' q' = P' r' q') :
    nms a b P r q = nms a b P' r q := by
  have e00 : P r q = P' r q := h _ _ (by omega) (by omega) (by omega) (by omega)
  have emm : P (r - 1) (q - 1) = P' (r - 1) (q - 1) := h _ _ (by omega) (by omega) (by omega) (by omega)
  have em0 : P (r - 1) q = P' (r - 1) q := h _ _ (by omega) (by omega) (by omega) (by omega)
  have emp : P (r - 1) (q + 1) = P' (r - 1) (q + 1) := h _ _ (by omega) (by omega) (by omega) (by omega)
  have e0m : P r (q - 1) = P' r (q - 1) := h _ _ (by omega) (by omega) (by omega) (by omega)
  have e0p : P r (q + 1) = P' r (q + 1) := h _ _ (by omega) (by omega) (by omega) (by omega)
  have epm : P (r + 1) (q - 1) = P' (r + 1) (q - 1) := h _ _ (by omega) (by omega) (by omega) (by omega)
  have ep0 : P (r + 1) q = P' (r + 1) q := h _ _ (by omega) (by omega) (by omega) (by omega)
  have epp : P (r + 1) (q + 1) = P' (r + 1) (q + 1) := h _ _ (by omega) (by omega) (by omega) (by omega)
  unfold nms
  rw [e00, emm, em0, emp, e0m, e0p, epm, ep0, epp]

/-- The suppression product of a plane shifted by off rows is the shifted product. -/
theorem nms_shift (a b : EReal) (P : ℤ → ℤ → EReal) (off s q : ℤ) :
    nms a b (fun s' q' => P (s' + off) q') s q = nms a b P (s + off) q := by
  have e1 : s - 1 + off = s + off - 1 := by ring
  have e2 : s + 1 + off = s + off + 1 := by ring
  simp only [nms, e1, e2]

/-! ### The separable maximum -/

theorem poolKer_congr (neg : EReal) (N N' : ℤ → ℤ → EReal) (r q : ℤ)
    (h : ∀ r' q', r - 1 ≤ r' → r' ≤ r + 1 → q - 1 ≤ q' → q' ≤ q + 1 → N r' q' = N' r' q') :
    poolKer neg N r q = poolKer neg N' r q := by
  have e00 : N r q = N' r q := h _ _ (by omega) (by omega) (by omega) (by omega)
  have emm : N (r - 1) (q - 1) = N' (r - 1) (q - 1) := h _ _ (by omega) (by omega) (by omega) (by omega)
  have em0 : N (r - 1) q = N' (r - 1) q := h _ _ (by omega) (by omega) (by omega) (by omega)
  have emp : N (r - 1) (q + 1) = N' (r - 1) (q + 1) := h _ _ (by omega) (by omega) (by omega) (by omega)
  have e0m : N r (q - 1) = N' r (q - 1) := h _ _ (by omega) (by omega) (by omega) (by omega)
  have e0p : N r (q + 1) = N' r (q + 1) := h _ _ (by omega) (by omega) (by omega) (by omega)
  have epm : N (r + 1) (q - 1) = N' (r + 1) (q - 1) := h _ _ (by omega) (by omega) (by omega) (by omega)
  have ep0 : N (r + 1) q = N' (r + 1) q := h _ _ (by omega) (by omega) (by omega) (by omega)
  have epp : N (r + 1) (q + 1) = N' (r + 1) (q + 1) := h _ _ (by omega) (by omega) (by omega) (by omega)
  unfold poolKer hmax
  rw [e00, emm, em0, emp, e0m, e0p, epm, ep0, epp]

/-- The separable maximum of a plane shifted by off rows is the shifted maximum. -/
theorem poolKer_shift (neg : EReal) (N : ℤ → ℤ → EReal) (off s q : ℤ) :
    poolKer neg (fun s' q' => N (s' + off) q') s q = poolKer neg N (s + off) q := by
  have e1 : s - 1 + off = s + off - 1 := by ring
  have e2 : s + 1 + off = s + off + 1 := by ring
  simp only [poolKer, hmax, e1, e2]

/-! ### Entry by entry: the two windows have the same nonnegative upper bounds -/

/-- Two numbers that are equal, or of which one is ≤ 0 and the other ⊥, lie below the same M ≥ 0. -/
theorem le_iff_of (x y M : EReal) (hM : 0 ≤ M) (h : x = y ∨ (x ≤ 0 ∧ y = ⊥)) : x ≤ M ↔ y ≤ M := by
  rcases h with h | ⟨hx, hy⟩
  · rw [h]
  · rw [hy]
    exact ⟨fun _ => bot_le, fun _ => le_trans hx hM⟩

section rows

variable (neg : EReal) (hneg : neg ≤ 0) (N : ℤ → ℤ → EReal)
  (hrow : ∀ r q, (r < 0 ∨ 1024 ≤ r) → N r q = 0)
include hrow

/-- The middle entry of a row. -/
theorem entry_mid (r q di : ℤ) (hq : 0 ≤ q ∧ q < 1024) :
    N (r + di) q = refWin N r q di 0 ∨ (N (r + di) q ≤ 0 ∧ refWin N r q di 0 = ⊥) := by
  unfold refWin
  rw [add_zero]
  by_cases hr : 0 ≤ r + di ∧ r + di < 1024
  · left
    rw [if_pos ⟨hr.1, hr.2, hq.1, hq.2⟩]
  · right
    refine ⟨le_of_eq (hrow _ _ (by omega)), if_neg ?_⟩
    rintro ⟨h0, h1, _, _⟩
    exact hr ⟨h0, h1⟩

include hneg

/-- The left entry of a row. -/
theorem entry_left (r q di : ℤ) (hq : 0 ≤ q ∧ q < 1024) :
    (if q = 0 then neg else N (r + di) (q - 1)) = refWin N r q di (-1)
      ∨ ((if q = 0 then neg else N (r + di) (q - 1)) ≤ 0 ∧ refWin N r q di (-1) = ⊥) := by
  unfold refWin
  have e : q + -1 = q - 1 := by ring
  rw [e]
  by_cases hq0 : q = 0
  · right
    rw [if_pos hq0]
    refine ⟨hneg, if_neg ?_⟩
    rintro ⟨_, _, h2, _⟩
    omega
  · rw [if_neg hq0]
    by_cases hr : 0 ≤ r + di ∧ r + di < 1024
    · left
      rw [if_pos ⟨hr.1, hr.2, by omega, by omega⟩]
    · right
      refine ⟨le_of_eq (hrow _ _ (by omega)), if_neg ?_⟩
      rintro ⟨h0, h1, _, _⟩
      exact hr ⟨h0, h1⟩

/-- The right entry of a row. -/
theorem entry_right (r q di : ℤ) (hq : 0 ≤ q ∧ q < 1024) :
    (if q = 1023 then neg else N (r + di) (q + 1)) = refWin N r q di 1
      ∨ ((if q = 1023 then neg else N (r + di) (q + 1)) ≤ 0 ∧ refWin N r q di 1 = ⊥) := by
  unfold refWin
  by_cases hq0 : q = 1023
  · right
    rw [if_pos hq0]
    refine ⟨hneg, if_neg ?_⟩
    rintro ⟨_, _, _, h3⟩
    omega
  · rw [if_neg hq0]
    by_cases hr : 0 ≤ r + di ∧ r + di < 1024
    · left
      rw [if_pos ⟨hr.1, hr.2, by omega, by omega⟩]
    · right
      refine ⟨le_of_eq (hrow _ _ (by omega)), if_neg ?_⟩
      rintro ⟨h0, h1, _, _⟩
      exact hr ⟨h0, h1⟩

/-- One row of the separable maximum against the three entries of that row of the window. -/
theorem row_iff (r q di r' : ℤ) (e : r' = r + di) (hq : 0 ≤ q ∧ q < 1024) (M : EReal) (hM : 0 ≤ M) :
    hmax neg N r' q ≤ M
      ↔ (refWin N r q di (-1) ≤ M ∧ refWin N r q di 0 ≤ M ∧ refWin N r q di 1 ≤ M) := by
  subst e
  unfold hmax
  rw [max_le_iff, max_le_iff,
    le_iff_of _ _ M hM (entry_mid N hrow r q di hq),
    le_iff_of _ _ M hM (entry_left neg hneg N hrow r q di hq),
    le_iff_of _ _ M hM (entry_right neg hneg N hrow r q di hq)]
  constructor
  · rintro ⟨⟨h0, h1⟩, h2⟩
    exact ⟨h1, h0, h2⟩
  · rintro ⟨h1, h0, h2⟩
    exact ⟨⟨h0, h1⟩, h2⟩

end rows

theorem pool_eq (neg : EReal) (hneg : neg ≤ 0) (N : ℤ → ℤ → EReal) (hN : ∀ r q, 0 ≤ N r q)
    (hrow : ∀ r q, (r < 0 ∨ 1024 ≤ r) → N r q = 0) (r q : ℤ) (h : InImg r q) :
    poolKer neg N r q = poolRef N r q := by
  have hq : 0 ≤ q ∧ q < 1024 := ⟨h.2.2.1, h.2.2.2⟩
  have hc : refWin N r q 0 0 = N r q := by
    unfold refWin
    rw [add_zero, add_zero, if_pos h]
  have hcK : N r q ≤ poolKer neg N r q :=
    le_trans (le_trans (le_max_left _ _) (le_max_left _ _))
      (le_trans (le_max_left _ _) (le_max_left _ _))
  have hcR : N r q ≤ poolRef N r q := by
    rw [← hc]
    exact le_trans (le_max_right _ _) (le_trans (le_max_left _ _) (le_trans (le_max_left _ _)
      (le_trans (le_max_left _ _) (le_max_left _ _))))
  apply eq_of_forall_ge_iff
  intro M
  by_cases hM : 0 ≤ M
  · unfold poolKer poolRef
    simp only [max_le_iff]
    rw [row_iff neg hneg N hrow r q 0 r (add_zero r).symm hq M hM,
      row_iff neg hneg N hrow r q (-1) (r - 1) (sub_eq_add_neg r 1) hq M hM,
      row_iff neg hneg N hrow r q 1 (r + 1) rfl hq M hM]
    constructor
    · rintro ⟨⟨⟨a1, a2, a3⟩, b1, b2, b3⟩, c1, c2, c3⟩
      exact ⟨⟨⟨⟨⟨⟨⟨⟨⟨bot_le, b1⟩, b2⟩, b3⟩, a1⟩, a2⟩, a3⟩, c1⟩, c2⟩, c3⟩
    · rintro ⟨⟨⟨⟨⟨⟨⟨⟨⟨_, b1⟩, b2⟩, b3⟩, a1⟩, a2⟩, a3⟩, c1⟩, c2⟩, c3⟩
      exact ⟨⟨⟨a1, a2, a3⟩, b1, b2, b3⟩, c1, c2, c3⟩
  · constructor
    · intro hK
      exact absurd (le_trans (hN r q) (le_trans hcK hK)) hM
    · intro hR
      exact absurd (le_trans (hN r q) (le_trans hcR hR)) hM

/-! ### The statement in slab coordinates -/

/-- S is a slab read as a plane in slab coordinates; image row = slab row + off. Where the slab
    agrees with the plane on the five rows around s, the slab's separable maximum of its own
    suppression product, times the slab's centre, is the specification's result at that pixel. -/
theorem slab_eq (neg c a b : EReal) (hneg : neg ≤ 0) (ha : 0 ≤ a) (hb : 0 ≤ b)
    (X0 X1 S : ℤ → ℤ → EReal) (off s q : ℤ)
    (hq : 0 ≤ q ∧ q < 1024) (hrow : 0 ≤ s + off ∧ s + off < 1024)
    (hS : ∀ s' q', s - 2 ≤ s' → s' ≤ s + 2 → S s' q' = plane c X0 X1 (s' + off) q') :
    S s q * poolKer neg (nms a b S) s q
      = plane c X0 X1 (s + off) q * poolRef (nms a b (plane c X0 X1)) (s + off) q := by
  have h1 : S s q = plane c X0 X1 (s + off) q := hS s q (by omega) (by omega)
  have h2 : poolKer neg (nms a b S) s q
      = poolKer neg (fun s' q' => nms a b (plane c X0 X1) (s' + off) q') s q := by
    apply poolKer_congr
    intro s' q' hs0 hs1 _ _
    rw [← nms_shift]
    apply nms_congr
    intro s'' q'' ht0 ht1 _ _
    exact hS s'' q'' (by omega) (by omega)
  have h3 : poolKer neg (nms a b (plane c X0 X1)) (s + off) q
      = poolRef (nms a b (plane c X0 X1)) (s + off) q := by
    apply pool_eq neg hneg
    · intro r' q'
      exact nms_nonneg a b ha hb _ r' q'
    · intro r' q' hr'
      apply nms_center_zero a b _ (plane_nonneg c X0 X1)
      apply plane_off
      rintro ⟨h0, h1', _, _⟩
      omega
    · exact ⟨hrow.1, hrow.2, hq.1, hq.2⟩
  rw [h1, h2, poolKer_shift, h3]

end Cert.Nms

end
-- ==== Proof.SlabRead.lean ====
/-
  The kernel body's computation on one 144-row slab, read at an index, at the exact instance
  (a float is an extended real; a slab is a function from slab positions to extended reals).

  First each layout operation of the slab at a position `(s, q)`: the two row moves read row
  `s ∓ 1` around the end, the two column moves read column `q ∓ 1` and a given value in the
  column that would wrap (the comparison with the array of column numbers decides which). Then
  the same facts for the slab READ AS A PLANE over `ℤ × ℤ` that is zero off the slab: away
  from the first and last slab row a row move is a shift of the plane, and with the value `0`
  in the wrapping column a column move is a shift of the plane too, because the plane is `0`
  in columns `-1` and `1024`. So the product of the eight rectified differences, times 256, is
  `nms` of the plane on slab rows `1 … 142`, the separable maximum is `poolKer` of the plane on
  those rows, and on slab rows `2 … 141` the maximum of the product reads the product only
  where it is `nms`. The stored block is rows `8 … 135`.
-/
import proofs.«168791_j38654705664677_2_alg».proof.Proof.Spec
import proofs.«168791_j38654705664677_2_alg».proof.Proof.Slab
import Idealize.ShloMosaic.Lib.ValueIdx
import Idealize.ShloMosaic.Lib.KernelVsHost
import Idealize.ShloMosaic.Lib.Pipeline.Value
import Idealize.ShloMosaic.PureOps.Ideal.Laws

noncomputable section

namespace Cert.Nms

open Idealize.ShloMosaic Idealize.ShloMosaic.ValueIdx Cert.KernelIdeal Cert.KernelIdeal.Gen

/-! ## Words: the comparison with a column number -/

/-- Two numbers below 2³² are equal as 32-bit words exactly when they are equal. -/
theorem ofNat32_eq_iff (n m : Nat) (hn : n < 4294967296) (hm : m < 4294967296) :
    BitVec.ofNat 32 n = BitVec.ofNat 32 m ↔ n = m := by
  constructor
  · intro h
    have h' := congrArg BitVec.toNat h
    simp only [BitVec.toNat_ofNat] at h'
    omega
  · intro h; rw [h]

/-- A select on "the word of `n` equals the word of `m`" is the `if` on `n = m`. -/
theorem select_cmpi_eq {α : Type} (n m : Nat) (hn : n < 4294967296) (hm : m < 4294967296) (A B : α) :
    Scalar.select (IntOp.cmpi .eq (BitVec.ofNat 32 n) (BitVec.ofNat 32 m)) A B = if n = m then A else B := by
  by_cases h : n = m
  · subst h
    rw [if_pos rfl]
    unfold Scalar.select IntOp.cmpi
    simp
  · rw [if_neg h]
    have hne : BitVec.ofNat 32 n ≠ BitVec.ofNat 32 m := fun e => h ((ofNat32_eq_iff n m hn hm).1 e)
    have hb : (BitVec.ofNat 32 n == BitVec.ofNat 32 m) = false := beq_eq_false_iff_ne.2 hne
    unfold Scalar.select IntOp.cmpi
    rw [hb]
    show (if BitVec.ofBool false = 1#1 then A else B) = B
    exact if_neg (by decide)

/-! ## The layout operations at a slab position -/

/-- The array of column numbers holds, at `(s, q)`, the word of `q`. -/
theorem colIota_apply (s : Fin 144) (q : Fin 1024) : colIota (ix2 s q) = BitVec.ofNat 32 q.val := by
  unfold colIota
  exact iota_single_apply .tc S144x1024 32 1 iota_S144x1024_d1_w32 (ix2 s q)

/-- Row `s` of `up a` is row `s - 1` of `a`, around the end. -/
theorem up_apply (a : FVec Ideal S144x1024 .f32) (s : Fin 144) (q : Fin 1024) :
    up (F := Ideal) a (ix2 s q) = a (ix2 (⟨(s.val + 143) % 144, Nat.mod_lt _ (by decide)⟩ : Fin 144) q) := by
  unfold up
  refine dynamicRotate_apply (s := S144x1024) 0 1#32 a rotates_S144x1024_d0 (ix2 s q) _ ?_
  intro b
  match b with
  | ⟨0, _⟩ => show (s.val + 143) % 144 = (s.val + 144 - 1 % 144) % 144; omega
  | ⟨1, _⟩ => rfl

/-- Row `s` of `dn a` is row `s + 1` of `a`, around the end. -/
theorem dn_apply (a : FVec Ideal S144x1024 .f32) (s : Fin 144) (q : Fin 1024) :
    dn (F := Ideal) a (ix2 s q) = a (ix2 (⟨(s.val + 1) % 144, Nat.mod_lt _ (by decide)⟩ : Fin 144) q) := by
  unfold dn
  refine dynamicRotate_apply (s := S144x1024) 0 143#32 a rotates_S144x1024_d0 (ix2 s q) _ ?_
  intro b
  match b with
  | ⟨0, _⟩ => show (s.val + 1) % 144 = (s.val + 144 - 143 % 144) % 144; omega
  | ⟨1, _⟩ => rfl

/-- Column `q` of `lf colIota pad a` is `pad` for `q = 0` and column `q - 1` of `a` otherwise. -/
theorem lf_apply (pad : Ideal .f32) (a : FVec Ideal S144x1024 .f32) (s : Fin 144) (q : Fin 1024) :
    lf (F := Ideal) colIota pad a (ix2 s q)
      = if q.val = 0 then pad else a (ix2 s (⟨(q.val + 1023) % 1024, Nat.mod_lt _ (by decide)⟩ : Fin 1024)) := by
  have hq := q.isLt
  have hrot := dynamicRotate_apply (s := S144x1024) 1 1#32 a rotates_S144x1024_d1 (ix2 s q)
    (ix2 s (⟨(q.val + 1023) % 1024, Nat.mod_lt _ (by decide)⟩ : Fin 1024)) (by
      intro b
      match b with
      | ⟨0, _⟩ => rfl
      | ⟨1, _⟩ => show (q.val + 1023) % 1024 = (q.val + 1024 - 1 % 1024) % 1024; omega)
  unfold lf
  rw [select_apply, hrot]
  show Scalar.select (IntOp.cmpi .eq (colIota (ix2 s q)) (BitVec.ofNat 32 0)) pad _ = _
  rw [colIota_apply, select_cmpi_eq q.val 0 (by omega) (by omega)]

/-- Column `q` of `rt colIota pad a` is `pad` for `q = 1023` and column `q + 1` of `a` otherwise. -/
theorem rt_apply (pad : Ideal .f32) (a : FVec Ideal S144x1024 .f32) (s : Fin 144) (q : Fin 1024) :
    rt (F := Ideal) colIota pad a (ix2 s q)
      = if q.val = 1023 then pad else a (ix2 s (⟨(q.val + 1) % 1024, Nat.mod_lt _ (by decide)⟩ : Fin 1024)) := by
  have hq := q.isLt
  have hrot := dynamicRotate_apply (s := S144x1024) 1 1023#32 a rotates_S144x1024_d1 (ix2 s q)
    (ix2 s (⟨(q.val + 1) % 1024, Nat.mod_lt _ (by decide)⟩ : Fin 1024)) (by
      intro b
      match b with
      | ⟨0, _⟩ => rfl
      | ⟨1, _⟩ => show (q.val + 1) % 1024 = (q.val + 1024 - 1023 % 1024) % 1024; omega)
  unfold rt
  rw [select_apply, hrot]
  show Scalar.select (IntOp.cmpi .eq (colIota (ix2 s q)) (BitVec.ofNat 32 1023)) pad _ = _
  rw [colIota_apply, select_cmpi_eq q.val 1023 (by omega) (by omega)]

/-- The stored block's row `r'` is the slab's row `r' + 8`. -/
theorem slice_apply (a : FVec Ideal S144x1024 .f32) (r' : Fin 128) (q : Fin 1024) (k : Fin 144)
    (hk : k.val = r'.val + 8) :
    extractStridedSlice S128x1024 ![8, 0] a slices_S144x1024_o8_0_S128x1024 (ix2 r' q) = a (ix2 k q) :=
  extractStridedSlice_apply (s := S144x1024) (t := S128x1024) ![8, 0] a slices_S144x1024_o8_0_S128x1024
    (ix2 r' q) (ix2 k q) (by
      intro b
      match b with
      | ⟨0, _⟩ => show k.val = 8 + r'.val; omega
      | ⟨1, _⟩ => show q.val = 0 + q.val; omega)

/-- The block with two unit axes in front reads, at `(0, 0, r', q)`, the block at `(r', q)`. -/
theorem cast_apply (v : FVec Ideal S128x1024 .f32) (r' : Fin 128) (q : Fin 1024) :
    shapeCast S1x1x128x1024 v shapeCasts_S128x1024_S1x1x128x1024 (ix4 (0 : Fin 1) (0 : Fin 1) r' q) = v (ix2 r' q) :=
  shapeCast_apply (s := S128x1024) (t := S1x1x128x1024) v shapeCasts_S128x1024_S1x1x128x1024 _ (ix2 r' q) (by
    rw [Shape.rowMajor_val_two, Shape.rowMajor_val_four]
    show r'.val * 1024 + q.val = ((0 * 1 + 0) * 128 + r'.val) * 1024 + q.val
    omega)

/-! ## A slab as a plane -/

/-- An integer in `[0, n)` is the value of an element of `Fin n`. -/
theorem exists_fin (n : ℕ) (s : ℤ) (h0 : 0 ≤ s) (h1 : s < n) : ∃ k : Fin n, s = (k.val : ℤ) :=
  ⟨⟨s.toNat, by omega⟩, by show s = ((s.toNat : ℕ) : ℤ); omega⟩

/-- At a slab position the plane is the slab. -/
theorem ext_in (a : FVec Ideal S144x1024 .f32) (s : Fin 144) (q : Fin 1024) :
    ext a (s.val : ℤ) (q.val : ℤ) = a (ix2 s q) := by
  have hs := s.isLt
  have hq := q.isLt
  unfold ext
  rw [dif_pos (⟨by omega, by omega, by omega, by omega⟩ :
    0 ≤ (s.val : ℤ) ∧ (s.val : ℤ) < 144 ∧ 0 ≤ (q.val : ℤ) ∧ (q.val : ℤ) < 1024)]
  have e1 : ∀ h, (⟨(s.val : ℤ).toNat, h⟩ : Fin 144) = s := fun _ => Fin.ext (Int.toNat_natCast _)
  have e2 : ∀ h, (⟨(q.val : ℤ).toNat, h⟩ : Fin 1024) = q := fun _ => Fin.ext (Int.toNat_natCast _)
  rw [e1, e2]

/-- The same, the position given by integers known to be the coordinates. -/
theorem ext_eq (a : FVec Ideal S144x1024 .f32) (s q : ℤ) (s' : Fin 144) (q' : Fin 1024)
    (hs : s = (s'.val : ℤ)) (hq : q = (q'.val : ℤ)) : ext a s q = a (ix2 s' q') := by
  subst hs hq
  exact ext_in a s' q'

/-- Off the slab the plane is zero. -/
theorem ext_out (a : FVec Ideal S144x1024 .f32) (s q : ℤ) (h : ¬(0 ≤ s ∧ s < 144 ∧ 0 ≤ q ∧ q < 1024)) :
    ext a s q = 0 := by
  unfold ext
  rw [dif_neg h]

/-- Below the first slab row, `up` shifts the plane by one row. -/
theorem ext_up (s : ℤ) (hs : 1 ≤ s ∧ s < 144) (q : ℤ) (a : FVec Ideal S144x1024 .f32) :
    ext (up (F := Ideal) a) s q = ext a (s - 1) q := by
  by_cases hq : 0 ≤ q ∧ q < 1024
  · obtain ⟨s', rfl⟩ := exists_fin 144 s (by omega) hs.2
    obtain ⟨q', rfl⟩ := exists_fin 1024 q hq.1 hq.2
    have hs' := s'.isLt
    rw [ext_in, up_apply]
    exact (ext_eq a _ _ _ q' (by show (s'.val : ℤ) - 1 = (((s'.val + 143) % 144 : ℕ) : ℤ); omega) rfl).symm
  · rw [ext_out _ _ _ (by omega), ext_out _ _ _ (by omega)]

/-- Above the last slab row, `dn` shifts the plane by one row. -/
theorem ext_dn (s : ℤ) (hs : 0 ≤ s ∧ s < 143) (q : ℤ) (a : FVec Ideal S144x1024 .f32) :
    ext (dn (F := Ideal) a) s q = ext a (s + 1) q := by
  by_cases hq : 0 ≤ q ∧ q < 1024
  · obtain ⟨s', rfl⟩ := exists_fin 144 s hs.1 (by omega)
    obtain ⟨q', rfl⟩ := exists_fin 1024 q hq.1 hq.2
    have hs' := s'.isLt
    rw [ext_in, dn_apply]
    exact (ext_eq a _ _ _ q' (by show (s'.val : ℤ) + 1 = (((s'.val + 1) % 144 : ℕ) : ℤ); omega) rfl).symm
  · rw [ext_out _ _ _ (by omega), ext_out _ _ _ (by omega)]

/-- On the slab, `lf` shifts the plane by one column, with `pad` in column 0. -/
theorem ext_lf (pad : Ideal .f32) (s : ℤ) (hs : 0 ≤ s ∧ s < 144) (q : ℤ) (hq : 0 ≤ q ∧ q < 1024)
    (a : FVec Ideal S144x1024 .f32) :
    ext (lf (F := Ideal) colIota pad a) s q = if q = 0 then pad else ext a s (q - 1) := by
  obtain ⟨s', rfl⟩ := exists_fin 144 s hs.1 hs.2
  obtain ⟨q', rfl⟩ := exists_fin 1024 q hq.1 hq.2
  have hq' := q'.isLt
  rw [ext_in, lf_apply]
  by_cases h0 : q'.val = 0
  · rw [if_pos h0, if_pos (by omega)]
  · rw [if_neg h0, if_neg (by omega)]
    exact (ext_eq a _ _ s' _ rfl (by show (q'.val : ℤ) - 1 = (((q'.val + 1023) % 1024 : ℕ) : ℤ); omega)).symm

/-- On the slab, `rt` shifts the plane by one column, with `pad` in column 1023. -/
theorem ext_rt (pad : Ideal .f32) (s : ℤ) (hs : 0 ≤ s ∧ s < 144) (q : ℤ) (hq : 0 ≤ q ∧ q < 1024)
    (a : FVec Ideal S144x1024 .f32) :
    ext (rt (F := Ideal) colIota pad a) s q = if q = 1023 then pad else ext a s (q + 1) := by
  obtain ⟨s', rfl⟩ := exists_fin 144 s hs.1 hs.2
  obtain ⟨q', rfl⟩ := exists_fin 1024 q hq.1 hq.2
  have hq' := q'.isLt
  rw [ext_in, rt_apply]
  by_cases h0 : q'.val = 1023
  · rw [if_pos h0, if_pos (by omega)]
  · rw [if_neg h0, if_neg (by omega)]
    exact (ext_eq a _ _ s' _ rfl (by show (q'.val : ℤ) + 1 = (((q'.val + 1) % 1024 : ℕ) : ℤ); omega)).symm

/-- The plane of a product is the product of the planes (`0 * 0 = 0` off the slab). -/
theorem ext_mulf (a b : FVec Ideal S144x1024 .f32) (s q : ℤ) :
    ext (mulf a b) s q = ext a s q * ext b s q := by
  by_cases h : 0 ≤ s ∧ s < 144 ∧ 0 ≤ q ∧ q < 1024
  · simp only [ext, dif_pos h]; rfl
  · simp only [ext, dif_neg h, mul_zero]

/-- The plane of a difference is the difference of the planes. -/
theorem ext_subf (a b : FVec Ideal S144x1024 .f32) (s q : ℤ) :
    ext (subf a b) s q = ext a s q - ext b s q := by
  by_cases h : 0 ≤ s ∧ s < 144 ∧ 0 ≤ q ∧ q < 1024
  · simp only [ext, dif_pos h]; rfl
  · simp only [ext, dif_neg h, sub_zero]

/-- The plane of a maximum is the maximum of the planes. -/
theorem ext_maximumf (a b : FVec Ideal S144x1024 .f32) (s q : ℤ) :
    ext (maximumf a b) s q = max (ext a s q) (ext b s q) := by
  by_cases h : 0 ≤ s ∧ s < 144 ∧ 0 ≤ q ∧ q < 1024
  · simp only [ext, dif_pos h]; rfl
  · simp only [ext, dif_neg h, max_self]

/-- On the slab the plane of a constant slab is the constant. -/
theorem ext_broadcast (c : Ideal .f32) (s q : ℤ) (hs : 0 ≤ s ∧ s < 144) (hq : 0 ≤ q ∧ q < 1024) :
    ext (broadcast S144x1024 c) s q = c := by
  unfold ext
  rw [dif_pos ⟨hs.1, hs.2, hq.1, hq.2⟩]
  rfl

/-- The plane of the slab of zeros is zero everywhere. -/
theorem ext_zeroV (s q : ℤ) : ext (zeroV (F := Ideal)) s q = 0 := by
  unfold ext
  by_cases h : 0 ≤ s ∧ s < 144 ∧ 0 ≤ q ∧ q < 1024
  · rw [dif_pos h]; exact Ideal.ofBits_zero_f32
  · rw [dif_neg h]

/-- The plane of a rectified slab is the rectified plane. -/
theorem ext_reluV (a : FVec Ideal S144x1024 .f32) (s q : ℤ) :
    ext (reluV (F := Ideal) a) s q = relu (ext a s q) := by
  unfold reluV relu
  rw [ext_maximumf, ext_zeroV]

/-- With `0` in the wrapping column, `lf` is a shift of the plane: the plane is `0` in column `-1`. -/
theorem ext_lf0 (s : ℤ) (hs : 0 ≤ s ∧ s < 144) (q : ℤ) (hq : 0 ≤ q ∧ q < 1024) (a : FVec Ideal S144x1024 .f32) :
    ext (lf (F := Ideal) colIota (Scalar.ofBits .f32 0x00000000#32) a) s q = ext a s (q - 1) := by
  rw [ext_lf _ s hs q hq a]
  by_cases h0 : q = 0
  · rw [if_pos h0, ext_out a s (q - 1) (by omega)]; exact Ideal.ofBits_zero_f32
  · rw [if_neg h0]

/-- With `0` in the wrapping column, `rt` is a shift of the plane: the plane is `0` in column `1024`. -/
theorem ext_rt0 (s : ℤ) (hs : 0 ≤ s ∧ s < 144) (q : ℤ) (hq : 0 ≤ q ∧ q < 1024) (a : FVec Ideal S144x1024 .f32) :
    ext (rt (F := Ideal) colIota (Scalar.ofBits .f32 0x00000000#32) a) s q = ext a s (q + 1) := by
  rw [ext_rt _ s hs q hq a]
  by_cases h0 : q = 1023
  · rw [if_pos h0, ext_out a s (q + 1) (by omega)]; exact Ideal.ofBits_zero_f32
  · rw [if_neg h0]

/-! ## The product of rectified differences and the separable maximum, as planes -/

/-- Away from the first and last slab row, the product of the eight rectified differences times 256
    is `nms` of the plane. -/
theorem ext_nmsV (xp : FVec Ideal S144x1024 .f32) (s q : ℤ) (hs : 1 ≤ s ∧ s < 143) (hq : 0 ≤ q ∧ q < 1024) :
    ext (nmsV (F := Ideal) colIota xp) s q = nms c1 c256 (ext xp) s q := by
  have hs0 : 0 ≤ s ∧ s < 144 := by omega
  have hsu : 1 ≤ s ∧ s < 144 := by omega
  have hsd : 0 ≤ s ∧ s < 143 := by omega
  unfold nmsV prodV nms
  simp only [ext_mulf, ext_reluV, ext_subf, ext_lf0 s hs0 q hq, ext_rt0 s hs0 q hq, ext_up s hsu, ext_dn s hsd,
    ext_broadcast _ s q hs0 hq]
  rfl

/-- On the slab, the maximum of three horizontal neighbours is `hmax` of the plane. -/
theorem ext_hV (n : FVec Ideal S144x1024 .f32) (s : ℤ) (hs : 0 ≤ s ∧ s < 144) (q : ℤ) (hq : 0 ≤ q ∧ q < 1024) :
    ext (hV (F := Ideal) colIota n) s q = hmax cneg (ext n) s q := by
  unfold hV hmax
  rw [ext_maximumf, ext_maximumf, ext_lf _ s hs q hq, ext_rt _ s hs q hq]
  rfl

/-- Away from the first and last slab row, the separable 3 × 3 maximum is `poolKer` of the plane. -/
theorem ext_poolV (n : FVec Ideal S144x1024 .f32) (s q : ℤ) (hs : 1 ≤ s ∧ s < 143) (hq : 0 ≤ q ∧ q < 1024) :
    ext (poolV (F := Ideal) colIota n) s q = poolKer cneg (ext n) s q := by
  unfold poolV poolKer
  rw [ext_maximumf, ext_maximumf, ext_up s (by omega), ext_dn s (by omega),
    ext_hV n s (by omega) q hq, ext_hV n (s - 1) (by omega) q hq, ext_hV n (s + 1) (by omega) q hq]

/-- `hmax` reads its plane in row `r` at image columns only: at `q = 0` column `-1` is not read, at
    `q = 1023` column `1024` is not read. -/
theorem hmax_congr_img (neg : EReal) (N N' : ℤ → ℤ → EReal) (r q : ℤ) (hq : 0 ≤ q ∧ q < 1024)
    (h : ∀ q' : ℤ, 0 ≤ q' ∧ q' < 1024 → N r q' = N' r q') : hmax neg N r q = hmax neg N' r q := by
  unfold hmax
  rw [h q hq]
  by_cases h0 : q = 0
  · by_cases h1 : q = 1023
    · omega
    · rw [if_pos h0, if_pos h0, if_neg h1, if_neg h1, h (q + 1) (by omega)]
  · by_cases h1 : q = 1023
    · rw [if_neg h0, if_neg h0, if_pos h1, if_pos h1, h (q - 1) (by omega)]
    · rw [if_neg h0, if_neg h0, if_neg h1, if_neg h1, h (q - 1) (by omega), h (q + 1) (by omega)]

/-- `poolKer` reads its plane in rows `r - 1 … r + 1` at image columns only. -/
theorem poolKer_congr_img (neg : EReal) (N N' : ℤ → ℤ → EReal) (r q : ℤ) (hq : 0 ≤ q ∧ q < 1024)
    (h : ∀ r' q' : ℤ, r - 1 ≤ r' ∧ r' ≤ r + 1 → 0 ≤ q' ∧ q' < 1024 → N r' q' = N' r' q') :
    poolKer neg N r q = poolKer neg N' r q := by
  unfold poolKer
  rw [hmax_congr_img neg N N' r q hq (fun q' hq' => h r q' (by omega) hq'),
    hmax_congr_img neg N N' (r - 1) q hq (fun q' hq' => h (r - 1) q' (by omega) hq'),
    hmax_congr_img neg N N' (r + 1) q hq (fun q' hq' => h (r + 1) q' (by omega) hq')]

/-! ## The two statements -/

/-- The rectified difference on the slab, read as a plane, at a slab position. -/
theorem ext_xpV (x0s x1s : FVec Ideal S144x1024 .f32) (s : Fin 144) (q : Fin 1024) :
    ext (xpV (F := Ideal) x0s x1s) (s.val : ℤ) (q.val : ℤ) = relu (x1s (ix2 s q) - x0s (ix2 s q) - c01) := by
  rw [ext_in]
  show max (x1s (ix2 s q) - x0s (ix2 s q) - Ideal.ofBits .f32 0x3DCCCCCD#32) (Ideal.ofBits .f32 0x00000000#32) = _
  rw [Ideal.ofBits_zero_f32]
  rfl

/-- Rows 8 … 135 of a slab times the separable maximum of its product of rectified differences, stored
    with two unit axes in front and read at `(0, 0, r', q)`: slab row `r' + 8` lies in `2 … 141`. -/
theorem stored_apply (xp : FVec Ideal S144x1024 .f32) (r' : Fin 128) (q : Fin 1024) :
    shapeCast S1x1x128x1024
        (mulf (extractStridedSlice S128x1024 ![8, 0] xp slices_S144x1024_o8_0_S128x1024)
          (extractStridedSlice S128x1024 ![8, 0] (poolV (F := Ideal) colIota (nmsV (F := Ideal) colIota xp))
            slices_S144x1024_o8_0_S128x1024))
        shapeCasts_S128x1024_S1x1x128x1024 (ix4 (0 : Fin 1) (0 : Fin 1) r' q)
      = ext xp ((r'.val : ℤ) + 8) (q.val : ℤ)
        * poolKer cneg (nms c1 c256 (ext xp)) ((r'.val : ℤ) + 8) (q.val : ℤ) := by
  have hr := r'.isLt
  have hq := q.isLt
  have hk : ((r'.val : ℤ) + 8) = (((⟨r'.val + 8, by omega⟩ : Fin 144).val : ℕ) : ℤ) := by
    show ((r'.val : ℤ) + 8) = ((r'.val + 8 : ℕ) : ℤ); omega
  have hq2 : 0 ≤ (q.val : ℤ) ∧ (q.val : ℤ) < 1024 := by omega
  rw [cast_apply, mulf_apply, slice_apply xp r' q ⟨r'.val + 8, by omega⟩ rfl,
    slice_apply _ r' q ⟨r'.val + 8, by omega⟩ rfl,
    ← ext_eq xp _ _ ⟨r'.val + 8, by omega⟩ q hk rfl,
    ← ext_eq (poolV (F := Ideal) colIota (nmsV (F := Ideal) colIota xp)) _ _ ⟨r'.val + 8, by omega⟩ q hk rfl,
    ext_poolV _ _ _ (by omega) hq2]
  refine congrArg (fun z => ext xp ((r'.val : ℤ) + 8) (q.val : ℤ) * z) ?_
  exact poolKer_congr_img cneg _ _ _ _ hq2 (fun r'' q'' hr'' hq'' => ext_nmsV xp r'' q'' (by omega) hq'')

/-- THE MAIN STATEMENT: the stored block at row `r'` (slab row `r' + 8`), column `q`. -/
theorem slabOut_apply (x0s x1s : FVec Ideal S144x1024 .f32) (r' : Fin 128) (q : Fin 1024) :
    slabOut (F := Ideal) colIota x0s x1s (ix4 (0 : Fin 1) (0 : Fin 1) r' q)
      = ext (xpV (F := Ideal) x0s x1s) ((r'.val : ℤ) + 8) (q.val : ℤ)
        * poolKer cneg (nms c1 c256 (ext (xpV (F := Ideal) x0s x1s))) ((r'.val : ℤ) + 8) (q.val : ℤ) :=
  stored_apply (xpV (F := Ideal) x0s x1s) r' q

end Cert.Nms

end
-- ==== Proof.SlabCut.lean ====
/-
  How the three kinds of slab are cut from the input block, read as planes.

  The input block X holds the two channels of one batch entry at index (0, channel, row, column).
  A slab is 144 rows; slab row s is image row s + off, and a slab row that falls off the image is a
  row of zeros. Read as planes over ℤ × ℤ, the rectified channel difference of the two slabs is the
  block's rectified-difference plane moved by off rows: on the image both are
  max (X(0,1,row,q) − X(0,0,row,q) − c01) 0, and at a zero row max (0 − 0 − c01) 0 = 0.
-/
import proofs.«168791_j38654705664677_2_alg».proof.Proof.Spec
import proofs.«168791_j38654705664677_2_alg».proof.Proof.Slab
import proofs.«168791_j38654705664677_2_alg».proof.Proof.PoolLaw
import proofs.«168791_j38654705664677_2_alg».proof.Proof.Gen.KernelIdeal
import Idealize.ShloMosaic.Lib.WholeRead
import Idealize.ShloMosaic.Lib.Pipeline.Value
import Idealize.ShloMosaic.Lib.ValueIdx

noncomputable section

namespace Cert.Nms

open Idealize.ShloMosaic Idealize.ShloMosaic.ValueIdx Cert.KernelIdeal Cert.KernelIdeal.Gen

/-- Channel ch of the input block as a plane over ℤ × ℤ, zero off the image. -/
def bchan (X : S1x2x1024x1024.Idx → EReal) (ch : Fin 2) (r q : ℤ) : EReal :=
  if h : InImg r q then X (ix4 (0 : Fin 1) ch ⟨r.toNat, by obtain ⟨h0, h1, _, _⟩ := h; omega⟩ ⟨q.toNat, by obtain ⟨_, _, h2, h3⟩ := h; omega⟩) else 0

namespace SlabCut

/-! ### A slab read as a plane, and the rectified difference at an index -/

theorem ext_in (a : FVec Ideal S144x1024 .f32) (s q : ℤ) (h : 0 ≤ s ∧ s < 144 ∧ 0 ≤ q ∧ q < 1024) :
    ext a s q = a (ix2 ⟨s.toNat, by omega⟩ ⟨q.toNat, by omega⟩) := dif_pos h

theorem ext_out (a : FVec Ideal S144x1024 .f32) (s q : ℤ) (h : ¬ (0 ≤ s ∧ s < 144 ∧ 0 ≤ q ∧ q < 1024)) :
    ext a s q = 0 := dif_neg h

/-- The all-zero pattern is the number zero. -/
theorem ofBits_zero : Ideal.ofBits .f32 0x00000000#32 = (0 : EReal) := by
  simp [Ideal.ofBits, Ideal.ieee]

theorem xpV_apply (x0s x1s : FVec Ideal S144x1024 .f32) (i : S144x1024.Idx) :
    xpV (F := Ideal) x0s x1s i = relu (x1s i - x0s i - c01) := by
  show max (x1s i - x0s i - Ideal.ofBits .f32 0x3DCCCCCD#32) (Ideal.ofBits .f32 0x00000000#32) = _
  rw [ofBits_zero]
  rfl

/-! ### The three slabs at an index, over any loaded rows -/

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem slabMid_apply (L : Vec Ideal S1x1x144x1024 .f32) (i : Fin 144) (j : Fin 1024) :
    slabMid (F := Ideal) L (ix2 i j) = L (ix4 (0 : Fin 1) (0 : Fin 1) i j) :=
  shapeCast_11ab_ab_apply L shapeCasts_S1x1x144x1024_S144x1024 i j

theorem slabTop_lo (L : Vec Ideal S1x1x136x1024 .f32) (i : Fin 144) (j : Fin 1024) (h : i.val < 8) :
    slabTop (F := Ideal) L (ix2 i j) = 0 := by
  unfold slabTop
  refine (concatenate_pair_apply_left (t := S144x1024) (s₁ := S8x1024) (s₂ := S136x1024) _ _ _ _ (ix2 i j) rfl
    (ix2 ⟨i.val, h⟩ j) ?_).trans ?_
  · intro b
    match b with
    | ⟨0, _⟩ => rfl
    | ⟨1, _⟩ => rfl
  · exact ofBits_zero

theorem slabTop_hi (L : Vec Ideal S1x1x136x1024 .f32) (i : Fin 144) (j : Fin 1024) (h : 8 ≤ i.val) :
    slabTop (F := Ideal) L (ix2 i j) = L (ix4 (0 : Fin 1) (0 : Fin 1) ⟨i.val - 8, by omega⟩ j) := by
  unfold slabTop
  refine (concatenate_pair_apply_right (t := S144x1024) (s₁ := S8x1024) (s₂ := S136x1024) _ _ _ _ (ix2 i j) rfl rfl
    (ix2 ⟨i.val - 8, by omega⟩ j) ?_ ?_).trans ?_
  · intro b hb
    match b, hb with
    | ⟨0, _⟩, hb => exact absurd rfl hb
    | ⟨1, _⟩, _ => rfl
  · show i.val - 8 + 8 = i.val
    omega
  · exact shapeCast_11ab_ab_apply L shapeCasts_S1x1x136x1024_S136x1024 _ j

theorem slabBot_lo (L : Vec Ideal S1x1x136x1024 .f32) (i : Fin 144) (j : Fin 1024) (h : i.val < 136) :
    slabBot (F := Ideal) L (ix2 i j) = L (ix4 (0 : Fin 1) (0 : Fin 1) ⟨i.val, h⟩ j) := by
  unfold slabBot
  refine (concatenate_pair_apply_left (t := S144x1024) (s₁ := S136x1024) (s₂ := S8x1024) _ _ _ _ (ix2 i j) rfl
    (ix2 ⟨i.val, h⟩ j) ?_).trans ?_
  · intro b
    match b with
    | ⟨0, _⟩ => rfl
    | ⟨1, _⟩ => rfl
  · exact shapeCast_11ab_ab_apply L shapeCasts_S1x1x136x1024_S136x1024 _ j

theorem slabBot_hi (L : Vec Ideal S1x1x136x1024 .f32) (i : Fin 144) (j : Fin 1024) (h : 136 ≤ i.val) :
    slabBot (F := Ideal) L (ix2 i j) = 0 := by
  unfold slabBot
  refine (concatenate_pair_apply_right (t := S144x1024) (s₁ := S136x1024) (s₂ := S8x1024) _ _ _ _ (ix2 i j) rfl rfl
    (ix2 ⟨i.val - 136, by omega⟩ j) ?_ ?_).trans ?_
  · intro b hb
    match b, hb with
    | ⟨0, _⟩, hb => exact absurd rfl hb
    | ⟨1, _⟩, _ => rfl
  · show i.val - 136 + 136 = i.val
    omega
  · exact ofBits_zero

/-! ### A load of n rows of one channel, from row o, at an index -/

/-- The loaded element (0, 0, i, j) is the block's element (0, c, o + i, j), which is the channel's
    plane at image row o + i and column j. -/
theorem load_bchan (arg1 : Memref sig .tc .vmem S1x2x1024x1024 .f32) (harg1 : arg1.IsWhole)
    (X : Vec Ideal S1x2x1024x1024 .f32) (c : ℕ) (hc : c < 2) (o n : ℕ)
    (inb : ∀ a, (![0, c, o, 0] : Fin 4 → ℕ) a + (![1, 1, n, 1024] : Fin 4 → ℕ) a ≤ S1x2x1024x1024.size a)
    (i : Fin n) (j : Fin 1024) (r q : ℤ) (hr : r = (o : ℤ) + (i.val : ℤ)) (hq : q = (j.val : ℤ))
    (ho : o + n ≤ 1024) :
    View.readAt (Elt Ideal) arg1.view
        (Rect.unit (s := S1x2x1024x1024) ![0, c, o, 0] ![1, 1, n, 1024] inb).toLoadRect (harg1.unread X)
        (ix4 (0 : Fin 1) (0 : Fin 1) i j)
      = bchan X ⟨c, hc⟩ r q := by
  have hi := i.isLt
  have hj := j.isLt
  have himg : InImg r q := ⟨by omega, by omega, by omega, by omega⟩
  unfold bchan
  rw [dif_pos himg]
  refine (harg1.readAt_unread X _ _).trans (congrArg X (funext fun a => ?_))
  match a with
  | ⟨0, _⟩ => exact Fin.ext (by show 0 + 1 * 0 = 0; rfl)
  | ⟨1, _⟩ => exact Fin.ext (by show c + 1 * 0 = c; omega)
  | ⟨2, _⟩ => exact Fin.ext (by show o + 1 * i.val = r.toNat; omega)
  | ⟨3, _⟩ => exact Fin.ext (by show 0 + 1 * j.val = q.toNat; omega)

/-! ### The three slabs' rectified difference at an index -/

theorem top_entry (arg1 : Memref sig .tc .vmem S1x2x1024x1024 .f32) (harg1 : arg1.IsWhole)
    (X : Vec Ideal S1x2x1024x1024 .f32) (i : Fin 144) (j : Fin 1024) (s q : ℤ)
    (hi : (i.val : ℤ) = s) (hj : (j.val : ℤ) = q) :
    xpV (F := Ideal)
        (slabTop (View.readAt (Elt Ideal) arg1.view (Rect.unit (s := S1x2x1024x1024) ![0, 0, 0, 0] S1x1x136x1024.size inb_S1x2x1024x1024_S1x1x136x1024_0_0_0_0).toLoadRect (harg1.unread X)))
        (slabTop (View.readAt (Elt Ideal) arg1.view (Rect.unit (s := S1x2x1024x1024) ![0, 1, 0, 0] S1x1x136x1024.size inb_S1x2x1024x1024_S1x1x136x1024_0_1_0_0).toLoadRect (harg1.unread X)))
        (ix2 i j)
      = plane c01 (bchan X 0) (bchan X 1) (s + (-8)) q := by
  rw [xpV_apply]
  by_cases h8 : i.val < 8
  · rw [slabTop_lo _ i j h8, slabTop_lo _ i j h8, relu_zero_sub_c01, plane_off]
    rintro ⟨h0, _, _, _⟩
    omega
  · have h8' : 8 ≤ i.val := by omega
    have hlt := i.isLt
    have himg : InImg (s + (-8)) q := ⟨by omega, by omega, by omega, by have := j.isLt; omega⟩
    rw [slabTop_hi _ i j h8', slabTop_hi _ i j h8']
    rw [load_bchan arg1 harg1 X 0 (by omega) 0 136 _ _ j (s + (-8)) q (by show s + -8 = ((0 : ℕ) : ℤ) + ((i.val - 8 : ℕ) : ℤ); omega) hj.symm (by omega),
      load_bchan arg1 harg1 X 1 (by omega) 0 136 _ _ j (s + (-8)) q (by show s + -8 = ((0 : ℕ) : ℤ) + ((i.val - 8 : ℕ) : ℤ); omega) hj.symm (by omega)]
    unfold plane
    rw [if_pos himg]
    rfl

theorem mid_entry (arg1 : Memref sig .tc .vmem S1x2x1024x1024 .f32) (harg1 : arg1.IsWhole)
    (X : Vec Ideal S1x2x1024x1024 .f32) (k : Fin k0_t1_loop.trips) (i : Fin 144) (j : Fin 1024) (s q : ℤ)
    (hi : (i.val : ℤ) = s) (hj : (j.val : ℤ) = q) :
    xpV (F := Ideal)
        (slabMid (View.readAt (Elt Ideal) arg1.view (Rect.unit (s := S1x2x1024x1024) (k0_off1 k) S1x1x144x1024.size (k0_off1_inb k)).toLoadRect (harg1.unread X)))
        (slabMid (View.readAt (Elt Ideal) arg1.view (Rect.unit (s := S1x2x1024x1024) (k0_off2 k) S1x1x144x1024.size (k0_off2_inb k)).toLoadRect (harg1.unread X)))
        (ix2 i j)
      = plane c01 (bchan X 0) (bchan X 1) (s + (128 * (k.val : ℤ) + 120)) q := by
  have hk : k.val < 6 := lt_of_lt_of_le k.isLt k0_t1_abs.2.1
  have hlt := i.isLt
  have himg : InImg (s + (128 * (k.val : ℤ) + 120)) q :=
    ⟨by omega, by omega, by omega, by have := j.isLt; omega⟩
  rw [xpV_apply, slabMid_apply, slabMid_apply,
    View.readAt_unit_congr_cast arg1.view (k0_off1_eq k), View.readAt_unit_congr_cast arg1.view (k0_off2_eq k)]
  rw [load_bchan arg1 harg1 X 0 (by omega) (128 * k.val + 120) 144 _ i j (s + (128 * (k.val : ℤ) + 120)) q
      (by omega) hj.symm (by omega),
    load_bchan arg1 harg1 X 1 (by omega) (128 * k.val + 120) 144 _ i j (s + (128 * (k.val : ℤ) + 120)) q
      (by omega) hj.symm (by omega)]
  unfold plane
  rw [if_pos himg]
  rfl

theorem bot_entry (arg1 : Memref sig .tc .vmem S1x2x1024x1024 .f32) (harg1 : arg1.IsWhole)
    (X : Vec Ideal S1x2x1024x1024 .f32) (i : Fin 144) (j : Fin 1024) (s q : ℤ)
    (hi : (i.val : ℤ) = s) (hj : (j.val : ℤ) = q) :
    xpV (F := Ideal)
        (slabBot (View.readAt (Elt Ideal) arg1.view (Rect.unit (s := S1x2x1024x1024) ![0, 0, 888, 0] S1x1x136x1024.size inb_S1x2x1024x1024_S1x1x136x1024_0_0_888_0).toLoadRect (harg1.unread X)))
        (slabBot (View.readAt (Elt Ideal) arg1.view (Rect.unit (s := S1x2x1024x1024) ![0, 1, 888, 0] S1x1x136x1024.size inb_S1x2x1024x1024_S1x1x136x1024_0_1_888_0).toLoadRect (harg1.unread X)))
        (ix2 i j)
      = plane c01 (bchan X 0) (bchan X 1) (s + 888) q := by
  rw [xpV_apply]
  by_cases h136 : i.val < 136
  · have himg : InImg (s + 888) q := ⟨by omega, by omega, by omega, by have := j.isLt; omega⟩
    rw [slabBot_lo _ i j h136, slabBot_lo _ i j h136]
    rw [load_bchan arg1 harg1 X 0 (by omega) 888 136 _ _ j (s + 888) q
        (by show s + 888 = ((888 : ℕ) : ℤ) + ((i.val : ℕ) : ℤ); omega) hj.symm (by omega),
      load_bchan arg1 harg1 X 1 (by omega) 888 136 _ _ j (s + 888) q
        (by show s + 888 = ((888 : ℕ) : ℤ) + ((i.val : ℕ) : ℤ); omega) hj.symm (by omega)]
    unfold plane
    rw [if_pos himg]
    rfl
  · have h136' : 136 ≤ i.val := by omega
    rw [slabBot_hi _ i j h136', slabBot_hi _ i j h136', relu_zero_sub_c01, plane_off]
    rintro ⟨_, h1, _, _⟩
    omega

end SlabCut

/-! ### The three slabs as planes -/

theorem slab_plane_top (arg1 : Memref sig .tc .vmem S1x2x1024x1024 .f32) (harg1 : arg1.IsWhole)
    (X : Vec Ideal S1x2x1024x1024 .f32) (s q : ℤ) (hs : 0 ≤ s ∧ s < 144) :
    ext (xpV (F := Ideal)
        (slabTop (View.readAt (Elt Ideal) arg1.view (Rect.unit (s := S1x2x1024x1024) ![0, 0, 0, 0] S1x1x136x1024.size inb_S1x2x1024x1024_S1x1x136x1024_0_0_0_0).toLoadRect (harg1.unread X)))
        (slabTop (View.readAt (Elt Ideal) arg1.view (Rect.unit (s := S1x2x1024x1024) ![0, 1, 0, 0] S1x1x136x1024.size inb_S1x2x1024x1024_S1x1x136x1024_0_1_0_0).toLoadRect (harg1.unread X)))) s q
      = plane c01 (bchan X 0) (bchan X 1) (s + (-8)) q := by
  by_cases hq : 0 ≤ q ∧ q < 1024
  · rw [SlabCut.ext_in _ s q ⟨hs.1, hs.2, hq.1, hq.2⟩]
    exact SlabCut.top_entry arg1 harg1 X _ _ s q (Int.toNat_of_nonneg hs.1) (Int.toNat_of_nonneg hq.1)
  · rw [SlabCut.ext_out _ s q (fun h => hq ⟨h.2.2.1, h.2.2.2⟩), plane_off]
    rintro ⟨_, _, h2, h3⟩
    exact hq ⟨h2, h3⟩

theorem slab_plane_mid (arg1 : Memref sig .tc .vmem S1x2x1024x1024 .f32) (harg1 : arg1.IsWhole)
    (X : Vec Ideal S1x2x1024x1024 .f32) (k : Fin k0_t1_loop.trips) (s q : ℤ) (hs : 0 ≤ s ∧ s < 144) :
    ext (xpV (F := Ideal)
        (slabMid (View.readAt (Elt Ideal) arg1.view (Rect.unit (s := S1x2x1024x1024) (k0_off1 k) S1x1x144x1024.size (k0_off1_inb k)).toLoadRect (harg1.unread X)))
        (slabMid (View.readAt (Elt Ideal) arg1.view (Rect.unit (s := S1x2x1024x1024) (k0_off2 k) S1x1x144x1024.size (k0_off2_inb k)).toLoadRect (harg1.unread X)))) s q
      = plane c01 (bchan X 0) (bchan X 1) (s + (128 * (k.val : ℤ) + 120)) q := by
  by_cases hq : 0 ≤ q ∧ q < 1024
  · rw [SlabCut.ext_in _ s q ⟨hs.1, hs.2, hq.1, hq.2⟩]
    exact SlabCut.mid_entry arg1 harg1 X k _ _ s q (Int.toNat_of_nonneg hs.1) (Int.toNat_of_nonneg hq.1)
  · rw [SlabCut.ext_out _ s q (fun h => hq ⟨h.2.2.1, h.2.2.2⟩), plane_off]
    rintro ⟨_, _, h2, h3⟩
    exact hq ⟨h2, h3⟩

theorem slab_plane_bot (arg1 : Memref sig .tc .vmem S1x2x1024x1024 .f32) (harg1 : arg1.IsWhole)
    (X : Vec Ideal S1x2x1024x1024 .f32) (s q : ℤ) (hs : 0 ≤ s ∧ s < 144) :
    ext (xpV (F := Ideal)
        (slabBot (View.readAt (Elt Ideal) arg1.view (Rect.unit (s := S1x2x1024x1024) ![0, 0, 888, 0] S1x1x136x1024.size inb_S1x2x1024x1024_S1x1x136x1024_0_0_888_0).toLoadRect (harg1.unread X)))
        (slabBot (View.readAt (Elt Ideal) arg1.view (Rect.unit (s := S1x2x1024x1024) ![0, 1, 888, 0] S1x1x136x1024.size inb_S1x2x1024x1024_S1x1x136x1024_0_1_888_0).toLoadRect (harg1.unread X)))) s q
      = plane c01 (bchan X 0) (bchan X 1) (s + 888) q := by
  by_cases hq : 0 ≤ q ∧ q < 1024
  · rw [SlabCut.ext_in _ s q ⟨hs.1, hs.2, hq.1, hq.2⟩]
    exact SlabCut.bot_entry arg1 harg1 X _ _ s q (Int.toNat_of_nonneg hs.1) (Int.toNat_of_nonneg hq.1)
  · rw [SlabCut.ext_out _ s q (fun h => hq ⟨h.2.2.1, h.2.2.2⟩), plane_off]
    rintro ⟨_, _, h2, h3⟩
    exact hq ⟨h2, h3⟩

end Cert.Nms

end
-- ==== Proof.KernelPieces.lean ====
/-
  What the kernel body stores, piece by piece.

  A batch entry's 1024 output rows are stored in eight pieces of 128 rows. Every piece is the slab
  function `slabOut` (Slab.lean) of a 144-row slab of the two input channels; only the way the slab is
  cut from the input block differs:
    * the first piece reads input rows 0 … 135 and puts 8 rows of zeros above them (`slabTop`);
    * piece `k + 1` (`k = 0 … 5`, one trip of the loop each) reads the 144 input rows starting at row
      `128 k + 120` (`slabMid`);
    * the last piece reads input rows 888 … 1023 and puts 8 rows of zeros below them (`slabBot`).
  The theorems here identify the stored values with `slabOut` of these slabs, for any float instance.
-/
import proofs.«168791_j38654705664677_2_alg».proof.Proof.Slab
import proofs.«168791_j38654705664677_2_alg».proof.Proof.Gen.KernelIdeal.Value
import Idealize.ShloMosaic.Lib.WritesUnit

set_option maxRecDepth 16384

noncomputable section

namespace Cert.Nms

open Idealize.ShloMosaic Idealize.ShloMosaic.TcCoe Idealize.ShloMosaic.Tactic Idealize.SL.Sem
open Cert.KernelIdeal Cert.KernelIdeal.Gen

variable {F : FTy → Type} [FloatOps F]

/-- The first piece's stored value is the slab function of the two top slabs. -/
theorem pay_first (L0 L1 : Vec F S1x1x136x1024 .f32) :
    k0_pay15 colIota (k0_pay8 L0 L1)
      (k0_pay13 colIota (k0_pay8 L0 L1) (k0_pay10 L0 L1) (k0_pay11 L0 L1) (k0_pay12 L0 L1))
      (k0_pay14 colIota (k0_pay8 L0 L1) (k0_pay10 L0 L1))
      = slabOut colIota (slabTop L0) (slabTop L1) := rfl

/-- A loop trip's stored value is the slab function of the two loaded slabs. -/
theorem pay_mid (v0 : IVec S144x1024 32) (l0 l1 : Vec F S1x1x144x1024 .f32) :
    k0_pay16 v0 (k0_pay2 l0 l1)
      (k0_pay7 v0 (k0_pay2 l0 l1) (k0_pay4 l0 l1) (k0_pay5 v0 l0 l1) (k0_pay6 v0 l0 l1) (Scalar.ofBits .f32 0x00000000#32))
      = slabOut v0 (slabMid l0) (slabMid l1) := rfl

/-- The last piece's stored value is the slab function of the two bottom slabs. -/
theorem pay_last (L0 L1 : Vec F S1x1x136x1024 .f32) :
    k0_pay1 colIota (k0_pay19 (k0_pay17 L0) (k0_pay18 L1))
      (k0_pay23 colIota (k0_pay19 (k0_pay17 L0) (k0_pay18 L1)) (k0_pay20 (k0_pay17 L0) (k0_pay18 L1)) (k0_pay21 colIota (k0_pay17 L0) (k0_pay18 L1)))
      (k0_pay24 colIota (k0_pay19 (k0_pay17 L0) (k0_pay18 L1)) (k0_pay20 (k0_pay17 L0) (k0_pay18 L1)) (k0_pay21 colIota (k0_pay17 L0) (k0_pay18 L1)))
      k0_pay25
      = slabOut colIota (slabBot L0) (slabBot L1) := rfl

/-! ## The three kinds of stored value, as functions of the staged input block -/

section Stored

variable (arg1 : Memref sig .tc .vmem S1x2x1024x1024 .f32)

/-- What the first piece stores: the slab function of the top slabs of the two channels. -/
def wFirst (X : BufTy.Contents (Elt F) arg1.view.ty) : FVec F S1x1x128x1024 .f32 :=
  slabOut colIota
    (slabTop (View.readAt (Elt F) arg1.view (Rect.unit (s := S1x2x1024x1024) ![0, 0, 0, 0] S1x1x136x1024.size inb_S1x2x1024x1024_S1x1x136x1024_0_0_0_0).toLoadRect X))
    (slabTop (View.readAt (Elt F) arg1.view (Rect.unit (s := S1x2x1024x1024) ![0, 1, 0, 0] S1x1x136x1024.size inb_S1x2x1024x1024_S1x1x136x1024_0_1_0_0).toLoadRect X))

/-- What trip `k` of the loop stores: the slab function of the 144 rows loaded at row `128 k + 120`. -/
def wMid (X : BufTy.Contents (Elt F) arg1.view.ty) (k : Fin k0_t1_loop.trips) : FVec F S1x1x128x1024 .f32 :=
  slabOut colIota
    (slabMid (View.readAt (Elt F) arg1.view (Rect.unit (s := S1x2x1024x1024) (k0_off1 k) S1x1x144x1024.size (k0_off1_inb k)).toLoadRect X))
    (slabMid (View.readAt (Elt F) arg1.view (Rect.unit (s := S1x2x1024x1024) (k0_off2 k) S1x1x144x1024.size (k0_off2_inb k)).toLoadRect X))

/-- What the last piece stores: the slab function of the bottom slabs of the two channels. -/
def wLast (X : BufTy.Contents (Elt F) arg1.view.ty) : FVec F S1x1x128x1024 .f32 :=
  slabOut colIota
    (slabBot (View.readAt (Elt F) arg1.view (Rect.unit (s := S1x2x1024x1024) ![0, 0, 888, 0] S1x1x136x1024.size inb_S1x2x1024x1024_S1x1x136x1024_0_0_888_0).toLoadRect X))
    (slabBot (View.readAt (Elt F) arg1.view (Rect.unit (s := S1x2x1024x1024) ![0, 1, 888, 0] S1x1x136x1024.size inb_S1x2x1024x1024_S1x1x136x1024_0_1_888_0).toLoadRect X))

end Stored

/-! ## One trip's piece -/

/-- Trip `k` writes one piece: rows `128 k + 128 … 128 k + 255` of the block, holding `wMid k`
    (whatever the loop was handed from the first chunk: a trip recomputes everything from its own loads). -/
theorem tripL_eq (c : Dev nD) (i : grid0.Coords) (arg1 : Memref sig .tc .vmem S1x2x1024x1024 .f32) (harg1 : arg1.IsWhole)
    (arg2 : Memref sig .tc .vmem S1x1x1024x1024 .f32) (harg2 : arg2.IsWhole)
    (v13 v69 v77 : FVec F S144x1024 .f32) (X : BufTy.Contents (Elt F) arg1.view.ty) (k : Fin k0_t1_loop.trips) :
    tripL_k0_t1 (F := F) Variants.none c none i arg1 harg1 arg2 harg2 colIota v13 v69 v77 X k
      = [⟨Rect.unit (s := S1x1x1024x1024) (k0_off3 k) S1x1x128x1024.size (k0_off3_inb k), wMid arg1 X k⟩] := by
  show (trip_k0_t1 (F := F) Variants.none c none i arg1 harg1 arg2 harg2 colIota v13 v69 v77 X k).1 = _
  unfold trip_k0_t1
  dsimp only
  sl_unfold_words
  rfl

/-! ## Reading the loop's pieces at an index -/

section ReadPieces

variable (c : Dev nD) (i : grid0.Coords) (arg1 : Memref sig .tc .vmem S1x2x1024x1024 .f32) (harg1 : arg1.IsWhole)
    (arg2 : Memref sig .tc .vmem S1x1x1024x1024 .f32) (harg2 : arg2.IsWhole)
    (v13 v69 v77 : FVec F S144x1024 .f32) (X : BufTy.Contents (Elt F) arg1.view.ty)

/-- The pieces of the first `m + 1` trips are trip `m`'s piece in front of those of the first `m`. -/
theorem pb_succ' (m : ℕ) (hm : m < k0_t1_loop.trips) :
    pb_k0_t1 (F := F) Variants.none c none i arg1 harg1 arg2 harg2 colIota v13 v69 v77 X (m + 1)
      = ⟨Rect.unit (s := S1x1x1024x1024) (k0_off3 ⟨m, hm⟩) S1x1x128x1024.size (k0_off3_inb ⟨m, hm⟩), wMid arg1 X ⟨m, hm⟩⟩
        :: pb_k0_t1 (F := F) Variants.none c none i arg1 harg1 arg2 harg2 colIota v13 v69 v77 X m := by
  have e := pb_k0_t1_succ (F := F) Variants.none c none i arg1 harg1 arg2 harg2 colIota v13 v69 v77 X ⟨m, hm⟩
  rw [tripL_eq] at e
  exact e

variable (v : View sig .tc .vmem S1x1x1024x1024 .f32) (f : v.ty.Contents (Elt F))
    (rest : List (View.Piece (Elt F) S1x1x1024x1024 .f32)) (y : S1x1x1024x1024.Idx)

/-- A row above the first trip's rows or below the `n`-th trip's rows is untouched by the first `n` trips. -/
theorem read_pb_skip (n : ℕ) (hn : n ≤ k0_t1_loop.trips) (hy : (y 2).val < 128 ∨ 128 * (n + 1) ≤ (y 2).val) :
    v.read (Elt F) (v.writes (Elt F) f
        (pb_k0_t1 (F := F) Variants.none c none i arg1 harg1 arg2 harg2 colIota v13 v69 v77 X n ++ rest)) y
      = v.read (Elt F) (v.writes (Elt F) f rest) y := by
  induction n with
  | zero => rfl
  | succ m ih =>
    have hm : m < k0_t1_loop.trips := hn
    rw [pb_succ' c i arg1 harg1 arg2 harg2 v13 v69 v77 X m hm, List.cons_append]
    refine (View.read_writes_cons_unit_of_not_mem v f (k0_off3_inb ⟨m, hm⟩) _ _ y (k0_off3_eq ⟨m, hm⟩) 2 ?_).trans
      (ih (Nat.le_of_lt hm) ?_)
    · show (y 2).val < 128 * m + 128 ∨ 128 * m + 128 + 128 ≤ (y 2).val
      omega
    · omega

/-- A row among trip `k`'s rows, `k` below `n`, reads what trip `k` stored, at the row's place in the piece. -/
theorem read_pb_hit (n : ℕ) (hn : n ≤ k0_t1_loop.trips) (k : ℕ) (hk : k < n) (x : S1x1x128x1024.Idx)
    (hx : ∀ a, (y a).val = (![0, 0, 128 * k + 128, 0] : Fin 4 → ℕ) a + (x a).val) :
    v.read (Elt F) (v.writes (Elt F) f
        (pb_k0_t1 (F := F) Variants.none c none i arg1 harg1 arg2 harg2 colIota v13 v69 v77 X n ++ rest)) y
      = wMid arg1 X ⟨k, lt_of_lt_of_le hk hn⟩ x := by
  induction n with
  | zero => omega
  | succ m ih =>
    have hm : m < k0_t1_loop.trips := hn
    rw [pb_succ' c i arg1 harg1 arg2 harg2 v13 v69 v77 X m hm, List.cons_append]
    by_cases hkm : k = m
    · subst hkm
      exact View.read_writes_cons_unit_of_mem v f (k0_off3_inb ⟨k, hm⟩) _ _ y x (k0_off3_eq ⟨k, hm⟩) hx
    · have hk' : k < m := by omega
      have h2 : (y 2).val = 128 * k + 128 + (x 2).val := hx 2
      have hx2 : (x 2).val < 128 := (x 2).isLt
      refine (View.read_writes_cons_unit_of_not_mem v f (k0_off3_inb ⟨m, hm⟩) _ _ y (k0_off3_eq ⟨m, hm⟩) 2 (Or.inl ?_)).trans
        (ih (Nat.le_of_lt hm) hk')
      show (y 2).val < 128 * m + 128
      omega

end ReadPieces

/-! ## The output staging buffer after the body, at an index -/

section OutAt

variable (c : Dev nD) (i : grid0.Coords) (arg1 : Memref sig .tc .vmem S1x2x1024x1024 .f32) (harg1 : arg1.IsWhole)
    (arg2 : Memref sig .tc .vmem S1x1x1024x1024 .f32) (harg2 : arg2.IsWhole) (x0 : Vec F S1x2x1024x1024 .f32)
    (y : S1x1x1024x1024.Idx) (x : S1x1x128x1024.Idx)

/-- Rows 896 … 1023 hold what the last piece stored. -/
theorem out_last (hx : ∀ a, (y a).val = (![0, 0, 896, 0] : Fin 4 → ℕ) a + (x a).val) :
    out0_A_1 (F := F) c i arg1 harg1 arg2 harg2 x0 y = wLast arg1 (harg1.unread x0) x := by
  unfold out0_A_1 kernelRun0_A
  dsimp only
  sl_unfold_words
  exact (View.read_writes_cons_unit_of_mem VO0_1 _ inb_S1x1x1024x1024_S1x1x128x1024_0_0_896_0 _ _ y x rfl hx).trans
    (congrFun (pay_last _ _) x)

/-- Rows `128 k + 128 … 128 k + 255` hold what trip `k` stored. -/
theorem out_mid (k : Fin k0_t1_loop.trips) (hx : ∀ a, (y a).val = (![0, 0, 128 * k.val + 128, 0] : Fin 4 → ℕ) a + (x a).val) :
    out0_A_1 (F := F) c i arg1 harg1 arg2 harg2 x0 y = wMid arg1 (harg1.unread x0) k x := by
  have h2 : (y 2).val = 128 * k.val + 128 + (x 2).val := hx 2
  have hx2 : (x 2).val < 128 := (x 2).isLt
  have hk6 : k.val < 6 := Nat.lt_of_lt_of_le k.isLt k0_t1_abs.2.1
  unfold out0_A_1 kernelRun0_A
  dsimp only
  sl_unfold_words
  refine (View.read_writes_cons_unit_of_not_mem VO0_1 _ inb_S1x1x1024x1024_S1x1x128x1024_0_0_896_0 _ _ y rfl 2 (Or.inl ?_)).trans ?_
  · show (y 2).val < 896
    omega
  · exact read_pb_hit c i arg1 harg1 arg2 harg2 _ _ _ (harg1.unread x0) VO0_1 _ _ y k0_t1_loop.trips le_rfl k.val k.isLt x hx

/-- Rows 0 … 127 hold what the first piece stored. -/
theorem out_first (hx : ∀ a, (y a).val = (![0, 0, 0, 0] : Fin 4 → ℕ) a + (x a).val) :
    out0_A_1 (F := F) c i arg1 harg1 arg2 harg2 x0 y = wFirst arg1 (harg1.unread x0) x := by
  have h2 : (y 2).val = 0 + (x 2).val := hx 2
  have hx2 : (x 2).val < 128 := (x 2).isLt
  unfold out0_A_1 kernelRun0_A
  dsimp only
  sl_unfold_words
  refine (View.read_writes_cons_unit_of_not_mem VO0_1 _ inb_S1x1x1024x1024_S1x1x128x1024_0_0_896_0 _ _ y rfl 2 (Or.inl ?_)).trans ?_
  · show (y 2).val < 896
    omega
  · refine (read_pb_skip c i arg1 harg1 arg2 harg2 _ _ _ (harg1.unread x0) VO0_1 _ _ y k0_t1_loop.trips le_rfl (Or.inl (by omega))).trans ?_
    exact (View.read_writes_cons_unit_of_mem VO0_1 _ inb_S1x1x1024x1024_S1x1x128x1024_0_0_0_0 _ _ y x rfl hx).trans
      (congrFun (pay_first _ _) x)

end OutAt

end Cert.Nms

end
-- ==== Proof.KernelArray.lean ====
/-
  From one block to the whole result array.

  A grid point `t` is a batch entry: its input block is the two channels of entry `t`, its output block
  the one channel of entry `t`. `block_value`: after the body, the output block holds, at row `ρ` and
  column `q`, the block's rectified-difference plane times the 3 × 3 maximum of its suppression plane —
  row `ρ` lies in one of the eight stored pieces (KernelPieces.lean), the piece is the slab function of a
  slab (SlabRead.lean) whose plane is the block's plane shifted by the piece's first row (SlabCut.lean), and
  the slab's separable maximum is the windowed maximum (PoolLaw.lean). The blocks of the 16 points tile the
  result array, so the array ends holding `G` of the input array (Spec.lean).
-/
import proofs.«168791_j38654705664677_2_alg».proof.Proof.Spec
import proofs.«168791_j38654705664677_2_alg».proof.Proof.Slab
import proofs.«168791_j38654705664677_2_alg».proof.Proof.PoolLaw
import proofs.«168791_j38654705664677_2_alg».proof.Proof.SlabRead
import proofs.«168791_j38654705664677_2_alg».proof.Proof.SlabCut
import proofs.«168791_j38654705664677_2_alg».proof.Proof.KernelPieces
import proofs.«168791_j38654705664677_2_alg».proof.Proof.Gen.KernelIdeal.Value
import Idealize.ShloMosaic.Lib.Pipeline.Value

set_option maxRecDepth 16384

noncomputable section

namespace Cert.Nms

open Idealize.ShloMosaic Idealize.ShloMosaic.TcCoe Idealize.ShloMosaic.ValueIdx Idealize.SL.Sem
open Cert.KernelIdeal Cert.KernelIdeal.Gen
open Idealize.ShloMosaic.Pipeline (Dat)

/-- The loop makes six trips. -/
theorem trips_eq : k0_t1_loop.trips = 6 := by decide +kernel

/-! ## One block -/

section Block

variable (c : Dev nD) (i : grid0.Coords) (arg1 : Memref sig .tc .vmem S1x2x1024x1024 .f32) (harg1 : arg1.IsWhole)
    (arg2 : Memref sig .tc .vmem S1x1x1024x1024 .f32) (harg2 : arg2.IsWhole) (X : Vec Ideal S1x2x1024x1024 .f32)

/-- The output block after the body, at row `(y 2)` and column `(y 3)`, as a function of the input block. -/
theorem block_value (y : S1x1x1024x1024.Idx) :
    out0_A_1 (F := Ideal) c i arg1 harg1 arg2 harg2 X y
      = plane c01 (bchan X 0) (bchan X 1) ((y 2).val : ℤ) ((y 3).val : ℤ)
        * poolRef (nms c1 c256 (plane c01 (bchan X 0) (bchan X 1))) ((y 2).val : ℤ) ((y 3).val : ℤ) := by
  have hy0 : (y 0).val < 1 := (y 0).isLt
  have hy1 : (y 1).val < 1 := (y 1).isLt
  have hρ : (y 2).val < 1024 := (y 2).isLt
  have hq : (y 3).val < 1024 := (y 3).isLt
  by_cases h0 : (y 2).val < 128
  ·
    have hx : ∀ a, (y a).val = (![0, 0, 0, 0] : Fin 4 → ℕ) a
        + ((ix4 (0 : Fin 1) (0 : Fin 1) (⟨(y 2).val % 128, Nat.mod_lt _ (by norm_num)⟩ : Fin 128) (⟨(y 3).val, hq⟩ : Fin 1024) : S1x1x128x1024.Idx) a).val := fun a => by
      match a with
      | ⟨0, _⟩ => show (y 0).val = 0 + 0; omega
      | ⟨1, _⟩ => show (y 1).val = 0 + 0; omega
      | ⟨2, _⟩ => show (y 2).val = 0 + (y 2).val % 128; omega
      | ⟨3, _⟩ => show (y 3).val = 0 + (y 3).val; omega
    rw [out_first c i arg1 harg1 arg2 harg2 X y _ hx]
    unfold wFirst
    rw [slabOut_apply _ _ (⟨(y 2).val % 128, Nat.mod_lt _ (by norm_num)⟩ : Fin 128) (⟨(y 3).val, hq⟩ : Fin 1024)]
    refine (slab_eq cneg c01 c1 c256 cneg_nonpos c1_nonneg c256_nonneg (bchan X 0) (bchan X 1) _ (-8) _ _ ⟨?_, ?_⟩ ⟨?_, ?_⟩
      (fun s' q' h1 h2 => slab_plane_top arg1 harg1 X s' q' ⟨?_, ?_⟩)).trans ?_
    · show (0 : ℤ) ≤ ((y 3).val : ℤ); omega
    · show ((y 3).val : ℤ) < 1024; omega
    · show (0 : ℤ) ≤ (((y 2).val % 128 : ℕ) : ℤ) + 8 + (-8); omega
    · show (((y 2).val % 128 : ℕ) : ℤ) + 8 + (-8) < 1024; omega
    · have h1' : (((y 2).val % 128 : ℕ) : ℤ) + 8 - 2 ≤ s' := h1
      omega
    · have h2' : s' ≤ (((y 2).val % 128 : ℕ) : ℤ) + 8 + 2 := h2
      omega
    · have e : (((y 2).val % 128 : ℕ) : ℤ) + 8 + (-8) = ((y 2).val : ℤ) := by omega
      show plane c01 (bchan X 0) (bchan X 1) ((((y 2).val % 128 : ℕ) : ℤ) + 8 + (-8)) ((y 3).val : ℤ)
          * poolRef (nms c1 c256 (plane c01 (bchan X 0) (bchan X 1))) ((((y 2).val % 128 : ℕ) : ℤ) + 8 + (-8)) ((y 3).val : ℤ) = _
      rw [e]
  by_cases h7 : (y 2).val < 896
  · have hk : (y 2).val / 128 - 1 < k0_t1_loop.trips := by rw [trips_eq]; omega
    have hx : ∀ a, (y a).val = (![0, 0, 128 * ((y 2).val / 128 - 1) + 128, 0] : Fin 4 → ℕ) a
        + ((ix4 (0 : Fin 1) (0 : Fin 1) (⟨(y 2).val % 128, Nat.mod_lt _ (by norm_num)⟩ : Fin 128) (⟨(y 3).val, hq⟩ : Fin 1024) : S1x1x128x1024.Idx) a).val := fun a => by
      match a with
      | ⟨0, _⟩ => show (y 0).val = 0 + 0; omega
      | ⟨1, _⟩ => show (y 1).val = 0 + 0; omega
      | ⟨2, _⟩ => show (y 2).val = 128 * ((y 2).val / 128 - 1) + 128 + (y 2).val % 128; omega
      | ⟨3, _⟩ => show (y 3).val = 0 + (y 3).val; omega
    rw [out_mid c i arg1 harg1 arg2 harg2 X y _ (⟨(y 2).val / 128 - 1, hk⟩ : Fin k0_t1_loop.trips) hx]
    unfold wMid
    rw [slabOut_apply _ _ (⟨(y 2).val % 128, Nat.mod_lt _ (by norm_num)⟩ : Fin 128) (⟨(y 3).val, hq⟩ : Fin 1024)]
    refine (slab_eq cneg c01 c1 c256 cneg_nonpos c1_nonneg c256_nonneg (bchan X 0) (bchan X 1) _ (128 * (((y 2).val / 128 - 1 : ℕ) : ℤ) + 120) _ _ ⟨?_, ?_⟩ ⟨?_, ?_⟩
      (fun s' q' h1 h2 => slab_plane_mid arg1 harg1 X (⟨(y 2).val / 128 - 1, hk⟩ : Fin k0_t1_loop.trips) s' q' ⟨?_, ?_⟩)).trans ?_
    · show (0 : ℤ) ≤ ((y 3).val : ℤ); omega
    · show ((y 3).val : ℤ) < 1024; omega
    · show (0 : ℤ) ≤ (((y 2).val % 128 : ℕ) : ℤ) + 8 + (128 * (((y 2).val / 128 - 1 : ℕ) : ℤ) + 120); omega
    · show (((y 2).val % 128 : ℕ) : ℤ) + 8 + (128 * (((y 2).val / 128 - 1 : ℕ) : ℤ) + 120) < 1024; omega
    · have h1' : (((y 2).val % 128 : ℕ) : ℤ) + 8 - 2 ≤ s' := h1
      omega
    · have h2' : s' ≤ (((y 2).val % 128 : ℕ) : ℤ) + 8 + 2 := h2
      omega
    · have e : (((y 2).val % 128 : ℕ) : ℤ) + 8 + (128 * (((y 2).val / 128 - 1 : ℕ) : ℤ) + 120) = ((y 2).val : ℤ) := by omega
      show plane c01 (bchan X 0) (bchan X 1) ((((y 2).val % 128 : ℕ) : ℤ) + 8 + (128 * (((y 2).val / 128 - 1 : ℕ) : ℤ) + 120)) ((y 3).val : ℤ)
          * poolRef (nms c1 c256 (plane c01 (bchan X 0) (bchan X 1))) ((((y 2).val % 128 : ℕ) : ℤ) + 8 + (128 * (((y 2).val / 128 - 1 : ℕ) : ℤ) + 120)) ((y 3).val : ℤ) = _
      rw [e]
  ·
    have hx : ∀ a, (y a).val = (![0, 0, 896, 0] : Fin 4 → ℕ) a
        + ((ix4 (0 : Fin 1) (0 : Fin 1) (⟨(y 2).val % 128, Nat.mod_lt _ (by norm_num)⟩ : Fin 128) (⟨(y 3).val, hq⟩ : Fin 1024) : S1x1x128x1024.Idx) a).val := fun a => by
      match a with
      | ⟨0, _⟩ => show (y 0).val = 0 + 0; omega
      | ⟨1, _⟩ => show (y 1).val = 0 + 0; omega
      | ⟨2, _⟩ => show (y 2).val = 896 + (y 2).val % 128; omega
      | ⟨3, _⟩ => show (y 3).val = 0 + (y 3).val; omega
    rw [out_last c i arg1 harg1 arg2 harg2 X y _ hx]
    unfold wLast
    rw [slabOut_apply _ _ (⟨(y 2).val % 128, Nat.mod_lt _ (by norm_num)⟩ : Fin 128) (⟨(y 3).val, hq⟩ : Fin 1024)]
    refine (slab_eq cneg c01 c1 c256 cneg_nonpos c1_nonneg c256_nonneg (bchan X 0) (bchan X 1) _ 888 _ _ ⟨?_, ?_⟩ ⟨?_, ?_⟩
      (fun s' q' h1 h2 => slab_plane_bot arg1 harg1 X s' q' ⟨?_, ?_⟩)).trans ?_
    · show (0 : ℤ) ≤ ((y 3).val : ℤ); omega
    · show ((y 3).val : ℤ) < 1024; omega
    · show (0 : ℤ) ≤ (((y 2).val % 128 : ℕ) : ℤ) + 8 + 888; omega
    · show (((y 2).val % 128 : ℕ) : ℤ) + 8 + 888 < 1024; omega
    · have h1' : (((y 2).val % 128 : ℕ) : ℤ) + 8 - 2 ≤ s' := h1
      omega
    · have h2' : s' ≤ (((y 2).val % 128 : ℕ) : ℤ) + 8 + 2 := h2
      omega
    · have e : (((y 2).val % 128 : ℕ) : ℤ) + 8 + 888 = ((y 2).val : ℤ) := by omega
      show plane c01 (bchan X 0) (bchan X 1) ((((y 2).val % 128 : ℕ) : ℤ) + 8 + 888) ((y 3).val : ℤ)
          * poolRef (nms c1 c256 (plane c01 (bchan X 0) (bchan X 1))) ((((y 2).val % 128 : ℕ) : ℤ) + 8 + 888) ((y 3).val : ℤ) = _
      rw [e]

end Block

/-! ## The sixteen blocks -/

section Blocks

variable (m : (ℓ : Loc nD τ sig) → Buf (Elt Ideal) ℓ) (ρ : Dev nD → PrngReg)

/-- `G` at an index, unfolded. -/
theorem G_apply (a b d : EReal) (x : SIn.Idx → EReal) (i : SOut.Idx) :
    G a b d x i = plane a (chan x (i 0) 0) (chan x (i 0) 1) ((i 2).val : ℤ) ((i 3).val : ℤ)
      * poolRef (nms b d (plane a (chan x (i 0) 0) (chan x (i 0) 1))) ((i 2).val : ℤ) ((i 3).val : ℤ) := rfl

/-- Point `t`'s input block is batch entry `t`, both channels, all rows and columns; its output block is entry
    `t`'s one channel (the printed index maps, decided over the 16 points). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- A grid point as a batch entry. -/
def entryOf (t : Fin cfg0.N) : Fin 16 := ⟨t.val, lt_of_lt_of_eq t.isLt N_0⟩

/-- Channel `ch` of point `t`'s input block is channel `ch` of batch entry `t` of the input array. -/
theorem bchan_iblk (c : Dev nD) (t : Fin cfg0.N) (ch : Fin 2) (r q : ℤ) :
    bchan (iblk m c 0 t) ch r q = chan (V m c main_arg0) (entryOf t) ch r q := by
  unfold bchan chan
  by_cases h : InImg r q
  · rw [dif_pos h, dif_pos h]
    obtain ⟨e0, e1, e2, e3, -⟩ := idx_facts t
    show V m c main_arg0 (((cfg0.win 0).blk t).view.emb _) = V m c main_arg0 _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 2 + 1 * ch.val = ch.val; omega
    | ⟨2, _⟩ => show win0_0.index t (2 : Fin 4) * 1024 + 1 * r.toNat = r.toNat; omega
    | ⟨3, _⟩ => show win0_0.index t (3 : Fin 4) * 1024 + 1 * q.toNat = q.toNat; omega
  · rw [dif_neg h, dif_neg h]

/-- WHAT POINT `t` WRITES BACK is block `t` of `G` of the input array. -/
theorem flushed_eq (c : Dev nD) (t : Fin cfg0.N) :
    (dats m 0 c).flushed 1 t = ((cfg0.win 1).blk t).view.read (Elt Ideal) (G c01 c1 c256 (V m c main_arg0)) := by
  rw [Cert.KernelIdeal.Value.flushed1_A]
  funext y
  show out0_A_1 c (grid0.coords t) (ms0_0 t) (hs0_0 t) (ms0_1 t) (hs0_1 t) (iblk m c 0 t) y
    = G c01 c1 c256 (V m c main_arg0) (((cfg0.win 1).blk t).view.emb y)
  rw [block_value, G_apply]
  have hb : ∀ ch, bchan (iblk m c 0 t) ch = chan (V m c main_arg0) (entryOf t) ch :=
    fun ch => funext fun r => funext fun q => bchan_iblk m c t ch r q
  rw [hb 0, hb 1]
  obtain ⟨-, -, -, -, e0, e1, e2, e3⟩ := idx_facts t
  have hy0 : (y 0).val < 1 := (y 0).isLt
  have i0 : (((cfg0.win 1).blk t).view.emb y) 0 = entryOf t := Fin.ext (by
    show win0_1.index t (0 : Fin 4) * 1 + 1 * (y 0).val = t.val; omega)
  have i2 : ((((cfg0.win 1).blk t).view.emb y) 2).val = (y 2).val := by
    show win0_1.index t (2 : Fin 4) * 1024 + 1 * (y 2).val = (y 2).val; omega
  have i3 : ((((cfg0.win 1).blk t).view.emb y) 3).val = (y 3).val := by
    show win0_1.index t (3 : Fin 4) * 1024 + 1 * (y 3).val = (y 3).val; omega
  rw [i0, i2, i3]

/-- An index of the result array is in point `t`'s block iff each coordinate is in the block's range. -/
theorem mem_blk (t : Fin cfg0.N) (i : S16x1x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every index of the result array is in the block of the point that is its batch entry. -/
theorem cover (i : S16x1x1024x1024.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1024 := (i 2).isLt
  have hi3 : (i 3).val < 1024 := (i 3).isLt
  have ht : (i 0).val < cfg0.N := lt_of_lt_of_eq hi0 N_0.symm
  refine ⟨⟨(i 0).val, ht⟩, flush0_1 _, ?_⟩
  rw [mem_blk]
  obtain ⟨-, -, -, -, e0, e1, e2, e3⟩ := idx_facts ⟨(i 0).val, ht⟩
  have e0' : win0_1.index ⟨(i 0).val, ht⟩ (0 : Fin 4) = (i 0).val := e0
  intro a
  match a with
  | ⟨0, _⟩ => show win0_1.index ⟨(i 0).val, ht⟩ (0 : Fin 4) * 1 ≤ (i 0).val ∧ (i 0).val < win0_1.index ⟨(i 0).val, ht⟩ (0 : Fin 4) * 1 + 1; omega
  | ⟨1, _⟩ => show win0_1.index ⟨(i 0).val, ht⟩ (1 : Fin 4) * 1 ≤ (i 1).val ∧ (i 1).val < win0_1.index ⟨(i 0).val, ht⟩ (1 : Fin 4) * 1 + 1; omega
  | ⟨2, _⟩ => show win0_1.index ⟨(i 0).val, ht⟩ (2 : Fin 4) * 1024 ≤ (i 2).val ∧ (i 2).val < win0_1.index ⟨(i 0).val, ht⟩ (2 : Fin 4) * 1024 + 1024; omega
  | ⟨3, _⟩ => show win0_1.index ⟨(i 0).val, ht⟩ (3 : Fin 4) * 1024 ≤ (i 3).val ∧ (i 3).val < win0_1.index ⟨(i 0).val, ht⟩ (3 : Fin 4) * 1024 + 1024; omega

/-- THE RESULT ARRAY after the run is `G` of the input array. -/
theorem final (c : Dev nD) :
    (dats m 0 c).arrAt 1 cfg0.N = G c01 c1 c256 (m ((c : Thread nD τ).loc main_arg0)) :=
  (dats m 0 c).arrAt_eq_of_cover 1 (G c01 c1 c256 (V m c main_arg0)) (fun t _ => flushed_eq m c t) cover

/-- The idealized kernel's run: the result array ends at `G` of the input array, the input array unchanged. -/
theorem kernel_run : θ_run defs (onTc (τ := τ) (main (F := Ideal))) ⟨m, fun _ => 0, ρ⟩ fun r => ∀ c : Dev nD,
      r.2.mem ((c : Thread nD τ).loc main_v0) = G c01 c1 c256 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Blocks

end Cert.Nms

end
-- ==== Proof.RefStages.lean ====
/-
  The reference program's stages, as functions of its input array.

  The reference computes, on the whole 16 × 1024 × 1024 array at once: the two channels `rCh0`, `rCh1` (a slice
  and a reshape each), the rectified difference `rXP = max (rCh1 - rCh0 - 0.1) 0`, its copy `rPad` padded with
  one ring of zeros, the eight blocks `rSlice i j` of the padded copy starting at row `i` and column `j`, the
  rectified differences `rTerm i j = max (rXP - rSlice i j) 0`, their product from the array of ones `rProd`,
  that times 256 `rNms`, its 3 × 3 windowed maximum from −∞ `rPool`, and `rOut = rXP * rPool` with a unit axis
  put back. Each stage names its operands by name, so no stage's term repeats another's.
-/
import proofs.«168791_j38654705664677_2_alg».proof.ReferenceIdeal
import proofs.«168791_j38654705664677_2_alg».proof.Proof.Gen.ReferenceIdeal

noncomputable section

namespace Cert.Nms

open Idealize.ShloMosaic Cert.ReferenceIdeal Cert.ReferenceIdeal.Gen

variable {F : FTy → Type} [FloatOps F]

/-- The input array's type. -/
abbrev RIn (F : FTy → Type) : Type := (⟨S16x2x1024x1024, .f32⟩ : BufTy).Contents (Elt F)
/-- The type of a 16 × 1024 × 1024 array of floats. -/
abbrev RArr (F : FTy → Type) : Type := (⟨S16x1024x1024, .f32⟩ : BufTy).Contents (Elt F)

/-- Channel 1 of every batch entry. -/
def rCh1 (x : RIn F) : RArr F :=
  shapeCast _ (extractStridedSlice S16x1x1024x1024 ![0, 1, 0, 0] x slices_S16x2x1024x1024_S16x1x1024x1024_0_1_0_0)
    shapeCasts_S16x1x1024x1024_S16x1024x1024
/-- Channel 0 of every batch entry. -/
def rCh0 (x : RIn F) : RArr F :=
  shapeCast _ (extractStridedSlice S16x1x1024x1024 ![0, 0, 0, 0] x slices_S16x2x1024x1024_S16x1x1024x1024_0_0_0_0)
    shapeCasts_S16x1x1024x1024_S16x1024x1024

/-- A scalar literal spread over the array. -/
def rSplat (w : BitVec 32) : RArr F :=
  broadcastInDim S16x1024x1024 ![] bcast_S_S16x1024x1024 (constant S_ .f32 w)

/-- The rectifier: the maximum with the array of zeros. -/
def rRelu (a : RArr F) : RArr F := maximumf a (rSplat 0x00000000#32)

/-- The rectified channel difference. -/
def rXP (x : RIn F) : RArr F := rRelu (subf (subf (rCh1 x) (rCh0 x)) (rSplat 0x3DCCCCCD#32))

/-- Its copy with one ring of zeros around every plane. -/
def rPad (x : RIn F) : (⟨S16x1026x1026, .f32⟩ : BufTy).Contents (Elt F) :=
  pad S16x1026x1026 ![0, 1, 1] ![0, 1, 1] ![0, 0, 0] (rXP x) (sitofp .f32 (constantI S_ 32 0#32))
    pads_S16x1024x1024_S16x1026x1026_000_110_110 h_S_

/-- The 1024 × 1024 block of every padded plane that starts at row `i`, column `j` (starts given as 32-bit words). -/
def rSlice (i j : BitVec 32) (x : RIn F) : RArr F :=
  Host.dynamicSlice S16x1024x1024 (rPad x)
    (fun k => (((![constantI S_ 32 0#32, constantI S_ 32 i, constantI S_ 32 j] : Fin 3 → (⟨S_, .i32⟩ : BufTy).Contents (Elt F))) k
      (Shape.Idx.first h_S_)).toInt) sliceFits_S16x1026x1026_S16x1024x1024

/-- The rectified difference with the neighbour block `(i, j)`. -/
def rTerm (i j : BitVec 32) (x : RIn F) : RArr F := rRelu (subf (rXP x) (rSlice i j x))

/-- The product of the eight rectified differences, from the array of ones, in the order
    (0,0), (0,1), (0,2), (1,0), (1,2), (2,0), (2,1), (2,2) of block starts. -/
def rProd (x : RIn F) : RArr F :=
  mulf (mulf (mulf (mulf (mulf (mulf (mulf (mulf (rSplat 0x3F800000#32) (rTerm 0#32 0#32 x)) (rTerm 0#32 1#32 x)) (rTerm 0#32 2#32 x))
    (rTerm 1#32 0#32 x)) (rTerm 1#32 2#32 x)) (rTerm 2#32 0#32 x)) (rTerm 2#32 1#32 x)) (rTerm 2#32 2#32 x)

/-- The product times 256. -/
def rNms (x : RIn F) : RArr F := mulf (rProd x) (rSplat 0x43800000#32)

/-- The 3 × 3 windowed maximum of `rNms`, from −∞, the window padded by one on each side of the two plane axes. -/
def rPool (x : RIn F) : RArr F :=
  Host.reduceWindow FloatOps.maximumf ![1, 3, 3] ![1, 1, 1] ![0, 1, 1] ![0, 1, 1] (rNms x)
    (broadcastInDim S_ ![] bcast_S_S_ (constant S_ .f32 0xFF800000#32))
    reduceWindows_S16x1024x1024_S16x1024x1024_w1s1p0_0_w3s1p1_1_w3s1p1_1 h_S_

/-- The result: `rXP * rPool`, a unit axis put back in second place. -/
def rOut (x : RIn F) : (⟨S16x1x1024x1024, .f32⟩ : BufTy).Contents (Elt F) :=
  broadcastInDim S16x1x1024x1024 ![0, 2, 3] bcast_S16x1024x1024_S16x1x1024x1024_0_2_3 (mulf (rXP x) (rPool x))

end Cert.Nms

end
-- ==== Proof.RefRun.lean ====
/-
  The reference program's run, read in segments.

  The reference's @main is a straight line of 96 array operations. Its first 16 operations compute the
  rectified channel difference, its zero-padded copy and the array of ones; each of the next eight groups of
  nine operations cuts one neighbour block out of the padded copy, rectifies the difference with it and
  multiplies it into the running product; the last eight scale the product by 256, take its 3 × 3 windowed
  maximum from −∞, multiply by the rectified difference and put a unit axis back. Each segment is read over
  an arbitrary valuation of the buffers, so that no intermediate array's term is ever repeated; chaining the
  segments gives the result buffer as the stage function rOut of the input array, the input unchanged.
-/
import proofs.«168791_j38654705664677_2_alg».proof.Proof.RefStages
import Idealize.ShloMosaic.Lib.StableHlo.Run

noncomputable section

namespace Cert.Nms

open Idealize.ShloMosaic Idealize.ShloMosaic.TcCoe Idealize.SL.Sem Idealize.ShloMosaic.StableHlo Cert.ReferenceIdeal Cert.ReferenceIdeal.Gen

namespace RefRun

variable {F : FTy → Type} [FloatOps F]

/-! ### The operations, in order, and their segments -/

/-- @main's 96 operations, in order (a called function's operations stand in its call's place). -/
abbrev ops : List (HloOp τ sig (Elt F)) :=
  [ unary main_arg0 main_v0 ((extractStridedSlice S16x1x1024x1024 ![0, 1, 0, 0] · slices_S16x2x1024x1024_S16x1x1024x1024_0_1_0_0) : (⟨S16x2x1024x1024, .f32⟩ : BufTy).Contents (Elt F) → (⟨S16x1x1024x1024, .f32⟩ : BufTy).Contents (Elt F)),
    reshape main_v0 main_v1 rfl shapeCasts_S16x1x1024x1024_S16x1024x1024,
    unary main_arg0 main_v2 ((extractStridedSlice S16x1x1024x1024 ![0, 0, 0, 0] · slices_S16x2x1024x1024_S16x1x1024x1024_0_0_0_0) : (⟨S16x2x1024x1024, .f32⟩ : BufTy).Contents (Elt F) → (⟨S16x1x1024x1024, .f32⟩ : BufTy).Contents (Elt F)),
    reshape main_v2 main_v3 rfl shapeCasts_S16x1x1024x1024_S16x1024x1024,
    binary main_v1 main_v3 main_v4 (subf : (⟨S16x1024x1024, .f32⟩ : BufTy).Contents (Elt F) → (⟨S16x1024x1024, .f32⟩ : BufTy).Contents (Elt F) → (⟨S16x1024x1024, .f32⟩ : BufTy).Contents (Elt F)),
    nullary main_cst (constant S_ .f32 0x3DCCCCCD#32),
    unary main_cst main_v5 (broadcastInDim S16x1024x1024 ![] bcast_S_S16x1024x1024 : (⟨S_, .f32⟩ : BufTy).Contents (Elt F) → (⟨S16x1024x1024, .f32⟩ : BufTy).Contents (Elt F)),
    binary main_v4 main_v5 main_v6 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x1024x1024, .f32⟩) main_call0_v0) (broadcastInDim S16x1024x1024 ![] bcast_S_S16x1024x1024),
    TRef.binary (TRef.of (T := ⟨S16x1024x1024, .f32⟩) main_v6) (TRef.of (T := ⟨S16x1024x1024, .f32⟩) main_call0_v0) (TRef.of (T := ⟨S16x1024x1024, .f32⟩) main_v7) maximumf,
    nullary main_c (constantI S_ 32 0#32),
    TRef.unary (TRef.of (T := ⟨S_, .i32⟩) main_c) (TRef.of (T := ⟨S_, .f32⟩) main_call1_v0) (sitofp .f32),
    TRef.binary (TRef.of (T := ⟨S16x1024x1024, .f32⟩) main_v7) (TRef.of (T := ⟨S_, .f32⟩) main_call1_v0) (TRef.of (T := ⟨S16x1026x1026, .f32⟩) main_v8) (fun x v => pad S16x1026x1026 ![0, 1, 1] ![0, 1, 1] ![0, 0, 0] x v pads_S16x1024x1024_S16x1026x1026_000_110_110 h_S_),
    nullary main_cst_0 (constant S_ .f32 0x3F800000#32),
    unary main_cst_0 main_v9 (broadcastInDim S16x1024x1024 ![] bcast_S_S16x1024x1024 : (⟨S_, .f32⟩ : BufTy).Contents (Elt F) → (⟨S16x1024x1024, .f32⟩ : BufTy).Contents (Elt F)),
    nullary main_c_1 (constantI S_ 32 0#32),
    nullary main_c_2 (constantI S_ 32 0#32),
    nullary main_c_3 (constantI S_ 32 0#32),
    unaryIndexed main_v8 ![main_c_1, main_c_2, main_c_3] ⟨S_, .i32⟩ main_v10 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v10 main_v11 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x1024x1024, .f32⟩) main_call2_v0) (broadcastInDim S16x1024x1024 ![] bcast_S_S16x1024x1024),
    TRef.binary (TRef.of (T := ⟨S16x1024x1024, .f32⟩) main_v11) (TRef.of (T := ⟨S16x1024x1024, .f32⟩) main_call2_v0) (TRef.of (T := ⟨S16x1024x1024, .f32⟩) main_v12) maximumf,
    binary main_v9 main_v12 main_v13 (mulf : (⟨S16x1024x1024, .f32⟩ : BufTy).Contents (Elt F) → (⟨S16x1024x1024, .f32⟩ : BufTy).Contents (Elt F) → (⟨S16x1024x1024, .f32⟩ : BufTy).Contents (Elt F)),
    nullary main_c_4 (constantI S_ 32 0#32),
    nullary main_c_5 (constantI S_ 32 0#32),
    nullary main_c_6 (constantI S_ 32 1#32),
    unaryIndexed main_v8 ![main_c_4, main_c_5, main_c_6] ⟨S_, .i32⟩ main_v14 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v14 main_v15 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x1024x1024, .f32⟩) main_call3_v0) (broadcastInDim S16x1024x1024 ![] bcast_S_S16x1024x1024),
    TRef.binary (TRef.of (T := ⟨S16x1024x1024, .f32⟩) main_v15) (TRef.of (T := ⟨S16x1024x1024, .f32⟩) main_call3_v0) (TRef.of (T := ⟨S16x1024x1024, .f32⟩) main_v16) maximumf,
    binary main_v13 main_v16 main_v17 (mulf : (⟨S16x1024x1024, .f32⟩ : BufTy).Contents (Elt F) → (⟨S16x1024x1024, .f32⟩ : BufTy).Contents (Elt F) → (⟨S16x1024x1024, .f32⟩ : BufTy).Contents (Elt F)),
    nullary main_c_7 (constantI S_ 32 0#32),
    nullary main_c_8 (constantI S_ 32 0#32),
    nullary main_c_9 (constantI S_ 32 2#32),
    unaryIndexed main_v8 ![main_c_7, main_c_8, main_c_9] ⟨S_, .i32⟩ main_v18 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v18 main_v19 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1024x1024, .f32⟩) main_call4_v0) (broadcastInDim S16x1024x1024 ![] bcast_S_S16x1024x1024),
    TRef.binary (TRef.of (T := ⟨S16x1024x1024, .f32⟩) main_v19) (TRef.of (T := ⟨S16x1024x1024, .f32⟩) main_call4_v0) (TRef.of (T := ⟨S16x1024x1024, .f32⟩) main_v20) maximumf,
    binary main_v17 main_v20 main_v21 (mulf : (⟨S16x1024x1024, .f32⟩ : BufTy).Contents (Elt F) → (⟨S16x1024x1024, .f32⟩ : BufTy).Contents (Elt F) → (⟨S16x1024x1024, .f32⟩ : BufTy).Contents (Elt F)),
    nullary main_c_10 (constantI S_ 32 0#32),
    nullary main_c_11 (constantI S_ 32 1#32),
    nullary main_c_12 (constantI S_ 32 0#32),
    unaryIndexed main_v8 ![main_c_10, main_c_11, main_c_12] ⟨S_, .i32⟩ main_v22 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v22 main_v23 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x1024x1024, .f32⟩) main_call5_v0) (broadcastInDim S16x1024x1024 ![] bcast_S_S16x1024x1024),
    TRef.binary (TRef.of (T := ⟨S16x1024x1024, .f32⟩) main_v23) (TRef.of (T := ⟨S16x1024x1024, .f32⟩) main_call5_v0) (TRef.of (T := ⟨S16x1024x1024, .f32⟩) main_v24) maximumf,
    binary main_v21 main_v24 main_v25 (mulf : (⟨S16x1024x1024, .f32⟩ : BufTy).Contents (Elt F) → (⟨S16x1024x1024, .f32⟩ : BufTy).Contents (Elt F) → (⟨S16x1024x1024, .f32⟩ : BufTy).Contents (Elt F)),
    nullary main_c_13 (constantI S_ 32 0#32),
    nullary main_c_14 (constantI S_ 32 1#32),
    nullary main_c_15 (constantI S_ 32 2#32),
    unaryIndexed main_v8 ![main_c_13, main_c_14, main_c_15] ⟨S_, .i32⟩ main_v26 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v26 main_v27 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x1024x1024, .f32⟩) main_call6_v0) (broadcastInDim S16x1024x1024 ![] bcast_S_S16x1024x1024),
    TRef.binary (TRef.of (T := ⟨S16x1024x1024, .f32⟩) main_v27) (TRef.of (T := ⟨S16x1024x1024, .f32⟩) main_call6_v0) (TRef.of (T := ⟨S16x1024x1024, .f32⟩) main_v28) maximumf,
    binary main_v25 main_v28 main_v29 (mulf : (⟨S16x1024x1024, .f32⟩ : BufTy).Contents (Elt F) → (⟨S16x1024x1024, .f32⟩ : BufTy).Contents (Elt F) → (⟨S16x1024x1024, .f32⟩ : BufTy).Contents (Elt F)),
    nullary main_c_16 (constantI S_ 32 0#32),
    nullary main_c_17 (constantI S_ 32 2#32),
    nullary main_c_18 (constantI S_ 32 0#32),
    unaryIndexed main_v8 ![main_c_16, main_c_17, main_c_18] ⟨S_, .i32⟩ main_v30 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v30 main_v31 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x1024x1024, .f32⟩) main_call7_v0) (broadcastInDim S16x1024x1024 ![] bcast_S_S16x1024x1024),
    TRef.binary (TRef.of (T := ⟨S16x1024x1024, .f32⟩) main_v31) (TRef.of (T := ⟨S16x1024x1024, .f32⟩) main_call7_v0) (TRef.of (T := ⟨S16x1024x1024, .f32⟩) main_v32) maximumf,
    binary main_v29 main_v32 main_v33 (mulf : (⟨S16x1024x1024, .f32⟩ : BufTy).Contents (Elt F) → (⟨S16x1024x1024, .f32⟩ : BufTy).Contents (Elt F) → (⟨S16x1024x1024, .f32⟩ : BufTy).Contents (Elt F)),
    nullary main_c_19 (constantI S_ 32 0#32),
    nullary main_c_20 (constantI S_ 32 2#32),
    nullary main_c_21 (constantI S_ 32 1#32),
    unaryIndexed main_v8 ![main_c_19, main_c_20, main_c_21] ⟨S_, .i32⟩ main_v34 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v34 main_v35 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x1024x1024, .f32⟩) main_call8_v0) (broadcastInDim S16x1024x1024 ![] bcast_S_S16x1024x1024),
    TRef.binary (TRef.of (T := ⟨S16x1024x1024, .f32⟩) main_v35) (TRef.of (T := ⟨S16x1024x1024, .f32⟩) main_call8_v0) (TRef.of (T := ⟨S16x1024x1024, .f32⟩) main_v36) maximumf,
    binary main_v33 main_v36 main_v37 (mulf : (⟨S16x1024x1024, .f32⟩ : BufTy).Contents (Elt F) → (⟨S16x1024x1024, .f32⟩ : BufTy).Contents (Elt F) → (⟨S16x1024x1024, .f32⟩ : BufTy).Contents (Elt F)),
    nullary main_c_22 (constantI S_ 32 0#32),
    nullary main_c_23 (constantI S_ 32 2#32),
    nullary main_c_24 (constantI S_ 32 2#32),
    unaryIndexed main_v8 ![main_c_22, main_c_23, main_c_24] ⟨S_, .i32⟩ main_v38 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v38 main_v39 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x1024x1024, .f32⟩) main_call9_v0) (broadcastInDim S16x1024x1024 ![] bcast_S_S16x1024x1024),
    TRef.binary (TRef.of (T := ⟨S16x1024x1024, .f32⟩) main_v39) (TRef.of (T := ⟨S16x1024x1024, .f32⟩) main_call9_v0) (TRef.of (T := ⟨S16x1024x1024, .f32⟩) main_v40) maximumf,
    binary main_v37 main_v40 main_v41 (mulf : (⟨S16x1024x1024, .f32⟩ : BufTy).Contents (Elt F) → (⟨S16x1024x1024, .f32⟩ : BufTy).Contents (Elt F) → (⟨S16x1024x1024, .f32⟩ : BufTy).Contents (Elt F)),
    nullary main_cst_25 (constant S_ .f32 0x43800000#32),
    unary main_cst_25 main_v42 (broadcastInDim S16x1024x1024 ![] bcast_S_S16x1024x1024 : (⟨S_, .f32⟩ : BufTy).Contents (Elt F) → (⟨S16x1024x1024, .f32⟩ : BufTy).Contents (Elt F)),
    binary main_v41 main_v42 main_v43 (mulf : (⟨S16x1024x1024, .f32⟩ : BufTy).Contents (Elt F) → (⟨S16x1024x1024, .f32⟩ : BufTy).Contents (Elt F) → (⟨S16x1024x1024, .f32⟩ : BufTy).Contents (Elt F)),
    nullary main_cst_26 (constant S_ .f32 0xFF800000#32),
    unary main_cst_26 main_v44 (broadcastInDim S_ ![] bcast_S_S_ : (⟨S_, .f32⟩ : BufTy).Contents (Elt F) → (⟨S_, .f32⟩ : BufTy).Contents (Elt F)),
    binary main_v43 main_v44 main_v45 ((fun x v => Host.reduceWindow FloatOps.maximumf ![1, 3, 3] ![1, 1, 1] ![0, 1, 1] ![0, 1, 1] x v reduceWindows_S16x1024x1024_S16x1024x1024_w1s1p0_0_w3s1p1_1_w3s1p1_1 h_S_) : (⟨S16x1024x1024, .f32⟩ : BufTy).Contents (Elt F) → (⟨S_, .f32⟩ : BufTy).Contents (Elt F) → (⟨S16x1024x1024, .f32⟩ : BufTy).Contents (Elt F)),
    binary main_v7 main_v45 main_v46 (mulf : (⟨S16x1024x1024, .f32⟩ : BufTy).Contents (Elt F) → (⟨S16x1024x1024, .f32⟩ : BufTy).Contents (Elt F) → (⟨S16x1024x1024, .f32⟩ : BufTy).Contents (Elt F)),
    unary main_v46 main_v47 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., nullary_bufs_sub .., nullary_bufs_sub .., unaryIndexed_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub ..⟩

/-- The first 16 operations: through the rectified difference, its padded copy and the array of ones. -/
abbrev seg0 : List (HloOp τ sig (Elt F)) :=
  [ unary main_arg0 main_v0 ((extractStridedSlice S16x1x1024x1024 ![0, 1, 0, 0] · slices_S16x2x1024x1024_S16x1x1024x1024_0_1_0_0) : (⟨S16x2x1024x1024, .f32⟩ : BufTy).Contents (Elt F) → (⟨S16x1x1024x1024, .f32⟩ : BufTy).Contents (Elt F)),
    reshape main_v0 main_v1 rfl shapeCasts_S16x1x1024x1024_S16x1024x1024,
    unary main_arg0 main_v2 ((extractStridedSlice S16x1x1024x1024 ![0, 0, 0, 0] · slices_S16x2x1024x1024_S16x1x1024x1024_0_0_0_0) : (⟨S16x2x1024x1024, .f32⟩ : BufTy).Contents (Elt F) → (⟨S16x1x1024x1024, .f32⟩ : BufTy).Contents (Elt F)),
    reshape main_v2 main_v3 rfl shapeCasts_S16x1x1024x1024_S16x1024x1024,
    binary main_v1 main_v3 main_v4 (subf : (⟨S16x1024x1024, .f32⟩ : BufTy).Contents (Elt F) → (⟨S16x1024x1024, .f32⟩ : BufTy).Contents (Elt F) → (⟨S16x1024x1024, .f32⟩ : BufTy).Contents (Elt F)),
    nullary main_cst (constant S_ .f32 0x3DCCCCCD#32),
    unary main_cst main_v5 (broadcastInDim S16x1024x1024 ![] bcast_S_S16x1024x1024 : (⟨S_, .f32⟩ : BufTy).Contents (Elt F) → (⟨S16x1024x1024, .f32⟩ : BufTy).Contents (Elt F)),
    binary main_v4 main_v5 main_v6 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x1024x1024, .f32⟩) main_call0_v0) (broadcastInDim S16x1024x1024 ![] bcast_S_S16x1024x1024),
    TRef.binary (TRef.of (T := ⟨S16x1024x1024, .f32⟩) main_v6) (TRef.of (T := ⟨S16x1024x1024, .f32⟩) main_call0_v0) (TRef.of (T := ⟨S16x1024x1024, .f32⟩) main_v7) maximumf,
    nullary main_c (constantI S_ 32 0#32),
    TRef.unary (TRef.of (T := ⟨S_, .i32⟩) main_c) (TRef.of (T := ⟨S_, .f32⟩) main_call1_v0) (sitofp .f32),
    TRef.binary (TRef.of (T := ⟨S16x1024x1024, .f32⟩) main_v7) (TRef.of (T := ⟨S_, .f32⟩) main_call1_v0) (TRef.of (T := ⟨S16x1026x1026, .f32⟩) main_v8) (fun x v => pad S16x1026x1026 ![0, 1, 1] ![0, 1, 1] ![0, 0, 0] x v pads_S16x1024x1024_S16x1026x1026_000_110_110 h_S_),
    nullary main_cst_0 (constant S_ .f32 0x3F800000#32),
    unary main_cst_0 main_v9 (broadcastInDim S16x1024x1024 ![] bcast_S_S16x1024x1024 : (⟨S_, .f32⟩ : BufTy).Contents (Elt F) → (⟨S16x1024x1024, .f32⟩ : BufTy).Contents (Elt F)) ]

/-- Neighbour group 1: three start words, the block, the rectified difference with it, the product. -/
abbrev grp1 : List (HloOp τ sig (Elt F)) :=
  [ nullary main_c_1 (constantI S_ 32 0#32),
    nullary main_c_2 (constantI S_ 32 0#32),
    nullary main_c_3 (constantI S_ 32 0#32),
    unaryIndexed main_v8 ![main_c_1, main_c_2, main_c_3] ⟨S_, .i32⟩ main_v10 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v10 main_v11 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x1024x1024, .f32⟩) main_call2_v0) (broadcastInDim S16x1024x1024 ![] bcast_S_S16x1024x1024),
    TRef.binary (TRef.of (T := ⟨S16x1024x1024, .f32⟩) main_v11) (TRef.of (T := ⟨S16x1024x1024, .f32⟩) main_call2_v0) (TRef.of (T := ⟨S16x1024x1024, .f32⟩) main_v12) maximumf,
    binary main_v9 main_v12 main_v13 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 2: three start words, the block, the rectified difference with it, the product. -/
abbrev grp2 : List (HloOp τ sig (Elt F)) :=
  [ nullary main_c_4 (constantI S_ 32 0#32),
    nullary main_c_5 (constantI S_ 32 0#32),
    nullary main_c_6 (constantI S_ 32 1#32),
    unaryIndexed main_v8 ![main_c_4, main_c_5, main_c_6] ⟨S_, .i32⟩ main_v14 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v14 main_v15 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x1024x1024, .f32⟩) main_call3_v0) (broadcastInDim S16x1024x1024 ![] bcast_S_S16x1024x1024),
    TRef.binary (TRef.of (T := ⟨S16x1024x1024, .f32⟩) main_v15) (TRef.of (T := ⟨S16x1024x1024, .f32⟩) main_call3_v0) (TRef.of (T := ⟨S16x1024x1024, .f32⟩) main_v16) maximumf,
    binary main_v13 main_v16 main_v17 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 3: three start words, the block, the rectified difference with it, the product. -/
abbrev grp3 : List (HloOp τ sig (Elt F)) :=
  [ nullary main_c_7 (constantI S_ 32 0#32),
    nullary main_c_8 (constantI S_ 32 0#32),
    nullary main_c_9 (constantI S_ 32 2#32),
    unaryIndexed main_v8 ![main_c_7, main_c_8, main_c_9] ⟨S_, .i32⟩ main_v18 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v18 main_v19 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x1024x1024, .f32⟩) main_call4_v0) (broadcastInDim S16x1024x1024 ![] bcast_S_S16x1024x1024),
    TRef.binary (TRef.of (T := ⟨S16x1024x1024, .f32⟩) main_v19) (TRef.of (T := ⟨S16x1024x1024, .f32⟩) main_call4_v0) (TRef.of (T := ⟨S16x1024x1024, .f32⟩) main_v20) maximumf,
    binary main_v17 main_v20 main_v21 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 4: three start words, the block, the rectified difference with it, the product. -/
abbrev grp4 : List (HloOp τ sig (Elt F)) :=
  [ nullary main_c_10 (constantI S_ 32 0#32),
    nullary main_c_11 (constantI S_ 32 1#32),
    nullary main_c_12 (constantI S_ 32 0#32),
    unaryIndexed main_v8 ![main_c_10, main_c_11, main_c_12] ⟨S_, .i32⟩ main_v22 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v22 main_v23 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x1024x1024, .f32⟩) main_call5_v0) (broadcastInDim S16x1024x1024 ![] bcast_S_S16x1024x1024),
    TRef.binary (TRef.of (T := ⟨S16x1024x1024, .f32⟩) main_v23) (TRef.of (T := ⟨S16x1024x1024, .f32⟩) main_call5_v0) (TRef.of (T := ⟨S16x1024x1024, .f32⟩) main_v24) maximumf,
    binary main_v21 main_v24 main_v25 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 5: three start words, the block, the rectified difference with it, the product. -/
abbrev grp5 : List (HloOp τ sig (Elt F)) :=
  [ nullary main_c_13 (constantI S_ 32 0#32),
    nullary main_c_14 (constantI S_ 32 1#32),
    nullary main_c_15 (constantI S_ 32 2#32),
    unaryIndexed main_v8 ![main_c_13, main_c_14, main_c_15] ⟨S_, .i32⟩ main_v26 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v26 main_v27 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x1024x1024, .f32⟩) main_call6_v0) (broadcastInDim S16x1024x1024 ![] bcast_S_S16x1024x1024),
    TRef.binary (TRef.of (T := ⟨S16x1024x1024, .f32⟩) main_v27) (TRef.of (T := ⟨S16x1024x1024, .f32⟩) main_call6_v0) (TRef.of (T := ⟨S16x1024x1024, .f32⟩) main_v28) maximumf,
    binary main_v25 main_v28 main_v29 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 6: three start words, the block, the rectified difference with it, the product. -/
abbrev grp6 : List (HloOp τ sig (Elt F)) :=
  [ nullary main_c_16 (constantI S_ 32 0#32),
    nullary main_c_17 (constantI S_ 32 2#32),
    nullary main_c_18 (constantI S_ 32 0#32),
    unaryIndexed main_v8 ![main_c_16, main_c_17, main_c_18] ⟨S_, .i32⟩ main_v30 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v30 main_v31 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x1024x1024, .f32⟩) main_call7_v0) (broadcastInDim S16x1024x1024 ![] bcast_S_S16x1024x1024),
    TRef.binary (TRef.of (T := ⟨S16x1024x1024, .f32⟩) main_v31) (TRef.of (T := ⟨S16x1024x1024, .f32⟩) main_call7_v0) (TRef.of (T := ⟨S16x1024x1024, .f32⟩) main_v32) maximumf,
    binary main_v29 main_v32 main_v33 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 7: three start words, the block, the rectified difference with it, the product. -/
abbrev grp7 : List (HloOp τ sig (Elt F)) :=
  [ nullary main_c_19 (constantI S_ 32 0#32),
    nullary main_c_20 (constantI S_ 32 2#32),
    nullary main_c_21 (constantI S_ 32 1#32),
    unaryIndexed main_v8 ![main_c_19, main_c_20, main_c_21] ⟨S_, .i32⟩ main_v34 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v34 main_v35 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x1024x1024, .f32⟩) main_call8_v0) (broadcastInDim S16x1024x1024 ![] bcast_S_S16x1024x1024),
    TRef.binary (TRef.of (T := ⟨S16x1024x1024, .f32⟩) main_v35) (TRef.of (T := ⟨S16x1024x1024, .f32⟩) main_call8_v0) (TRef.of (T := ⟨S16x1024x1024, .f32⟩) main_v36) maximumf,
    binary main_v33 main_v36 main_v37 (mulf : (⟨S16x1024x1024, .f32⟩ : BufTy).Contents (Elt F) → (⟨S16x1024x1024, .f32⟩ : BufTy).Contents (Elt F) → (⟨S16x1024x1024, .f32⟩ : BufTy).Contents (Elt F)) ]

/-- Neighbour group 8: three start words, the block, the rectified difference with it, the product. -/
abbrev grp8 : List (HloOp τ sig (Elt F)) :=
  [ nullary main_c_22 (constantI S_ 32 0#32),
    nullary main_c_23 (constantI S_ 32 2#32),
    nullary main_c_24 (constantI S_ 32 2#32),
    unaryIndexed main_v8 ![main_c_22, main_c_23, main_c_24] ⟨S_, .i32⟩ main_v38 ((fun x i => Host.dynamicSlice S16x1024x1024 x (fun k => (i k (Shape.Idx.first h_S_)).toInt) sliceFits_S16x1026x1026_S16x1024x1024) : (⟨S16x1026x1026, .f32⟩ : BufTy).Contents (Elt F) → (Fin 3 → (⟨S_, .i32⟩ : BufTy).Contents (Elt F)) → (⟨S16x1024x1024, .f32⟩ : BufTy).Contents (Elt F)),
    binary main_v7 main_v38 main_v39 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x1024x1024, .f32⟩) main_call9_v0) (broadcastInDim S16x1024x1024 ![] bcast_S_S16x1024x1024),
    TRef.binary (TRef.of (T := ⟨S16x1024x1024, .f32⟩) main_v39) (TRef.of (T := ⟨S16x1024x1024, .f32⟩) main_call9_v0) (TRef.of (T := ⟨S16x1024x1024, .f32⟩) main_v40) maximumf,
    binary main_v37 main_v40 main_v41 (mulf : (⟨S16x1024x1024, .f32⟩ : BufTy).Contents (Elt F) → (⟨S16x1024x1024, .f32⟩ : BufTy).Contents (Elt F) → (⟨S16x1024x1024, .f32⟩ : BufTy).Contents (Elt F)) ]

/-- The last 8 operations: times 256, the windowed maximum, the product with the rectified difference, the unit axis. -/
abbrev segEnd : List (HloOp τ sig (Elt F)) :=
  [ nullary main_cst_25 (constant S_ .f32 0x43800000#32),
    unary main_cst_25 main_v42 (broadcastInDim S16x1024x1024 ![] bcast_S_S16x1024x1024 : (⟨S_, .f32⟩ : BufTy).Contents (Elt F) → (⟨S16x1024x1024, .f32⟩ : BufTy).Contents (Elt F)),
    binary main_v41 main_v42 main_v43 (mulf : (⟨S16x1024x1024, .f32⟩ : BufTy).Contents (Elt F) → (⟨S16x1024x1024, .f32⟩ : BufTy).Contents (Elt F) → (⟨S16x1024x1024, .f32⟩ : BufTy).Contents (Elt F)),
    nullary main_cst_26 (constant S_ .f32 0xFF800000#32),
    unary main_cst_26 main_v44 (broadcastInDim S_ ![] bcast_S_S_ : (⟨S_, .f32⟩ : BufTy).Contents (Elt F) → (⟨S_, .f32⟩ : BufTy).Contents (Elt F)),
    binary main_v43 main_v44 main_v45 ((fun x v => Host.reduceWindow FloatOps.maximumf ![1, 3, 3] ![1, 1, 1] ![0, 1, 1] ![0, 1, 1] x v reduceWindows_S16x1024x1024_S16x1024x1024_w1s1p0_0_w3s1p1_1_w3s1p1_1 h_S_) : (⟨S16x1024x1024, .f32⟩ : BufTy).Contents (Elt F) → (⟨S_, .f32⟩ : BufTy).Contents (Elt F) → (⟨S16x1024x1024, .f32⟩ : BufTy).Contents (Elt F)),
    binary main_v7 main_v45 main_v46 (mulf : (⟨S16x1024x1024, .f32⟩ : BufTy).Contents (Elt F) → (⟨S16x1024x1024, .f32⟩ : BufTy).Contents (Elt F) → (⟨S16x1024x1024, .f32⟩ : BufTy).Contents (Elt F)),
    unary main_v46 main_v47 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)) ]

set_option maxRecDepth 8192 in
theorem ops_split : (ops : List (HloOp τ sig (Elt F)))
    = seg0 ++ (grp1 ++ (grp2 ++ (grp3 ++ (grp4 ++ (grp5 ++ (grp6 ++ (grp7 ++ (grp8 ++ segEnd)))))))) := rfl

/-- Operations run one list after another are their concatenation run as one. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ### What the segments read and leave -/

/-- The block of a padded array that starts at row i, column j. -/
def sliceOf (i j : BitVec 32) (p : (⟨S16x1026x1026, .f32⟩ : BufTy).Contents (Elt F)) : RArr F :=
  Host.dynamicSlice S16x1024x1024 p
    (fun k => (((![constantI S_ 32 0#32, constantI S_ 32 i, constantI S_ 32 j] : Fin 3 → (⟨S_, .i32⟩ : BufTy).Contents (Elt F))) k
      (Shape.Idx.first h_S_)).toInt) sliceFits_S16x1026x1026_S16x1024x1024

/-- The rectified difference of an array with a block of a padded array. -/
def termOf (i j : BitVec 32) (xp : RArr F) (p : (⟨S16x1026x1026, .f32⟩ : BufTy).Contents (Elt F)) : RArr F :=
  rRelu (subf xp (sliceOf i j p))

theorem rTerm_eq (i j : BitVec 32) (x : RIn F) : rTerm i j x = termOf i j (rXP x) (rPad x) := rfl

/-- The result from the rectified difference and the product of the eight terms. -/
def outOf (xp prod : RArr F) : (⟨S16x1x1024x1024, .f32⟩ : BufTy).Contents (Elt F) :=
  broadcastInDim S16x1x1024x1024 ![0, 2, 3] bcast_S16x1024x1024_S16x1x1024x1024_0_2_3
    (mulf xp
      (Host.reduceWindow FloatOps.maximumf ![1, 3, 3] ![1, 1, 1] ![0, 1, 1] ![0, 1, 1] (mulf prod (rSplat 0x43800000#32))
        (broadcastInDim S_ ![] bcast_S_S_ (constant S_ .f32 0xFF800000#32))
        reduceWindows_S16x1024x1024_S16x1024x1024_w1s1p0_0_w3s1p1_1_w3s1p1_1 h_S_))

/-- What a valuation holds between two segments: the rectified difference of the input x, its padded copy,
    and the input itself. -/
def St (x : RIn F) (W : Valuation τ sig (Elt F)) : Prop :=
  W (Proc.devRef .tc main_v7) = rXP x ∧ W (Proc.devRef .tc main_v8) = rPad x ∧ W (Proc.devRef .tc main_arg0) = x

/-! ### The first segment over any valuation -/

theorem seg0_v7 (W : Valuation τ sig (Elt F)) :
    after seg0 W (Proc.devRef .tc main_v7) = rXP (W (Proc.devRef .tc main_arg0)) := by
  after_results
  rfl

theorem seg0_v8 (W : Valuation τ sig (Elt F)) :
    after seg0 W (Proc.devRef .tc main_v8) = rPad (W (Proc.devRef .tc main_arg0)) := by
  after_results
  rfl

theorem seg0_v9 (W : Valuation τ sig (Elt F)) :
    after seg0 W (Proc.devRef .tc main_v9) = rSplat 0x3F800000#32 := by
  after_results
  rfl

theorem seg0_arg0 (W : Valuation τ sig (Elt F)) :
    after seg0 W (Proc.devRef .tc main_arg0) = W (Proc.devRef .tc main_arg0) := by
  after_results

theorem seg0_st (V : Valuation τ sig (Elt F)) :
    St (V (Proc.devRef .tc main_arg0)) (after seg0 V)
      ∧ after seg0 V (Proc.devRef .tc main_v9) = rSplat 0x3F800000#32 :=
  ⟨⟨seg0_v7 V, seg0_v8 V, seg0_arg0 V⟩, seg0_v9 V⟩

/-! ### The eight neighbour groups over any valuation -/

theorem grp1_prod (W : Valuation τ sig (Elt F)) :
    after grp1 W (Proc.devRef .tc main_v13)
      = mulf (W (Proc.devRef .tc main_v9)) (termOf 0#32 0#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 0#32, constantI S_ 32 0#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp1_v7 (W : Valuation τ sig (Elt F)) :
    after grp1 W (Proc.devRef .tc main_v7) = W (Proc.devRef .tc main_v7) := by
  after_results

theorem grp1_v8 (W : Valuation τ sig (Elt F)) :
    after grp1 W (Proc.devRef .tc main_v8) = W (Proc.devRef .tc main_v8) := by
  after_results

theorem grp1_arg0 (W : Valuation τ sig (Elt F)) :
    after grp1 W (Proc.devRef .tc main_arg0) = W (Proc.devRef .tc main_arg0) := by
  after_results

theorem grp1_st {x : RIn F} {P : RArr F} {W : Valuation τ sig (Elt F)} (h : St x W)
    (hp : W (Proc.devRef .tc main_v9) = P) :
    St x (after grp1 W) ∧ after grp1 W (Proc.devRef .tc main_v13) = mulf P (rTerm 0#32 0#32 x) := by
  obtain ⟨h7, h8, h0⟩ := h
  refine ⟨⟨?_, ?_, ?_⟩, ?_⟩
  · rw [grp1_v7, h7]
  · rw [grp1_v8, h8]
  · rw [grp1_arg0, h0]
  · rw [grp1_prod, hp, h7, h8]
    rfl

theorem grp2_prod (W : Valuation τ sig (Elt F)) :
    after grp2 W (Proc.devRef .tc main_v17)
      = mulf (W (Proc.devRef .tc main_v13)) (termOf 0#32 1#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 0#32, constantI S_ 32 1#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp2_v7 (W : Valuation τ sig (Elt F)) :
    after grp2 W (Proc.devRef .tc main_v7) = W (Proc.devRef .tc main_v7) := by
  after_results

theorem grp2_v8 (W : Valuation τ sig (Elt F)) :
    after grp2 W (Proc.devRef .tc main_v8) = W (Proc.devRef .tc main_v8) := by
  after_results

theorem grp2_arg0 (W : Valuation τ sig (Elt F)) :
    after grp2 W (Proc.devRef .tc main_arg0) = W (Proc.devRef .tc main_arg0) := by
  after_results

theorem grp2_st {x : RIn F} {P : RArr F} {W : Valuation τ sig (Elt F)} (h : St x W)
    (hp : W (Proc.devRef .tc main_v13) = P) :
    St x (after grp2 W) ∧ after grp2 W (Proc.devRef .tc main_v17) = mulf P (rTerm 0#32 1#32 x) := by
  obtain ⟨h7, h8, h0⟩ := h
  refine ⟨⟨?_, ?_, ?_⟩, ?_⟩
  · rw [grp2_v7, h7]
  · rw [grp2_v8, h8]
  · rw [grp2_arg0, h0]
  · rw [grp2_prod, hp, h7, h8]
    rfl

theorem grp3_prod (W : Valuation τ sig (Elt F)) :
    after grp3 W (Proc.devRef .tc main_v21)
      = mulf (W (Proc.devRef .tc main_v17)) (termOf 0#32 2#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 0#32, constantI S_ 32 2#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp3_v7 (W : Valuation τ sig (Elt F)) :
    after grp3 W (Proc.devRef .tc main_v7) = W (Proc.devRef .tc main_v7) := by
  after_results

theorem grp3_v8 (W : Valuation τ sig (Elt F)) :
    after grp3 W (Proc.devRef .tc main_v8) = W (Proc.devRef .tc main_v8) := by
  after_results

theorem grp3_arg0 (W : Valuation τ sig (Elt F)) :
    after grp3 W (Proc.devRef .tc main_arg0) = W (Proc.devRef .tc main_arg0) := by
  after_results

theorem grp3_st {x : RIn F} {P : RArr F} {W : Valuation τ sig (Elt F)} (h : St x W)
    (hp : W (Proc.devRef .tc main_v17) = P) :
    St x (after grp3 W) ∧ after grp3 W (Proc.devRef .tc main_v21) = mulf P (rTerm 0#32 2#32 x) := by
  obtain ⟨h7, h8, h0⟩ := h
  refine ⟨⟨?_, ?_, ?_⟩, ?_⟩
  · rw [grp3_v7, h7]
  · rw [grp3_v8, h8]
  · rw [grp3_arg0, h0]
  · rw [grp3_prod, hp, h7, h8]
    rfl

theorem grp4_prod (W : Valuation τ sig (Elt F)) :
    after grp4 W (Proc.devRef .tc main_v25)
      = mulf (W (Proc.devRef .tc main_v21)) (termOf 1#32 0#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 1#32, constantI S_ 32 0#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp4_v7 (W : Valuation τ sig (Elt F)) :
    after grp4 W (Proc.devRef .tc main_v7) = W (Proc.devRef .tc main_v7) := by
  after_results

theorem grp4_v8 (W : Valuation τ sig (Elt F)) :
    after grp4 W (Proc.devRef .tc main_v8) = W (Proc.devRef .tc main_v8) := by
  after_results

theorem grp4_arg0 (W : Valuation τ sig (Elt F)) :
    after grp4 W (Proc.devRef .tc main_arg0) = W (Proc.devRef .tc main_arg0) := by
  after_results

theorem grp4_st {x : RIn F} {P : RArr F} {W : Valuation τ sig (Elt F)} (h : St x W)
    (hp : W (Proc.devRef .tc main_v21) = P) :
    St x (after grp4 W) ∧ after grp4 W (Proc.devRef .tc main_v25) = mulf P (rTerm 1#32 0#32 x) := by
  obtain ⟨h7, h8, h0⟩ := h
  refine ⟨⟨?_, ?_, ?_⟩, ?_⟩
  · rw [grp4_v7, h7]
  · rw [grp4_v8, h8]
  · rw [grp4_arg0, h0]
  · rw [grp4_prod, hp, h7, h8]
    rfl

theorem grp5_prod (W : Valuation τ sig (Elt F)) :
    after grp5 W (Proc.devRef .tc main_v29)
      = mulf (W (Proc.devRef .tc main_v25)) (termOf 1#32 2#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 1#32, constantI S_ 32 2#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp5_v7 (W : Valuation τ sig (Elt F)) :
    after grp5 W (Proc.devRef .tc main_v7) = W (Proc.devRef .tc main_v7) := by
  after_results

theorem grp5_v8 (W : Valuation τ sig (Elt F)) :
    after grp5 W (Proc.devRef .tc main_v8) = W (Proc.devRef .tc main_v8) := by
  after_results

theorem grp5_arg0 (W : Valuation τ sig (Elt F)) :
    after grp5 W (Proc.devRef .tc main_arg0) = W (Proc.devRef .tc main_arg0) := by
  after_results

theorem grp5_st {x : RIn F} {P : RArr F} {W : Valuation τ sig (Elt F)} (h : St x W)
    (hp : W (Proc.devRef .tc main_v25) = P) :
    St x (after grp5 W) ∧ after grp5 W (Proc.devRef .tc main_v29) = mulf P (rTerm 1#32 2#32 x) := by
  obtain ⟨h7, h8, h0⟩ := h
  refine ⟨⟨?_, ?_, ?_⟩, ?_⟩
  · rw [grp5_v7, h7]
  · rw [grp5_v8, h8]
  · rw [grp5_arg0, h0]
  · rw [grp5_prod, hp, h7, h8]
    rfl

theorem grp6_prod (W : Valuation τ sig (Elt F)) :
    after grp6 W (Proc.devRef .tc main_v33)
      = mulf (W (Proc.devRef .tc main_v29)) (termOf 2#32 0#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 2#32, constantI S_ 32 0#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp6_v7 (W : Valuation τ sig (Elt F)) :
    after grp6 W (Proc.devRef .tc main_v7) = W (Proc.devRef .tc main_v7) := by
  after_results

theorem grp6_v8 (W : Valuation τ sig (Elt F)) :
    after grp6 W (Proc.devRef .tc main_v8) = W (Proc.devRef .tc main_v8) := by
  after_results

theorem grp6_arg0 (W : Valuation τ sig (Elt F)) :
    after grp6 W (Proc.devRef .tc main_arg0) = W (Proc.devRef .tc main_arg0) := by
  after_results

theorem grp6_st {x : RIn F} {P : RArr F} {W : Valuation τ sig (Elt F)} (h : St x W)
    (hp : W (Proc.devRef .tc main_v29) = P) :
    St x (after grp6 W) ∧ after grp6 W (Proc.devRef .tc main_v33) = mulf P (rTerm 2#32 0#32 x) := by
  obtain ⟨h7, h8, h0⟩ := h
  refine ⟨⟨?_, ?_, ?_⟩, ?_⟩
  · rw [grp6_v7, h7]
  · rw [grp6_v8, h8]
  · rw [grp6_arg0, h0]
  · rw [grp6_prod, hp, h7, h8]
    rfl

theorem grp7_prod (W : Valuation τ sig (Elt F)) :
    after grp7 W (Proc.devRef .tc main_v37)
      = mulf (W (Proc.devRef .tc main_v33)) (termOf 2#32 1#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 2#32, constantI S_ 32 1#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp7_v7 (W : Valuation τ sig (Elt F)) :
    after grp7 W (Proc.devRef .tc main_v7) = W (Proc.devRef .tc main_v7) := by
  after_results

theorem grp7_v8 (W : Valuation τ sig (Elt F)) :
    after grp7 W (Proc.devRef .tc main_v8) = W (Proc.devRef .tc main_v8) := by
  after_results

theorem grp7_arg0 (W : Valuation τ sig (Elt F)) :
    after grp7 W (Proc.devRef .tc main_arg0) = W (Proc.devRef .tc main_arg0) := by
  after_results

theorem grp7_st {x : RIn F} {P : RArr F} {W : Valuation τ sig (Elt F)} (h : St x W)
    (hp : W (Proc.devRef .tc main_v33) = P) :
    St x (after grp7 W) ∧ after grp7 W (Proc.devRef .tc main_v37) = mulf P (rTerm 2#32 1#32 x) := by
  obtain ⟨h7, h8, h0⟩ := h
  refine ⟨⟨?_, ?_, ?_⟩, ?_⟩
  · rw [grp7_v7, h7]
  · rw [grp7_v8, h8]
  · rw [grp7_arg0, h0]
  · rw [grp7_prod, hp, h7, h8]
    rfl

theorem grp8_prod (W : Valuation τ sig (Elt F)) :
    after grp8 W (Proc.devRef .tc main_v41)
      = mulf (W (Proc.devRef .tc main_v37)) (termOf 2#32 2#32 (W (Proc.devRef .tc main_v7)) (W (Proc.devRef .tc main_v8))) := by
  after_results
  generalize hG : (fun k : Fin 3 => (cast _ _ : (⟨S_, .i32⟩ : BufTy).Contents (Elt F))) = G
  have hG' : G = ![constantI S_ 32 0#32, constantI S_ 32 2#32, constantI S_ 32 2#32] := by
    subst hG
    funext k
    fin_cases k <;>
      (try simp only [Matrix.cons_val_zero', Matrix.cons_val_succ', Fin.zero_eta, Fin.mk_one, Matrix.cons_val_zero,
        Matrix.cons_val_one, Matrix.head_cons]) <;> (try after_results_simp) <;> rfl
  subst hG'
  rfl

theorem grp8_v7 (W : Valuation τ sig (Elt F)) :
    after grp8 W (Proc.devRef .tc main_v7) = W (Proc.devRef .tc main_v7) := by
  after_results

theorem grp8_v8 (W : Valuation τ sig (Elt F)) :
    after grp8 W (Proc.devRef .tc main_v8) = W (Proc.devRef .tc main_v8) := by
  after_results

theorem grp8_arg0 (W : Valuation τ sig (Elt F)) :
    after grp8 W (Proc.devRef .tc main_arg0) = W (Proc.devRef .tc main_arg0) := by
  after_results

theorem grp8_st {x : RIn F} {P : RArr F} {W : Valuation τ sig (Elt F)} (h : St x W)
    (hp : W (Proc.devRef .tc main_v37) = P) :
    St x (after grp8 W) ∧ after grp8 W (Proc.devRef .tc main_v41) = mulf P (rTerm 2#32 2#32 x) := by
  obtain ⟨h7, h8, h0⟩ := h
  refine ⟨⟨?_, ?_, ?_⟩, ?_⟩
  · rw [grp8_v7, h7]
  · rw [grp8_v8, h8]
  · rw [grp8_arg0, h0]
  · rw [grp8_prod, hp, h7, h8]
    rfl

/-! ### The last segment over any valuation -/

theorem segEnd_out (W : Valuation τ sig (Elt F)) :
    after segEnd W (Proc.devRef .tc main_v47)
      = outOf (W (Proc.devRef .tc main_v7)) (W (Proc.devRef .tc main_v41)) := by
  after_results
  rfl

theorem segEnd_arg0 (W : Valuation τ sig (Elt F)) :
    after segEnd W (Proc.devRef .tc main_arg0) = W (Proc.devRef .tc main_arg0) := by
  after_results

/-! ### The chain -/

/-- After all 96 operations the result buffer holds the stage function of the input array, and the input
    buffer what it held. -/
theorem ops_read (V : Valuation τ sig (Elt F)) :
    after ops V (Proc.devRef .tc main_v47) = rOut (V (Proc.devRef .tc main_arg0))
      ∧ after ops V (Proc.devRef .tc main_arg0) = V (Proc.devRef .tc main_arg0) := by
  obtain ⟨s0, p0⟩ := seg0_st V
  obtain ⟨s1, p1⟩ := grp1_st s0 p0
  obtain ⟨s2, p2⟩ := grp2_st s1 p1
  obtain ⟨s3, p3⟩ := grp3_st s2 p2
  obtain ⟨s4, p4⟩ := grp4_st s3 p3
  obtain ⟨s5, p5⟩ := grp5_st s4 p4
  obtain ⟨s6, p6⟩ := grp6_st s5 p5
  obtain ⟨s7, p7⟩ := grp7_st s6 p6
  obtain ⟨s8, p8⟩ := grp8_st s7 p7
  rw [ops_split]
  simp only [after_append]
  refine ⟨?_, ?_⟩
  · rw [segEnd_out, s8.1, p8]
    rfl
  · rw [segEnd_arg0, s8.2.2]

end RefRun

/-- On every device, for any float values, from any memory with zero counters: every weakly fair execution of
    the reference's @main terminates with the result buffer at the stage function rOut of the input array and
    the input unchanged. -/
theorem ref_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v47) = rOut (F := F) (m ((c.tc : Thread nD τ).loc main_arg0))
      ∧ r.2.mem ((c.tc : Thread nD τ).loc main_arg0) = m ((c.tc : Thread nD τ).loc main_arg0) :=
  (θ_run defs _ _).mono (fun _ h c =>
      ⟨(h c main_v47).trans (RefRun.ops_read (launchContents m c)).1,
        (h c main_arg0).trans (RefRun.ops_read (launchContents m c)).2⟩)
    (run_seq RefRun.scopedRefs_eq RefRun.scopedSems_eq defs main (fun _ => RefRun.ops) RefRun.main_eq
      (fun _ => RefRun.ops_sub) m ρ)

end Cert.Nms

end
-- ==== Proof.RefRead.lean ====
/-
  The reference program read index by index at the extended reals.

  Each stage of the reference is read at one index (b, r, q) of a 16 × 1024 × 1024 array and identified with the
  mathematics of Spec.lean: the rectified channel difference is `plane`, its zero-padded copy is `plane` on the
  integer grid shifted by one, each of the eight shifted blocks is `plane` at a neighbour, their rectified differences'
  product is `nms`, and the 3 × 3 windowed maximum folded from `⊥` is `poolRef`. The result is `G`.
-/
import proofs.«168791_j38654705664677_2_alg».proof.Proof.Spec
import proofs.«168791_j38654705664677_2_alg».proof.Proof.RefStages
import Idealize.ShloMosaic.Lib.ValueIdx
import Idealize.ShloMosaic.Lib.KernelVsHost
import Idealize.ShloMosaic.Lib.DynamicIndex
import Idealize.ShloMosaic.Lib.Pipeline.Value
import Idealize.ShloMosaic.PureOps.Ideal.Laws

noncomputable section

namespace Cert.Nms.RefRead

open Idealize.ShloMosaic Idealize.ShloMosaic.ValueIdx Cert.ReferenceIdeal

/-! ## The two channels and the rectified difference -/

/-- A pixel given by natural coordinates below 1024 is on the image. -/
theorem inImg_coe (r q : Fin 1024) : InImg (r.val : ℤ) (q.val : ℤ) := by
  have hr := r.isLt; have hq := q.isLt
  exact ⟨by omega, by omega, by omega, by omega⟩

/-- A channel at a pixel of the image is the input array's entry there. -/
theorem chan_coe (x : RIn Ideal) (b : Fin 16) (ch : Fin 2) (r q : Fin 1024) :
    chan x b ch (r.val : ℤ) (q.val : ℤ) = x (ix4 b ch r q) := by
  unfold chan
  rw [dif_pos (inImg_coe r q)]
  refine congrArg x (funext fun a => ?_)
  match a with
  | ⟨0, _⟩ => rfl
  | ⟨1, _⟩ => rfl
  | ⟨2, _⟩ => exact Fin.ext (Int.toNat_natCast _)
  | ⟨3, _⟩ => exact Fin.ext (Int.toNat_natCast _)

/-- `plane` at equal coordinates. -/
theorem plane_congr {c : EReal} {X0 X1 : ℤ → ℤ → EReal} {a a' b b' : ℤ} (ha : a = a') (hb : b = b') :
    plane c X0 X1 a b = plane c X0 X1 a' b' := by subst ha; subst hb; rfl

/-- Channel 1 at (b, r, q) is the input at (b, 1, r, q): the reshape keeps the row-major position, the slice shifts the
    channel coordinate by one. -/
theorem rCh1_apply (x : RIn Ideal) (b : Fin 16) (r q : Fin 1024) :
    rCh1 (F := Ideal) x (ix3 b r q) = x (ix4 b (1 : Fin 2) r q) := by
  unfold rCh1
  refine (shapeCast_apply _ Gen.shapeCasts_S16x1x1024x1024_S16x1024x1024 (ix3 b r q) (ix4 b (0 : Fin 1) r q) (by
    rw [Shape.rowMajor_val_four, Shape.rowMajor_val_three]
    show ((b.val * 1 + 0) * 1024 + r.val) * 1024 + q.val = (b.val * 1024 + r.val) * 1024 + q.val
    omega)).trans ?_
  exact extractStridedSlice_apply ![0, 1, 0, 0] x Gen.slices_S16x2x1024x1024_S16x1x1024x1024_0_1_0_0
    (ix4 b (0 : Fin 1) r q) (ix4 b (1 : Fin 2) r q) (fun a => match a with
    | ⟨0, _⟩ => by show b.val = 0 + b.val; omega
    | ⟨1, _⟩ => by show 1 = 1 + 0; rfl
    | ⟨2, _⟩ => by show r.val = 0 + r.val; omega
    | ⟨3, _⟩ => by show q.val = 0 + q.val; omega)

/-- Channel 0 at (b, r, q) is the input at (b, 0, r, q). -/
theorem rCh0_apply (x : RIn Ideal) (b : Fin 16) (r q : Fin 1024) :
    rCh0 (F := Ideal) x (ix3 b r q) = x (ix4 b (0 : Fin 2) r q) := by
  unfold rCh0
  refine (shapeCast_apply _ Gen.shapeCasts_S16x1x1024x1024_S16x1024x1024 (ix3 b r q) (ix4 b (0 : Fin 1) r q) (by
    rw [Shape.rowMajor_val_four, Shape.rowMajor_val_three]
    show ((b.val * 1 + 0) * 1024 + r.val) * 1024 + q.val = (b.val * 1024 + r.val) * 1024 + q.val
    omega)).trans ?_
  exact extractStridedSlice_apply ![0, 0, 0, 0] x Gen.slices_S16x2x1024x1024_S16x1x1024x1024_0_0_0_0
    (ix4 b (0 : Fin 1) r q) (ix4 b (0 : Fin 2) r q) (fun a => match a with
    | ⟨0, _⟩ => by show b.val = 0 + b.val; omega
    | ⟨1, _⟩ => by show 0 = 0 + 0; rfl
    | ⟨2, _⟩ => by show r.val = 0 + r.val; omega
    | ⟨3, _⟩ => by show q.val = 0 + q.val; omega)

/-- A spread literal reads the extended real its word encodes, everywhere. -/
theorem rSplat_apply (w : BitVec 32) (i : S16x1024x1024.Idx) :
    rSplat (F := Ideal) w i = Ideal.ofBits .f32 w := by
  unfold rSplat
  exact broadcastInDim_apply _ Gen.bcast_S_S16x1024x1024 _ i (fun a => a.elim0) (fun a => a.elim0)

/-- The rectifier at an index is the maximum with zero. -/
theorem rRelu_apply (a : RArr Ideal) (i : S16x1024x1024.Idx) : rRelu (F := Ideal) a i = relu (a i) := by
  unfold rRelu relu
  show max (a i) (rSplat (F := Ideal) 0x00000000#32 i) = _
  rw [rSplat_apply, Ideal.ofBits_zero_f32]

/-- The rectified channel difference at a pixel is `plane` there. -/
theorem rXP_apply (x : RIn Ideal) (b : Fin 16) (r q : Fin 1024) :
    rXP (F := Ideal) x (ix3 b r q) = plane c01 (chan x b 0) (chan x b 1) (r.val : ℤ) (q.val : ℤ) := by
  unfold rXP
  rw [rRelu_apply]
  show relu (rCh1 (F := Ideal) x (ix3 b r q) - rCh0 (F := Ideal) x (ix3 b r q)
    - rSplat (F := Ideal) 0x3DCCCCCD#32 (ix3 b r q)) = _
  rw [rCh1_apply, rCh0_apply, rSplat_apply]
  unfold plane
  rw [if_pos (inImg_coe r q), chan_coe, chan_coe]

/-! ## The zero-padded copy -/

/-- The padding value is zero. -/
theorem padval :
    sitofp (F := Ideal) .f32 (constantI S_ 32 0#32) (Shape.Idx.first Gen.h_S_) = (0 : EReal) := by
  show (((0#32 : BitVec 32).toInt : ℝ) : EReal) = 0
  simp

/-- The padded array at (b, R, Q) is `plane` at (R − 1, Q − 1): the copy inside, zero on the border. -/
theorem rPad_apply (x : RIn Ideal) (b : Fin 16) (R Q : ℕ) (hR : R < 1026) (hQ : Q < 1026) :
    rPad (F := Ideal) x (ix3 b (⟨R, hR⟩ : Fin 1026) (⟨Q, hQ⟩ : Fin 1026))
      = plane c01 (chan x b 0) (chan x b 1) ((R : ℤ) - 1) ((Q : ℤ) - 1) := by
  have hb := b.isLt
  unfold rPad
  by_cases hR' : 1 ≤ R ∧ R ≤ 1024
  · by_cases hQ' : 1 ≤ Q ∧ Q ≤ 1024
    · obtain ⟨hR1, hR2⟩ := hR'
      obtain ⟨hQ1, hQ2⟩ := hQ'
      rw [pad_apply_of_inside ![0, 1, 1] ![0, 1, 1] ![0, 0, 0] (rXP (F := Ideal) x) _
        Gen.pads_S16x1024x1024_S16x1026x1026_000_110_110 Gen.h_S_ (ix3 b (⟨R, hR⟩ : Fin 1026) (⟨Q, hQ⟩ : Fin 1026))
        (ix3 b (⟨R - 1, by omega⟩ : Fin 1024) (⟨Q - 1, by omega⟩ : Fin 1024))
        (fun a => match a with
          | ⟨0, _⟩ => by show b.val = 0 + b.val * (0 + 1); omega
          | ⟨1, _⟩ => by show R = 1 + (R - 1) * (0 + 1); omega
          | ⟨2, _⟩ => by show Q = 1 + (Q - 1) * (0 + 1); omega)]
      rw [rXP_apply]
      exact plane_congr (by show ((R - 1 : ℕ) : ℤ) = (R : ℤ) - 1; omega) (by show ((Q - 1 : ℕ) : ℤ) = (Q : ℤ) - 1; omega)
    · rw [pad_apply_of_not_inside ![0, 1, 1] ![0, 1, 1] ![0, 0, 0] (rXP (F := Ideal) x) _
        Gen.pads_S16x1024x1024_S16x1026x1026_000_110_110 Gen.h_S_ (ix3 b (⟨R, hR⟩ : Fin 1026) (⟨Q, hQ⟩ : Fin 1026)) (2 : Fin 3)
        (by show ¬(1 ≤ Q ∧ (Q - 1) % (0 + 1) = 0 ∧ (Q - 1) / (0 + 1) < 1024); omega), padval]
      unfold plane
      rw [if_neg (by unfold InImg; omega)]
  · rw [pad_apply_of_not_inside ![0, 1, 1] ![0, 1, 1] ![0, 0, 0] (rXP (F := Ideal) x) _
      Gen.pads_S16x1024x1024_S16x1026x1026_000_110_110 Gen.h_S_ (ix3 b (⟨R, hR⟩ : Fin 1026) (⟨Q, hQ⟩ : Fin 1026)) (1 : Fin 3)
      (by show ¬(1 ≤ R ∧ (R - 1) % (0 + 1) = 0 ∧ (R - 1) / (0 + 1) < 1024); omega), padval]
    unfold plane
    rw [if_neg (by unfold InImg; omega)]

/-! ## A block of the padded array at a literal start -/

/-- A dynamic slice of a 16 × 1026 × 1026 array at the start (0, i, j), i, j ≤ 2, read at (b, r, q), is the array at
    (b, r + i, q + j): the clamp is the identity at a start that leaves the block inside. -/
theorem ds_read {α : Type} (y : S16x1026x1026.Idx → α) (st : Fin 3 → ℤ) (i j : ℕ) (hi : i ≤ 2) (hj : j ≤ 2)
    (hst : ∀ a, st a = (((![0, i, j] : Fin 3 → ℕ) a : ℕ) : ℤ)) (h : S16x1026x1026.Slices (fun _ => 0) S16x1024x1024)
    (b : Fin 16) (r q : Fin 1024) :
    Host.dynamicSlice S16x1024x1024 y st h (ix3 b r q)
      = y (ix3 b (⟨r.val + i, by have := r.isLt; omega⟩ : Fin 1026) (⟨q.val + j, by have := q.isLt; omega⟩ : Fin 1026)) := by
  have hoff : S16x1026x1026.Slices (![0, i, j] : Fin 3 → ℕ) S16x1024x1024 := ⟨rfl, fun a => match a with
    | ⟨0, _⟩ => by show 0 + 16 ≤ 16; omega
    | ⟨1, _⟩ => by show i + 1024 ≤ 1026; omega
    | ⟨2, _⟩ => by show j + 1024 ≤ 1026; omega⟩
  rw [Host.dynamicSlice_eq_extractStridedSlice S16x1024x1024 y st (![0, i, j] : Fin 3 → ℕ) h hoff hst]
  exact extractStridedSlice_apply (![0, i, j] : Fin 3 → ℕ) y hoff (ix3 b r q) _ (fun a => match a with
    | ⟨0, _⟩ => by show b.val = 0 + b.val; omega
    | ⟨1, _⟩ => by show r.val + i = i + r.val; omega
    | ⟨2, _⟩ => by show q.val + j = j + q.val; omega)

/-! ## The windowed maximum -/

/-- The 1 × 3 × 3 window. -/
abbrev W : Shape := ⟨3, ![1, 3, 3]⟩

/-- The window has nine positions. -/
theorem W_numel : W.numel = 9 := by decide

/-- The window position numbered `k` in row-major order: (0, k / 3, k % 3). -/
def wpos (k : Fin 9) : W.Idx :=
  ix3 (0 : Fin 1) (⟨k.val / 3, by have := k.isLt; omega⟩ : Fin 3) (⟨k.val % 3, by have := k.isLt; omega⟩ : Fin 3)

/-- Row-major position `k` of the window is `wpos k`. -/
theorem rowMajor_symm_cast (k : Fin 9) : W.rowMajor.symm (k.cast W_numel.symm) = wpos k := by
  have hk := k.isLt
  rw [Equiv.symm_apply_eq]
  refine Fin.ext ?_
  rw [Shape.rowMajor_val_three]
  show k.val = (0 * 3 + k.val / 3) * 3 + k.val % 3
  omega

/-- A fold over the positions below `m` is the fold over those below `n = m`. -/
theorem foldl_finRange_cast {β : Type} {m n : ℕ} (h : m = n) (g : β → Fin m → β) (v : β) :
    (List.finRange m).foldl g v = (List.finRange n).foldl (fun acc k => g acc (k.cast h.symm)) v := by
  subst h; rfl

/-- The nine positions in order. -/
theorem finRange_nine : List.finRange 9 = [0, 1, 2, 3, 4, 5, 6, 7, 8] := by decide

/-- What a window holds at one position: with `j` the output coordinates and `w` the window position, the operand at
    `j · strides + w − lo` where that is an index of the operand, the initial value `v` elsewhere. -/
def winAt {α : Type} {s : Shape} (strides lo : Fin s.rank → ℕ) (X : s.Idx → α) (v : α) (j w : Fin s.rank → ℕ) : α :=
  @dite α (∀ a, lo a ≤ j a * strides a + w a ∧ j a * strides a + w a - lo a < s.size a) (Nat.decidableForallFin _)
    (fun hin => X (fun a => ⟨j a * strides a + w a - lo a, (hin a).2⟩)) (fun _ => v)

/-- A windowed reduction at an index is the fold of the window's entries in row-major order of the window. -/
theorem reduceWindow_eq_foldl {α : Type} {s t u : Shape} (f : α → α → α) (window strides lo hi : Fin s.rank → ℕ)
    (x : s.Idx → α) (init : u.Idx → α) (h : s.ReduceWindows window strides lo hi t) (hu : 0 < u.numel) (j : t.Idx) :
    Host.reduceWindow f window strides lo hi x init h hu j
      = (List.finRange (⟨s.rank, window⟩ : Shape).numel).foldl (fun acc n =>
          f acc (winAt strides lo x (init (Shape.Idx.first hu)) (fun a => (j (a.cast h.1.symm)).val)
            (fun a => ((⟨s.rank, window⟩ : Shape).rowMajor.symm n a).val))) (init (Shape.Idx.first hu)) := rfl

/-- The windowed reduction at (b, r, q) is the fold of the nine window entries in row-major order. -/
theorem reduceWindow_apply_fold {α : Type} (f : α → α → α) (X : S16x1024x1024.Idx → α) (v : S_.Idx → α)
    (h : S16x1024x1024.ReduceWindows (![1, 3, 3] : Fin 3 → ℕ) ![1, 1, 1] ![0, 1, 1] ![0, 1, 1] S16x1024x1024)
    (hu : 0 < S_.numel) (b : Fin 16) (r q : Fin 1024) :
    Host.reduceWindow f ![1, 3, 3] ![1, 1, 1] ![0, 1, 1] ![0, 1, 1] X v h hu (ix3 b r q)
      = (List.finRange 9).foldl (fun acc k => f acc (winAt (s := S16x1024x1024) ![1, 1, 1] ![0, 1, 1] X
          (v (Shape.Idx.first hu)) (fun a => ((ix3 b r q) a).val) (fun a => (wpos k a).val)))
          (v (Shape.Idx.first hu)) := by
  rw [reduceWindow_eq_foldl]
  show List.foldl _ _ (List.finRange W.numel) = _
  rw [foldl_finRange_cast W_numel]
  refine congrArg (fun g => List.foldl g (v (Shape.Idx.first hu)) (List.finRange 9)) (funext fun acc => funext fun k => ?_)
  show f acc (winAt (s := S16x1024x1024) ![1, 1, 1] ![0, 1, 1] X (v (Shape.Idx.first hu)) _
    (fun a => (W.rowMajor.symm (k.cast W_numel.symm) a).val)) = _
  rw [rowMajor_symm_cast]
  rfl

/-- A window entry of an array that is `N` on the image, with `⊥` for the initial value, is `refWin N`. -/
theorem winAt_eq (X : S16x1024x1024.Idx → EReal) (b : Fin 16) (N : ℤ → ℤ → EReal)
    (hX : ∀ r q : Fin 1024, X (ix3 b r q) = N (r.val : ℤ) (q.val : ℤ)) (r q : Fin 1024) (k : Fin 9)
    (J w : Fin 3 → ℕ) (hJ0 : J 0 = b.val) (hJ1 : J 1 = r.val) (hJ2 : J 2 = q.val)
    (hw0 : w 0 = 0) (hw1 : w 1 = k.val / 3) (hw2 : w 2 = k.val % 3) :
    winAt (s := S16x1024x1024) ![1, 1, 1] ![0, 1, 1] X ⊥ J w
      = refWin N (r.val : ℤ) (q.val : ℤ) (((k.val / 3 : ℕ) : ℤ) - 1) (((k.val % 3 : ℕ) : ℤ) - 1) := by
  have hb := b.isLt; have hr := r.isLt; have hq := q.isLt; have hk := k.isLt
  unfold winAt
  split
  · rename_i hin
    have h1 : 1 ≤ J 1 * 1 + w 1 ∧ J 1 * 1 + w 1 - 1 < 1024 := hin 1
    have h2 : 1 ≤ J 2 * 1 + w 2 ∧ J 2 * 1 + w 2 - 1 < 1024 := hin 2
    have hI : InImg ((r.val : ℤ) + (((k.val / 3 : ℕ) : ℤ) - 1)) ((q.val : ℤ) + (((k.val % 3 : ℕ) : ℤ) - 1)) :=
      ⟨by omega, by omega, by omega, by omega⟩
    rw [refWin, if_pos hI]
    refine (congrArg X (funext fun a => ?_)).trans
      ((hX (⟨r.val + k.val / 3 - 1, by omega⟩ : Fin 1024) (⟨q.val + k.val % 3 - 1, by omega⟩ : Fin 1024)).trans ?_)
    · match a with
      | ⟨0, _⟩ => exact Fin.ext (by show J 0 * 1 + w 0 - 0 = b.val; omega)
      | ⟨1, _⟩ => exact Fin.ext (by show J 1 * 1 + w 1 - 1 = r.val + k.val / 3 - 1; omega)
      | ⟨2, _⟩ => exact Fin.ext (by show J 2 * 1 + w 2 - 1 = q.val + k.val % 3 - 1; omega)
    · have e1 : ((r.val + k.val / 3 - 1 : ℕ) : ℤ) = (r.val : ℤ) + (((k.val / 3 : ℕ) : ℤ) - 1) := by omega
      have e2 : ((q.val + k.val % 3 - 1 : ℕ) : ℤ) = (q.val : ℤ) + (((k.val % 3 : ℕ) : ℤ) - 1) := by omega
      show N ((r.val + k.val / 3 - 1 : ℕ) : ℤ) ((q.val + k.val % 3 - 1 : ℕ) : ℤ) = _
      rw [e1, e2]
  · rename_i hin
    have hI : ¬InImg ((r.val : ℤ) + (((k.val / 3 : ℕ) : ℤ) - 1)) ((q.val : ℤ) + (((k.val % 3 : ℕ) : ℤ) - 1)) := by
      intro hI
      obtain ⟨g0, g1, g2, g3⟩ := hI
      refine hin (fun a => ?_)
      match a with
      | ⟨0, _⟩ => show 0 ≤ J 0 * 1 + w 0 ∧ J 0 * 1 + w 0 - 0 < 16; omega
      | ⟨1, _⟩ => show 1 ≤ J 1 * 1 + w 1 ∧ J 1 * 1 + w 1 - 1 < 1024; omega
      | ⟨2, _⟩ => show 1 ≤ J 2 * 1 + w 2 ∧ J 2 * 1 + w 2 - 1 < 1024; omega
    rw [refWin, if_neg hI]

/-- The entry at window position `k` of the window of (b, r, q). -/
theorem winAt_wpos (X : S16x1024x1024.Idx → EReal) (b : Fin 16) (N : ℤ → ℤ → EReal)
    (hX : ∀ r q : Fin 1024, X (ix3 b r q) = N (r.val : ℤ) (q.val : ℤ)) (r q : Fin 1024) (k : Fin 9) :
    winAt (s := S16x1024x1024) ![1, 1, 1] ![0, 1, 1] X ⊥ (fun a => ((ix3 b r q) a).val) (fun a => (wpos k a).val)
      = refWin N (r.val : ℤ) (q.val : ℤ) (((k.val / 3 : ℕ) : ℤ) - 1) (((k.val % 3 : ℕ) : ℤ) - 1) :=
  winAt_eq X b N hX r q k _ _ rfl rfl rfl rfl rfl rfl

/-- The fold of the nine window entries from `⊥` is `poolRef`. -/
theorem fold_refWin (N : ℤ → ℤ → EReal) (r q : ℤ) :
    (List.finRange 9).foldl (fun acc k => max acc
      (refWin N r q (((k.val / 3 : ℕ) : ℤ) - 1) (((k.val % 3 : ℕ) : ℤ) - 1))) ⊥ = poolRef N r q := by
  rw [finRange_nine]
  rfl

/-- The windowed maximum, from `⊥`, of an array that is `N` on the image is `poolRef N`. -/
theorem reduceWindow_max_apply (X : S16x1024x1024.Idx → EReal) (v : S_.Idx → EReal)
    (h : S16x1024x1024.ReduceWindows (![1, 3, 3] : Fin 3 → ℕ) ![1, 1, 1] ![0, 1, 1] ![0, 1, 1] S16x1024x1024)
    (hu : 0 < S_.numel) (hv : v (Shape.Idx.first hu) = ⊥) (b : Fin 16) (N : ℤ → ℤ → EReal)
    (hX : ∀ r q : Fin 1024, X (ix3 b r q) = N (r.val : ℤ) (q.val : ℤ)) (r q : Fin 1024) :
    Host.reduceWindow (fun a c : EReal => max a c) ![1, 3, 3] ![1, 1, 1] ![0, 1, 1] ![0, 1, 1] X v h hu (ix3 b r q)
      = poolRef N (r.val : ℤ) (q.val : ℤ) := by
  rw [reduceWindow_apply_fold, hv]
  refine (congrArg (fun g => List.foldl g (⊥ : EReal) (List.finRange 9)) (funext fun acc => funext fun k => ?_)).trans
    (fold_refWin N (r.val : ℤ) (q.val : ℤ))
  exact congrArg (max acc) (winAt_wpos X b N hX r q k)

/-! ## The eight shifted blocks and the rectified differences -/

/-- The block of the padded array that starts at row `i`, column `j` (words reading as naturals at most 2) is
    `plane` at the neighbour (r + i − 1, q + j − 1). -/
theorem rSlice_apply (x : RIn Ideal) (i j : BitVec 32) (ni nj : ℕ) (hi : ni ≤ 2) (hj : nj ≤ 2)
    (hti : i.toInt = (ni : ℤ)) (htj : j.toInt = (nj : ℤ)) (b : Fin 16) (r q : Fin 1024) :
    rSlice (F := Ideal) i j x (ix3 b r q)
      = plane c01 (chan x b 0) (chan x b 1) (((r.val + ni : ℕ) : ℤ) - 1) (((q.val + nj : ℕ) : ℤ) - 1) := by
  unfold rSlice
  rw [ds_read (rPad (F := Ideal) x) _ ni nj hi hj (fun a => match a with
    | ⟨0, _⟩ => rfl
    | ⟨1, _⟩ => hti
    | ⟨2, _⟩ => htj)]
  exact rPad_apply x b (r.val + ni) (q.val + nj) _ _

/-- The rectified difference with the block that starts at row `i`, column `j`. -/
theorem rTerm_apply (x : RIn Ideal) (i j : BitVec 32) (ni nj : ℕ) (hi : ni ≤ 2) (hj : nj ≤ 2)
    (hti : i.toInt = (ni : ℤ)) (htj : j.toInt = (nj : ℤ)) (b : Fin 16) (r q : Fin 1024) (r' q' : ℤ)
    (hr' : (((r.val + ni : ℕ) : ℤ) - 1) = r') (hq' : (((q.val + nj : ℕ) : ℤ) - 1) = q') :
    rTerm (F := Ideal) i j x (ix3 b r q)
      = relu ((plane c01 (chan x b 0) (chan x b 1)) (r.val : ℤ) (q.val : ℤ) - (plane c01 (chan x b 0) (chan x b 1)) r' q') := by
  unfold rTerm
  rw [rRelu_apply]
  show relu (rXP (F := Ideal) x (ix3 b r q) - rSlice (F := Ideal) i j x (ix3 b r q)) = _
  rw [rXP_apply, rSlice_apply x i j ni nj hi hj hti htj, hr', hq']

/-- The rectified difference with the block at (0, 0). -/
theorem rTerm_00 (x : RIn Ideal) (b : Fin 16) (r q : Fin 1024) :
    rTerm (F := Ideal) 0#32 0#32 x (ix3 b r q)
      = relu ((plane c01 (chan x b 0) (chan x b 1)) (r.val : ℤ) (q.val : ℤ) - (plane c01 (chan x b 0) (chan x b 1)) ((r.val : ℤ) - 1) ((q.val : ℤ) - 1)) :=
  rTerm_apply x 0#32 0#32 0 0 (by omega) (by omega) (by decide) (by decide) b r q _ _
    (by push_cast; omega) (by push_cast; omega)

/-- The rectified difference with the block at (0, 1). -/
theorem rTerm_01 (x : RIn Ideal) (b : Fin 16) (r q : Fin 1024) :
    rTerm (F := Ideal) 0#32 1#32 x (ix3 b r q)
      = relu ((plane c01 (chan x b 0) (chan x b 1)) (r.val : ℤ) (q.val : ℤ) - (plane c01 (chan x b 0) (chan x b 1)) ((r.val : ℤ) - 1) ((q.val : ℤ))) :=
  rTerm_apply x 0#32 1#32 0 1 (by omega) (by omega) (by decide) (by decide) b r q _ _
    (by push_cast; omega) (by push_cast; omega)

/-- The rectified difference with the block at (0, 2). -/
theorem rTerm_02 (x : RIn Ideal) (b : Fin 16) (r q : Fin 1024) :
    rTerm (F := Ideal) 0#32 2#32 x (ix3 b r q)
      = relu ((plane c01 (chan x b 0) (chan x b 1)) (r.val : ℤ) (q.val : ℤ) - (plane c01 (chan x b 0) (chan x b 1)) ((r.val : ℤ) - 1) ((q.val : ℤ) + 1)) :=
  rTerm_apply x 0#32 2#32 0 2 (by omega) (by omega) (by decide) (by decide) b r q _ _
    (by push_cast; omega) (by push_cast; omega)

/-- The rectified difference with the block at (1, 0). -/
theorem rTerm_10 (x : RIn Ideal) (b : Fin 16) (r q : Fin 1024) :
    rTerm (F := Ideal) 1#32 0#32 x (ix3 b r q)
      = relu ((plane c01 (chan x b 0) (chan x b 1)) (r.val : ℤ) (q.val : ℤ) - (plane c01 (chan x b 0) (chan x b 1)) ((r.val : ℤ)) ((q.val : ℤ) - 1)) :=
  rTerm_apply x 1#32 0#32 1 0 (by omega) (by omega) (by decide) (by decide) b r q _ _
    (by push_cast; omega) (by push_cast; omega)

/-- The rectified difference with the block at (1, 2). -/
theorem rTerm_12 (x : RIn Ideal) (b : Fin 16) (r q : Fin 1024) :
    rTerm (F := Ideal) 1#32 2#32 x (ix3 b r q)
      = relu ((plane c01 (chan x b 0) (chan x b 1)) (r.val : ℤ) (q.val : ℤ) - (plane c01 (chan x b 0) (chan x b 1)) ((r.val : ℤ)) ((q.val : ℤ) + 1)) :=
  rTerm_apply x 1#32 2#32 1 2 (by omega) (by omega) (by decide) (by decide) b r q _ _
    (by push_cast; omega) (by push_cast; omega)

/-- The rectified difference with the block at (2, 0). -/
theorem rTerm_20 (x : RIn Ideal) (b : Fin 16) (r q : Fin 1024) :
    rTerm (F := Ideal) 2#32 0#32 x (ix3 b r q)
      = relu ((plane c01 (chan x b 0) (chan x b 1)) (r.val : ℤ) (q.val : ℤ) - (plane c01 (chan x b 0) (chan x b 1)) ((r.val : ℤ) + 1) ((q.val : ℤ) - 1)) :=
  rTerm_apply x 2#32 0#32 2 0 (by omega) (by omega) (by decide) (by decide) b r q _ _
    (by push_cast; omega) (by push_cast; omega)

/-- The rectified difference with the block at (2, 1). -/
theorem rTerm_21 (x : RIn Ideal) (b : Fin 16) (r q : Fin 1024) :
    rTerm (F := Ideal) 2#32 1#32 x (ix3 b r q)
      = relu ((plane c01 (chan x b 0) (chan x b 1)) (r.val : ℤ) (q.val : ℤ) - (plane c01 (chan x b 0) (chan x b 1)) ((r.val : ℤ) + 1) ((q.val : ℤ))) :=
  rTerm_apply x 2#32 1#32 2 1 (by omega) (by omega) (by decide) (by decide) b r q _ _
    (by push_cast; omega) (by push_cast; omega)

/-- The rectified difference with the block at (2, 2). -/
theorem rTerm_22 (x : RIn Ideal) (b : Fin 16) (r q : Fin 1024) :
    rTerm (F := Ideal) 2#32 2#32 x (ix3 b r q)
      = relu ((plane c01 (chan x b 0) (chan x b 1)) (r.val : ℤ) (q.val : ℤ) - (plane c01 (chan x b 0) (chan x b 1)) ((r.val : ℤ) + 1) ((q.val : ℤ) + 1)) :=
  rTerm_apply x 2#32 2#32 2 2 (by omega) (by omega) (by decide) (by decide) b r q _ _
    (by push_cast; omega) (by push_cast; omega)

/-! ## The product of the eight rectified differences -/

/-- The scaled product at a pixel is `nms` of the plane there. -/
theorem rNms_apply (x : RIn Ideal) (b : Fin 16) (r q : Fin 1024) :
    rNms (F := Ideal) x (ix3 b r q) = nms c1 c256 (plane c01 (chan x b 0) (chan x b 1)) (r.val : ℤ) (q.val : ℤ) := by
  unfold rNms rProd
  show ((((((((rSplat (F := Ideal) 0x3F800000#32 (ix3 b r q) * rTerm (F := Ideal) 0#32 0#32 x (ix3 b r q))
    * rTerm (F := Ideal) 0#32 1#32 x (ix3 b r q)) * rTerm (F := Ideal) 0#32 2#32 x (ix3 b r q))
    * rTerm (F := Ideal) 1#32 0#32 x (ix3 b r q)) * rTerm (F := Ideal) 1#32 2#32 x (ix3 b r q))
    * rTerm (F := Ideal) 2#32 0#32 x (ix3 b r q)) * rTerm (F := Ideal) 2#32 1#32 x (ix3 b r q))
    * rTerm (F := Ideal) 2#32 2#32 x (ix3 b r q)) * rSplat (F := Ideal) 0x43800000#32 (ix3 b r q) = _
  rw [rTerm_00, rTerm_01, rTerm_02, rTerm_10, rTerm_12, rTerm_20, rTerm_21, rTerm_22, rSplat_apply, rSplat_apply]
  rfl

/-! ## The windowed maximum of the product -/

/-- The initial value of the windowed maximum is `⊥`. -/
theorem init_bot :
    (broadcastInDim S_ ![] Gen.bcast_S_S_ (constant (F := Ideal) S_ .f32 0xFF800000#32) :
      (⟨S_, .f32⟩ : BufTy).Contents (Elt Ideal)) (Shape.Idx.first Gen.h_S_) = (⊥ : EReal) := by
  refine (broadcastInDim_apply _ Gen.bcast_S_S_ _ _ (fun a => a.elim0) (fun a => a.elim0)).trans ?_
  show Ideal.ofBits .f32 0xFF800000#32 = ⊥
  simp [Ideal.ofBits, Ideal.ieee]

/-- The windowed maximum at a pixel is `poolRef` of `nms` of the plane there. -/
theorem rPool_apply (x : RIn Ideal) (b : Fin 16) (r q : Fin 1024) :
    rPool (F := Ideal) x (ix3 b r q) = poolRef (nms c1 c256 (plane c01 (chan x b 0) (chan x b 1))) (r.val : ℤ) (q.val : ℤ) := by
  unfold rPool
  exact reduceWindow_max_apply (rNms (F := Ideal) x) _ _ Gen.h_S_ init_bot b
    (nms c1 c256 (plane c01 (chan x b 0) (chan x b 1))) (fun r q => rNms_apply x b r q) r q

end Cert.Nms.RefRead

namespace Cert.Nms

open Idealize.ShloMosaic Idealize.ShloMosaic.ValueIdx Cert.ReferenceIdeal Cert.Nms.RefRead

/-! ## The result -/

/-- The reference's result is `G` of its input. -/
theorem ref_eq_G (x : RIn Ideal) : rOut (F := Ideal) x = G c01 c1 c256 x := by
  funext i
  obtain ⟨b, z, r, q, rfl⟩ : ∃ (b : Fin 16) (z : Fin 1) (r q : Fin 1024), i = ix4 b z r q :=
    ⟨i 0, i 1, i 2, i 3, eq_ix4 i⟩
  unfold rOut
  refine (broadcastInDim_apply _ Gen.bcast_S16x1024x1024_S16x1x1024x1024_0_2_3 _ (ix4 b z r q) (ix3 b r q)
    (fun a => match a with
      | ⟨0, _⟩ => by show b.val = if (16 : ℕ) = 1 then 0 else b.val; rw [if_neg (by decide)]
      | ⟨1, _⟩ => by show r.val = if (1024 : ℕ) = 1 then 0 else r.val; rw [if_neg (by decide)]
      | ⟨2, _⟩ => by show q.val = if (1024 : ℕ) = 1 then 0 else q.val; rw [if_neg (by decide)])).trans ?_
  show rXP (F := Ideal) x (ix3 b r q) * rPool (F := Ideal) x (ix3 b r q) = _
  rw [rXP_apply, rPool_apply]
  rfl

end Cert.Nms

end
-- ==== Proof.lean ====
/-
  The proof of `Cert.Claim` for a non-maximum-suppression kernel over f32[16, 2, 1024, 1024].

  Both programs compute, per batch entry, the rectified channel difference `P = max (x1 - x0 - 0.1) 0`
  (zero off the image), the product `N` of the eight rectified differences between `P` and its eight
  neighbours times 256, the 3 × 3 maximum of `N`, and the product of `P` with that maximum. The
  reference pads the maximum's window with −∞. The kernel works on slabs of 144 rows cut from a batch
  entry's block (128 stored rows with a margin of 8 on each side, zero rows off the image), takes the
  maximum separably, and stands a large negative finite number for a column off the image; a row off the
  image contributes `N = 0` there. Since `N ≥ 0` and a window always contains its centre, the two maxima
  are equal (Proof/PoolLaw.lean); no finiteness of the inputs is needed for that.

  Modules: Proof/Spec.lean (the mathematics on one plane; the function `G` of the input array),
  Proof/PoolLaw.lean (the two maxima agree; the literals' signs), Proof/Slab.lean and Proof/SlabRead.lean
  (the body's computation on one slab, and that computation read at an index), Proof/SlabCut.lean (each
  slab's plane is the block's plane shifted), Proof/KernelPieces.lean (the eight stored pieces of a block,
  six of them by a loop), Proof/KernelArray.lean (a block's value; the blocks tile the array; the kernel's
  run ends at `G`), Proof/RefStages.lean (the reference's stages as functions of its input array),
  Proof/RefRun.lean (the reference's run, its 96 operations read in ten short segments), Proof/RefRead.lean
  (the reference's result is `G`). The two kernels' frames are the generated frame certificates; the
  reference's frame is its run with the result forgotten; the idealization rewrote nothing.
-/
import proofs.«168791_j38654705664677_2_alg».proof.Defs
import proofs.«168791_j38654705664677_2_alg».proof.Proof.Gen.Kernel
import proofs.«168791_j38654705664677_2_alg».proof.Proof.Gen.Kernel.Frame
import proofs.«168791_j38654705664677_2_alg».proof.Proof.Gen.KernelIdeal
import proofs.«168791_j38654705664677_2_alg».proof.Proof.Gen.KernelIdeal.Frame
import proofs.«168791_j38654705664677_2_alg».proof.Proof.Gen.KernelIdeal.Value
import proofs.«168791_j38654705664677_2_alg».proof.Proof.Gen.ReferenceIdeal
import proofs.«168791_j38654705664677_2_alg».proof.Proof.Gen.Pre_finite_inputs
import proofs.«168791_j38654705664677_2_alg».proof.Proof.KernelArray
import proofs.«168791_j38654705664677_2_alg».proof.Proof.RefStages
import proofs.«168791_j38654705664677_2_alg».proof.Proof.RefRun
import proofs.«168791_j38654705664677_2_alg».proof.Proof.RefRead
import Idealize.ShloMosaic.Adequacy
import Idealize.ShloMosaic.Init

noncomputable section

namespace Cert.Proof

open Idealize.ShloMosaic Idealize.SL.Sem

/-- The kernel as printed runs and leaves its argument unchanged: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument unchanged: its run, the result forgotten. -/
theorem frame_ri : Cert.frame_ReferenceIdeal := fun m ρ _ =>
  (θ_run Cert.ReferenceIdeal.defs _ _).mono (fun _ h c => (h c).2) (Cert.Nms.ref_run (F := Ideal) m ρ)

/-- The idealization rewrote no operation. -/
theorem preserves : Cert.preserves_Kernel_KernelIdeal := trivial

/-- On the extended reals both programs end with the result array at `G` of the input array. -/
theorem algebraic : Cert.algebraic_KernelIdeal_ReferenceIdeal := by
  intro m ρ m' ρ' _ hagree
  refine ⟨fun c => Cert.Nms.G Cert.Nms.c01 Cert.Nms.c1 Cert.Nms.c256
      (m ((c.tc : Thread Cert.KernelIdeal.nD Cert.KernelIdeal.τ).loc Cert.KernelIdeal.main_arg0)),
    Cert.Nms.kernel_run m ρ, ?_⟩
  refine (θ_run Cert.ReferenceIdeal.defs _ _).mono (fun _ h c => ⟨(h c).1.trans ?_, (h c).2⟩)
    (Cert.Nms.ref_run (F := Ideal) m' ρ')
  exact (Cert.Nms.ref_eq_G _).trans (congrArg (Cert.Nms.G Cert.Nms.c01 Cert.Nms.c1 Cert.Nms.c256) (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
